-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_arg5 : FVec F S128x128 .f32) (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x128 .f32) (main_arg1 : FVec F S128x128 .f32) (main_arg2 : FVec F S128 .f32) (main_arg3 : FVec F S128x128 .f32) (main_arg4 : FVec F S128 .f32) (main_arg5 : FVec F S128x128 .f32) (main_arg6 : FVec F S128 .f32) (main_arg7 : IVec S1600000 32) (main_arg8 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_v13 main_v16
-- ==== Kernel.lean ====
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S4000x128 : Shape := ⟨2, ![4000, 128]⟩
abbrev S4000x1 : Shape := ⟨2, ![4000, 1]⟩
abbrev S1600000x128 : Shape := ⟨2, ![1600000, 128]⟩
abbrev S1x128 : Shape := ⟨2, ![1, 128]⟩
abbrev S100000x512 : Shape := ⟨2, ![100000, 512]⟩

abbrev nBuf : Space → Nat
  | .hbm => 75
  | .vmem => 42
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S1600000, .i32⟩
  | .hbm, ⟨8, _⟩ => ⟨S1600000, .i32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S1600000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S100000x1, .f32⟩
  | .hbm, ⟨29, _⟩ => ⟨S100000x128, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000x128, .f32⟩
  | .hbm, ⟨39, _⟩ => ⟨S_, .f32⟩
  | .hbm, ⟨40, _⟩ => ⟨S100000x128, .f32⟩
  | .hbm, ⟨41, _⟩ => ⟨S1600000x1, .i32⟩
  | .hbm, ⟨42, _⟩ => ⟨S100000x128, .f32⟩
  | .hbm, ⟨43, _⟩ => ⟨S100000x128, .f32⟩
  | .hbm, ⟨44, _⟩ => ⟨S100000x128, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x128, .f32⟩
  | .hbm, ⟨54, _⟩ => ⟨S_, .f32⟩
  | .hbm, ⟨55, _⟩ => ⟨S100000x128, .f32⟩
  | .hbm, ⟨56, _⟩ => ⟨S1600000x1, .i32⟩
  | .hbm, ⟨57, _⟩ => ⟨S100000x128, .f32⟩
  | .hbm, ⟨58, _⟩ => ⟨S100000x128, .f32⟩
  | .hbm, ⟨59, _⟩ => ⟨S100000x128, .f32⟩
  | .hbm, ⟨60, _⟩ => ⟨S_, .i32⟩
  | .hbm, ⟨61, _⟩ => ⟨S1600000, .i32⟩
  | .hbm, ⟨62, _⟩ => ⟨S1600000, .i1⟩
  | .hbm, ⟨63, _⟩ => ⟨S_, .i32⟩
  | .hbm, ⟨64, _⟩ => ⟨S1600000, .i32⟩
  | .hbm, ⟨65, _⟩ => ⟨S1600000, .i32⟩
  | .hbm, ⟨66, _⟩ => ⟨S1600000, .i32⟩
  | .hbm, ⟨67, _⟩ => ⟨S1600000x1, .i32⟩
  | .hbm, ⟨68, _⟩ => ⟨S1600000x128, .f32⟩
  | .hbm, ⟨69, _⟩ => ⟨S_, .f32⟩
  | .hbm, ⟨70, _⟩ => ⟨S100000x128, .f32⟩
  | .hbm, ⟨71, _⟩ => ⟨S1600000x1, .i32⟩
  | .hbm, ⟨72, _⟩ => ⟨S100000x128, .f32⟩
  | .hbm, ⟨73, _⟩ => ⟨S100000x128, .f32⟩
  | .hbm, ⟨74, _⟩ => ⟨S100000x512, .f32⟩
  | .local _ .vmem, ⟨0, _⟩ => ⟨S4000x128, .f32⟩
  | .local _ .vmem, ⟨1, _⟩ => ⟨S4000x128, .f32⟩
  | .local _ .vmem, ⟨2, _⟩ => ⟨S4000x1, .f32⟩
  | .local _ .vmem, ⟨3, _⟩ => ⟨S4000x1, .f32⟩
  | .local _ .vmem, ⟨4, _⟩ => ⟨S128x128, .f32⟩
  | .local _ .vmem, ⟨5, _⟩ => ⟨S4000x128, .f32⟩
  | .local _ .vmem, ⟨6, _⟩ => ⟨S4000x128, .f32⟩
  | .local _ .vmem, ⟨7, _⟩ => ⟨S4000x128, .f32⟩
  | .local _ .vmem, ⟨8, _⟩ => ⟨S4000x128, .f32⟩
  | .local _ .vmem, ⟨9, _⟩ => ⟨S4000x1, .f32⟩
  | .local _ .vmem, ⟨10, _⟩ => ⟨S4000x1, .f32⟩
  | .local _ .vmem, ⟨11, _⟩ => ⟨S128, .f32⟩
  | .local _ .vmem, ⟨12, _⟩ => ⟨S4000x128, .f32⟩
  | .local _ .vmem, ⟨13, _⟩ => ⟨S4000x128, .f32⟩
  | .local _ .vmem, ⟨14, _⟩ => ⟨S4000x128, .f32⟩
  | .local _ .vmem, ⟨15, _⟩ => ⟨S4000x128, .f32⟩
  | .local _ .vmem, ⟨16, _⟩ => ⟨S4000x1, .f32⟩
  | .local _ .vmem, ⟨17, _⟩ => ⟨S4000x1, .f32⟩
  | .local _ .vmem, ⟨18, _⟩ => ⟨S128x128, .f32⟩
  | .local _ .vmem, ⟨19, _⟩ => ⟨S4000x128, .f32⟩
  | .local _ .vmem, ⟨20, _⟩ => ⟨S4000x128, .f32⟩
  | .local _ .vmem, ⟨21, _⟩ => ⟨S4000x128, .f32⟩
  | .local _ .vmem, ⟨22, _⟩ => ⟨S4000x128, .f32⟩
  | .local _ .vmem, ⟨23, _⟩ => ⟨S4000x1, .f32⟩
  | .local _ .vmem, ⟨24, _⟩ => ⟨S4000x1, .f32⟩
  | .local _ .vmem, ⟨25, _⟩ => ⟨S128, .f32⟩
  | .local _ .vmem, ⟨26, _⟩ => ⟨S4000x128, .f32⟩
  | .local _ .vmem, ⟨27, _⟩ => ⟨S4000x128, .f32⟩
  | .local _ .vmem, ⟨28, _⟩ => ⟨S4000x128, .f32⟩
  | .local _ .vmem, ⟨29, _⟩ => ⟨S4000x128, .f32⟩
  | .local _ .vmem, ⟨30, _⟩ => ⟨S4000x1, .f32⟩
  | .local _ .vmem, ⟨31, _⟩ => ⟨S4000x1, .f32⟩
  | .local _ .vmem, ⟨32, _⟩ => ⟨S128x128, .f32⟩
  | .local _ .vmem, ⟨33, _⟩ => ⟨S4000x128, .f32⟩
  | .local _ .vmem, ⟨34, _⟩ => ⟨S4000x128, .f32⟩
  | .local _ .vmem, ⟨35, _⟩ => ⟨S4000x128, .f32⟩
  | .local _ .vmem, ⟨36, _⟩ => ⟨S4000x128, .f32⟩
  | .local _ .vmem, ⟨37, _⟩ => ⟨S4000x1, .f32⟩
  | .local _ .vmem, ⟨38, _⟩ => ⟨S4000x1, .f32⟩
  | .local _ .vmem, ⟨39, _⟩ => ⟨S128, .f32⟩
  | .local _ .vmem, ⟨40, _⟩ => ⟨S4000x128, .f32⟩
  | .local _ .vmem, ⟨41, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_3 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_6 : Ref sig .tc := ⟨.hbm, 45, rfl⟩
abbrev main_v28 : Ref sig .tc := ⟨.hbm, 46, rfl⟩
abbrev main_v29 : Ref sig .tc := ⟨.hbm, 47, rfl⟩
abbrev main_c_7 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_8 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_c_9 : Ref sig .tc := ⟨.hbm, 60, rfl⟩
abbrev main_v40 : Ref sig .tc := ⟨.hbm, 61, rfl⟩
abbrev main_v41 : Ref sig .tc := ⟨.hbm, 62, rfl⟩
abbrev main_c_10 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_11 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg3_0 : Ref sig .tc := ⟨.vmem, 33, rfl⟩
abbrev cc4_stg3_1 : Ref sig .tc := ⟨.vmem, 34, rfl⟩
abbrev cc5_stg0_0 : Ref sig .tc := ⟨.vmem, 35, rfl⟩
abbrev cc5_stg0_1 : Ref sig .tc := ⟨.vmem, 36, rfl⟩
abbrev cc5_stg1_0 : Ref sig .tc := ⟨.vmem, 37, rfl⟩
abbrev cc5_stg1_1 : Ref sig .tc := ⟨.vmem, 38, rfl⟩
abbrev cc5_stg2_0 : Ref sig .tc := ⟨.vmem, 39, rfl⟩
abbrev cc5_stg3_0 : Ref sig .tc := ⟨.vmem, 40, rfl⟩
abbrev cc5_stg3_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem3_0 : DmaSem sig := 33
abbrev cc4_sem3_1 : DmaSem sig := 34
abbrev cc5_sem0_0 : DmaSem sig := 35
abbrev cc5_sem0_1 : DmaSem sig := 36
abbrev cc5_sem1_0 : DmaSem sig := 37
abbrev cc5_sem1_1 : DmaSem sig := 38
abbrev cc5_sem2_0 : DmaSem sig := 39
abbrev cc5_sem3_0 : DmaSem sig := 40
abbrev cc5_sem3_1 : DmaSem sig := 41

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S4000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S4000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S4000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S4000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S4000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S4000x128_S4000x128_0_0 : ∀ a, (![0, 0] : Fin 2 → Nat) a + S4000x128.size a ≤ S4000x128.size a
  h_S4000x128 : 0 < S4000x128.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S100000x128 : S_.BroadcastsInDim S100000x128 (![] : Fin 0 → Fin S100000x128.rank)
  shapeCasts_S4000x128_S4000x128 : S4000x128.ShapeCasts S4000x128
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  concatenates_S100000x128_S100000x128_S100000x128_S100000x128_S100000x512_d1 : Shape.Concatenates [S100000x128, S100000x128, S100000x128, S100000x128] S100000x512 1
  scatter_S100000_S1600000x1_S1600000_n_0_0_1_wf : ScatterDims.WF S100000 S1600000x1 S1600000 [] [0] [0] 1
  dot_S4000x128_S128x128_S4000x128_1_0_0_1_n_n_wf : DotDims.WF S4000x128 S128x128 S4000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x1.size a ≤ S100000x1.size a
  hwx0_1 : ∀ i : grid0.Coords, EltTy.bits .f32 = 32 ∨ (Rect.block (s := S100000x1) S4000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x128.size a ≤ S100000x128.size a
  hwx0_3 : ∀ i : grid0.Coords, EltTy.bits .f32 = 32 ∨ (Rect.block (s := S100000x128) S4000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S100000x1.size a
  hwx1_1 : ∀ i : grid1.Coords, EltTy.bits .f32 = 32 ∨ (Rect.block (s := S100000x1) S4000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x128.size a ≤ S100000x128.size a
  hwx1_3 : ∀ i : grid1.Coords, EltTy.bits .f32 = 32 ∨ (Rect.block (s := S100000x128) S4000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x1.size a ≤ S100000x1.size a
  hwx2_1 : ∀ i : grid2.Coords, EltTy.bits .f32 = 32 ∨ (Rect.block (s := S100000x1) S4000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4000x128.size a ≤ S100000x128.size a
  hwx2_3 : ∀ i : grid2.Coords, EltTy.bits .f32 = 32 ∨ (Rect.block (s := S100000x128) S4000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S100000x128.size a
  hwx3_0 : ∀ i : grid3.Coords, EltTy.bits .f32 = 32 ∨ (Rect.block (s := S100000x128) S4000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x1.size a ≤ S100000x1.size a
  hwx3_1 : ∀ i : grid3.Coords, EltTy.bits .f32 = 32 ∨ (Rect.block (s := S100000x1) S4000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128.size a ≤ S128.size a
  hwx3_2 : ∀ i : grid3.Coords, EltTy.bits .f32 = 32 ∨ (Rect.block (s := S128) S128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S4000x128.size a ≤ S100000x128.size a
  hwx3_3 : ∀ i : grid3.Coords, EltTy.bits .f32 = 32 ∨ (Rect.block (s := S100000x128) S4000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x128.size a ≤ S100000x128.size a
  hwx4_0 : ∀ i : grid4.Coords, EltTy.bits .f32 = 32 ∨ (Rect.block (s := S100000x128) S4000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4000x1.size a ≤ S100000x1.size a
  hwx4_1 : ∀ i : grid4.Coords, EltTy.bits .f32 = 32 ∨ (Rect.block (s := S100000x1) S4000x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S4000x128.size a ≤ S100000x128.size a
  hwx4_3 : ∀ i : grid4.Coords, EltTy.bits .f32 = 32 ∨ (Rect.block (s := S100000x128) S4000x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4000x128.size a ≤ S100000x128.size a
  hwx5_0 : ∀ i : grid5.Coords, EltTy.bits .f32 = 32 ∨ (Rect.block (s := S100000x128) S4000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S4000x1.size a ≤ S100000x1.size a
  hwx5_1 : ∀ i : grid5.Coords, EltTy.bits .f32 = 32 ∨ (Rect.block (s := S100000x1) S4000x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128.size a ≤ S128.size a
  hwx5_2 : ∀ i : grid5.Coords, EltTy.bits .f32 = 32 ∨ (Rect.block (s := S128) S128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S4000x128.size a ≤ S100000x128.size a
  hwx5_3 : ∀ i : grid5.Coords, EltTy.bits .f32 = 32 ∨ (Rect.block (s := S100000x128) S4000x128.size (cc5_transform_3 i) (hinb5_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S4000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S4000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v25) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v26) S4000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v26) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v13) S4000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg3) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v27) S4000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v37) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v14) S4000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg4) S128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v38) S4000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v38) S4000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v13) S4000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg5) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v39) S4000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v49) S4000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v14) S4000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg6) S128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v50) S4000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S100000x512 : Shape := ⟨2, ![100000, 512]⟩

abbrev nBuf : Space → Nat
  | .hbm => 106
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S1600000, .i32⟩
  | .hbm, ⟨8, _⟩ => ⟨S1600000, .i32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S1600000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S100000x128, .f32⟩
  | .hbm, ⟨29, _⟩ => ⟨S100000x128, .f32⟩
  | .hbm, ⟨30, _⟩ => ⟨S100000x128, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x128, .f32⟩
  | .hbm, ⟨40, _⟩ => ⟨S_, .f32⟩
  | .hbm, ⟨41, _⟩ => ⟨S100000x128, .f32⟩
  | .hbm, ⟨42, _⟩ => ⟨S1600000x1, .i32⟩
  | .hbm, ⟨43, _⟩ => ⟨S100000x128, .f32⟩
  | .hbm, ⟨44, _⟩ => ⟨S100000x1, .f32⟩
  | .hbm, ⟨45, _⟩ => ⟨S100000x128, .f32⟩
  | .hbm, ⟨46, _⟩ => ⟨S100000x128, .f32⟩
  | .hbm, ⟨47, _⟩ => ⟨S1x128, .f32⟩
  | .hbm, ⟨48, _⟩ => ⟨S100000x128, .f32⟩
  | .hbm, ⟨49, _⟩ => ⟨S100000x128, .f32⟩
  | .hbm, ⟨50, _⟩ => ⟨S_, .f32⟩
  | .hbm, ⟨51, _⟩ => ⟨S100000x128, .f32⟩
  | .hbm, ⟨52, _⟩ => ⟨S100000x128, .f32⟩
  | .hbm, ⟨53, _⟩ => ⟨S100000x1, .f32⟩
  | .hbm, ⟨54, _⟩ => ⟨S100000x128, .f32⟩
  | .hbm, ⟨55, _⟩ => ⟨S100000x128, .f32⟩
  | .hbm, ⟨56, _⟩ => ⟨S100000x128, .f32⟩
  | .hbm, ⟨57, _⟩ => ⟨S_, .i32⟩
  | .hbm, ⟨58, _⟩ => ⟨S1600000, .i32⟩
  | .hbm, ⟨59, _⟩ => ⟨S1600000, .i1⟩
  | .hbm, ⟨60, _⟩ => ⟨S_, .i32⟩
  | .hbm, ⟨61, _⟩ => ⟨S1600000, .i32⟩
  | .hbm, ⟨62, _⟩ => ⟨S1600000, .i32⟩
  | .hbm, ⟨63, _⟩ => ⟨S1600000, .i32⟩
  | .hbm, ⟨64, _⟩ => ⟨S1600000x1, .i32⟩
  | .hbm, ⟨65, _⟩ => ⟨S1600000x128, .f32⟩
  | .hbm, ⟨66, _⟩ => ⟨S_, .f32⟩
  | .hbm, ⟨67, _⟩ => ⟨S100000x128, .f32⟩
  | .hbm, ⟨68, _⟩ => ⟨S1600000x1, .i32⟩
  | .hbm, ⟨69, _⟩ => ⟨S100000x128, .f32⟩
  | .hbm, ⟨70, _⟩ => ⟨S100000x1, .f32⟩
  | .hbm, ⟨71, _⟩ => ⟨S100000x128, .f32⟩
  | .hbm, ⟨72, _⟩ => ⟨S100000x128, .f32⟩
  | .hbm, ⟨73, _⟩ => ⟨S1x128, .f32⟩
  | .hbm, ⟨74, _⟩ => ⟨S100000x128, .f32⟩
  | .hbm, ⟨75, _⟩ => ⟨S100000x128, .f32⟩
  | .hbm, ⟨76, _⟩ => ⟨S_, .f32⟩
  | .hbm, ⟨77, _⟩ => ⟨S100000x128, .f32⟩
  | .hbm, ⟨78, _⟩ => ⟨S100000x128, .f32⟩
  | .hbm, ⟨79, _⟩ => ⟨S100000x1, .f32⟩
  | .hbm, ⟨80, _⟩ => ⟨S100000x128, .f32⟩
  | .hbm, ⟨81, _⟩ => ⟨S100000x128, .f32⟩
  | .hbm, ⟨82, _⟩ => ⟨S100000x128, .f32⟩
  | .hbm, ⟨83, _⟩ => ⟨S_, .i32⟩
  | .hbm, ⟨84, _⟩ => ⟨S1600000, .i32⟩
  | .hbm, ⟨85, _⟩ => ⟨S1600000, .i1⟩
  | .hbm, ⟨86, _⟩ => ⟨S_, .i32⟩
  | .hbm, ⟨87, _⟩ => ⟨S1600000, .i32⟩
  | .hbm, ⟨88, _⟩ => ⟨S1600000, .i32⟩
  | .hbm, ⟨89, _⟩ => ⟨S1600000, .i32⟩
  | .hbm, ⟨90, _⟩ => ⟨S1600000x1, .i32⟩
  | .hbm, ⟨91, _⟩ => ⟨S1600000x128, .f32⟩
  | .hbm, ⟨92, _⟩ => ⟨S_, .f32⟩
  | .hbm, ⟨93, _⟩ => ⟨S100000x128, .f32⟩
  | .hbm, ⟨94, _⟩ => ⟨S1600000x1, .i32⟩
  | .hbm, ⟨95, _⟩ => ⟨S100000x128, .f32⟩
  | .hbm, ⟨96, _⟩ => ⟨S100000x1, .f32⟩
  | .hbm, ⟨97, _⟩ => ⟨S100000x128, .f32⟩
  | .hbm, ⟨98, _⟩ => ⟨S100000x128, .f32⟩
  | .hbm, ⟨99, _⟩ => ⟨S1x128, .f32⟩
  | .hbm, ⟨100, _⟩ => ⟨S100000x128, .f32⟩
  | .hbm, ⟨101, _⟩ => ⟨S100000x128, .f32⟩
  | .hbm, ⟨102, _⟩ => ⟨S_, .f32⟩
  | .hbm, ⟨103, _⟩ => ⟨S100000x128, .f32⟩
  | .hbm, ⟨104, _⟩ => ⟨S100000x128, .f32⟩
  | .hbm, ⟨105, _⟩ => ⟨S100000x512, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_3 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_c_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_call0_cst : Ref sig .tc := ⟨.hbm, 50, rfl⟩
abbrev main_call0_v0 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_c_6 : Ref sig .tc := ⟨.hbm, 57, rfl⟩
abbrev main_v38 : Ref sig .tc := ⟨.hbm, 58, rfl⟩
abbrev main_v39 : Ref sig .tc := ⟨.hbm, 59, rfl⟩
abbrev main_c_7 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_8 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_call1_cst : Ref sig .tc := ⟨.hbm, 76, rfl⟩
abbrev main_call1_v0 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_c_9 : Ref sig .tc := ⟨.hbm, 83, rfl⟩
abbrev main_v59 : Ref sig .tc := ⟨.hbm, 84, rfl⟩
abbrev main_v60 : Ref sig .tc := ⟨.hbm, 85, rfl⟩
abbrev main_c_10 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_11 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_call2_cst : Ref sig .tc := ⟨.hbm, 102, rfl⟩
abbrev main_call2_v0 : Ref sig .tc := ⟨.hbm, 103, rfl⟩
abbrev main_v75 : Ref sig .tc := ⟨.hbm, 104, rfl⟩
abbrev main_v76 : Ref sig .tc := ⟨.hbm, 105, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  concatenates_S100000x128_S100000x128_S100000x128_S100000x128_S100000x512_d1 : Shape.Concatenates [S100000x128, S100000x128, S100000x128, S100000x128] S100000x512 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.K.Region0.lean ====
import proofs.«106910_j66125316489905_1_alg».proof.Proof.K.Launch
import proofs.«106910_j66125316489905_1_alg».proof.Proof.Gen.Kernel.Skeleton
import proofs.«106910_j66125316489905_1_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Region 0: `cc0__preagg_kernel` on a grid of 25 row tiles

Stated at a parameter `V`, the contents of the core's buffers when the region is entered. Window 0 is a 4000×128 tile of
the node array, window 1 the matching 4000×1 tile of the scaling column, window 2 the whole 128×128 weight matrix (fetched once
and kept), window 3 the 4000×128 output tile: the node tile scaled row by row by the column tile, times the whole weight matrix. -/

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every grid point, fetched there or not: where it is not
    fetched its block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every grid point, fetched there or not: where it is not
    fetched its block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every grid point, fetched there or not: where it is not
    fetched its block index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer is read and written whole -/

abbrev r0_a : Rect S4000x128 := Rect.unit (s := S4000x128) ![0, 0] S4000x128.size inb_S4000x128_S4000x128_0_0
abbrev r0_b : Rect S4000x1 := Rect.unit (s := S4000x1) ![0, 0] S4000x1.size inb_S4000x1_S4000x1_0_0
abbrev r0_c : Rect S128x128 := Rect.unit (s := S128x128) ![0, 0] S128x128.size inb_S128x128_S128x128_0_0

/-- The output tile after the body, from the three input tiles: its one store, of the body's arithmetic on the loads. -/
def out0_3 (x0 : Vec F S4000x128 .f32) (x1 : Vec F S4000x1 .f32) (x2 : Vec F S128x128 .f32) : Vec F S4000x128 .f32 :=
  View.canon [⟨r0_a, k0_pay1 (View.ld x0 r0_a) (View.ld x1 r0_b) (View.ld x2 r0_c)⟩]

/-- The one store covers the whole output tile. -/
theorem cover0_3 (p0 : Vec F S4000x128 .f32) (y : S4000x128.Idx) :
    ∃ pc ∈ ([⟨r0_a, p0⟩] : List (View.Piece (Elt F) S4000x128 .f32)), y ∈ pc.1.set :=
  View.cover_of_tiled [⟨r0_a, p0⟩] S4000x128.size (by rfl) y

set_option maxHeartbeats 1000000 in
/-- The body on whole staging buffers — the inputs' holding `x0`, `x1`, `x2`, the output's anything — runs to its
    continuation with the inputs as they were and the output at `out0_3` of them. -/
theorem sound_kernel0 (c : Dev nD) (E : Set ℕ) (i : grid0.Coords)
    (arg1 : Memref sig .tc .vmem S4000x128 .f32) (harg1 : arg1.IsWhole) (arg2 : Memref sig .tc .vmem S4000x1 .f32) (harg2 : arg2.IsWhole)
    (arg3 : Memref sig .tc .vmem S128x128 .f32) (harg3 : arg3.IsWhole) (arg4 : Memref sig .tc .vmem S4000x128 .f32) (harg4 : arg4.IsWhole)
    (x0 : Vec F S4000x128 .f32) (x1 : Vec F S4000x1 .f32) (x2 : Vec F S128x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__preagg_kernel i arg1 harg1 arg2 harg2 arg3 harg3 arg4 harg4) K := by
  simp only [cc0__preagg_kernel_eq_skeleton]; unfold cc0__preagg_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The region's proof data -/

/-- Arrays as the region finds them; after the body at point `t` each input buffer still holds its block and the
    output buffer holds `out0_3` of the three input blocks; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation at a generic grid point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the input buffers hold their blocks, so `sound_kernel0` applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.K.Region1.lean ====
import proofs.«106910_j66125316489905_1_alg».proof.Proof.K.Launch
import proofs.«106910_j66125316489905_1_alg».proof.Proof.Gen.Kernel.Skeleton
import proofs.«106910_j66125316489905_1_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Region 1: `cc1__postagg_kernel` on a grid of 25 row tiles

Stated at a parameter `V`, the contents of the core's buffers when the region is entered. Window 0 is a 4000×128 tile of
the node array, window 1 the matching 4000×1 tile of the scaling column, window 2 the whole bias vector (fetched once
and kept), window 3 the 4000×128 output tile: the aggregated tile scaled row by row by the column tile, plus the bias row, clamped below at zero. -/

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every grid point, fetched there or not: where it is not
    fetched its block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every grid point, fetched there or not: where it is not
    fetched its block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every grid point, fetched there or not: where it is not
    fetched its block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer is read and written whole -/

abbrev r1_a : Rect S4000x128 := Rect.unit (s := S4000x128) ![0, 0] S4000x128.size inb_S4000x128_S4000x128_0_0
abbrev r1_b : Rect S4000x1 := Rect.unit (s := S4000x1) ![0, 0] S4000x1.size inb_S4000x1_S4000x1_0_0
abbrev r1_c : Rect S128 := Rect.unit (s := S128) ![0] S128.size inb_S128_S128_0

/-- The output tile after the body, from the three input tiles: its one store, of the body's arithmetic on the loads. -/
def out1_3 (x0 : Vec F S4000x128 .f32) (x1 : Vec F S4000x1 .f32) (x2 : Vec F S128 .f32) : Vec F S4000x128 .f32 :=
  View.canon [⟨r1_a, k1_pay1 (View.ld x0 r1_a) (View.ld x1 r1_b) (View.ld x2 r1_c)⟩]

/-- The one store covers the whole output tile. -/
theorem cover1_3 (p0 : Vec F S4000x128 .f32) (y : S4000x128.Idx) :
    ∃ pc ∈ ([⟨r1_a, p0⟩] : List (View.Piece (Elt F) S4000x128 .f32)), y ∈ pc.1.set :=
  View.cover_of_tiled [⟨r1_a, p0⟩] S4000x128.size (by rfl) y

set_option maxHeartbeats 1000000 in
/-- The body on whole staging buffers — the inputs' holding `x0`, `x1`, `x2`, the output's anything — runs to its
    continuation with the inputs as they were and the output at `out1_3` of them. -/
theorem sound_kernel1 (c : Dev nD) (E : Set ℕ) (i : grid1.Coords)
    (arg1 : Memref sig .tc .vmem S4000x128 .f32) (harg1 : arg1.IsWhole) (arg2 : Memref sig .tc .vmem S4000x1 .f32) (harg2 : arg2.IsWhole)
    (arg3 : Memref sig .tc .vmem S128 .f32) (harg3 : arg3.IsWhole) (arg4 : Memref sig .tc .vmem S4000x128 .f32) (harg4 : arg4.IsWhole)
    (x0 : Vec F S4000x128 .f32) (x1 : Vec F S4000x1 .f32) (x2 : Vec F S128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__postagg_kernel i arg1 harg1 arg2 harg2 arg3 harg3 arg4 harg4) K := by
  simp only [cc1__postagg_kernel_eq_skeleton]; unfold cc1__postagg_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The region's proof data -/

/-- Arrays as the region finds them; after the body at point `t` each input buffer still holds its block and the
    output buffer holds `out1_3` of the three input blocks; nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation at a generic grid point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the input buffers hold their blocks, so `sound_kernel1` applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.K.Region2.lean ====
import proofs.«106910_j66125316489905_1_alg».proof.Proof.K.Launch
import proofs.«106910_j66125316489905_1_alg».proof.Proof.Gen.Kernel.Skeleton
import proofs.«106910_j66125316489905_1_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Region 2: `cc2__preagg_kernel` on a grid of 25 row tiles

Stated at a parameter `V`, the contents of the core's buffers when the region is entered. Window 0 is a 4000×128 tile of
the node array, window 1 the matching 4000×1 tile of the scaling column, window 2 the whole 128×128 weight matrix (fetched once
and kept), window 3 the 4000×128 output tile: the node tile scaled row by row by the column tile, times the whole weight matrix. -/

variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every grid point, fetched there or not: where it is not
    fetched its block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every grid point, fetched there or not: where it is not
    fetched its block index has not moved. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at every grid point, fetched there or not: where it is not
    fetched its block index has not moved. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer is read and written whole -/

abbrev r2_a : Rect S4000x128 := Rect.unit (s := S4000x128) ![0, 0] S4000x128.size inb_S4000x128_S4000x128_0_0
abbrev r2_b : Rect S4000x1 := Rect.unit (s := S4000x1) ![0, 0] S4000x1.size inb_S4000x1_S4000x1_0_0
abbrev r2_c : Rect S128x128 := Rect.unit (s := S128x128) ![0, 0] S128x128.size inb_S128x128_S128x128_0_0

/-- The output tile after the body, from the three input tiles: its one store, of the body's arithmetic on the loads. -/
def out2_3 (x0 : Vec F S4000x128 .f32) (x1 : Vec F S4000x1 .f32) (x2 : Vec F S128x128 .f32) : Vec F S4000x128 .f32 :=
  View.canon [⟨r2_a, k2_pay1 (View.ld x0 r2_a) (View.ld x1 r2_b) (View.ld x2 r2_c)⟩]

/-- The one store covers the whole output tile. -/
theorem cover2_3 (p0 : Vec F S4000x128 .f32) (y : S4000x128.Idx) :
    ∃ pc ∈ ([⟨r2_a, p0⟩] : List (View.Piece (Elt F) S4000x128 .f32)), y ∈ pc.1.set :=
  View.cover_of_tiled [⟨r2_a, p0⟩] S4000x128.size (by rfl) y

set_option maxHeartbeats 1000000 in
/-- The body on whole staging buffers — the inputs' holding `x0`, `x1`, `x2`, the output's anything — runs to its
    continuation with the inputs as they were and the output at `out2_3` of them. -/
theorem sound_kernel2 (c : Dev nD) (E : Set ℕ) (i : grid2.Coords)
    (arg1 : Memref sig .tc .vmem S4000x128 .f32) (harg1 : arg1.IsWhole) (arg2 : Memref sig .tc .vmem S4000x1 .f32) (harg2 : arg2.IsWhole)
    (arg3 : Memref sig .tc .vmem S128x128 .f32) (harg3 : arg3.IsWhole) (arg4 : Memref sig .tc .vmem S4000x128 .f32) (harg4 : arg4.IsWhole)
    (x0 : Vec F S4000x128 .f32) (x1 : Vec F S4000x1 .f32) (x2 : Vec F S128x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__preagg_kernel i arg1 harg1 arg2 harg2 arg3 harg3 arg4 harg4) K := by
  simp only [cc2__preagg_kernel_eq_skeleton]; unfold cc2__preagg_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The region's proof data -/

/-- Arrays as the region finds them; after the body at point `t` each input buffer still holds its block and the
    output buffer holds `out2_3` of the three input blocks; nothing owed, full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation at a generic grid point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the input buffers hold their blocks, so `sound_kernel2` applies; the invariant and what
    the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Fr

end
-- ==== Proof.K.Region3.lean ====
import proofs.«106910_j66125316489905_1_alg».proof.Proof.K.Launch
import proofs.«106910_j66125316489905_1_alg».proof.Proof.Gen.Kernel.Skeleton
import proofs.«106910_j66125316489905_1_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Region 3: `cc3__postagg_kernel` on a grid of 25 row tiles

Stated at a parameter `V`, the contents of the core's buffers when the region is entered. Window 0 is a 4000×128 tile of
the node array, window 1 the matching 4000×1 tile of the scaling column, window 2 the whole bias vector (fetched once
and kept), window 3 the 4000×128 output tile: the aggregated tile scaled row by row by the column tile, plus the bias row, clamped below at zero. -/

variable (V : (c : Dev nD) → (b : Ref sig .tc) → Buf (Elt F) ((c : Thread nD τ).loc b))

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds its block at every grid point, fetched there or not: where it is not
    fetched its block index has not moved. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's staging buffer holds its block at every grid point, fetched there or not: where it is not
    fetched its block index has not moved. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's staging buffer holds its block at every grid point, fetched there or not: where it is not
    fetched its block index has not moved. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each buffer is read and written whole -/

abbrev r3_a : Rect S4000x128 := Rect.unit (s := S4000x128) ![0, 0] S4000x128.size inb_S4000x128_S4000x128_0_0
abbrev r3_b : Rect S4000x1 := Rect.unit (s := S4000x1) ![0, 0] S4000x1.size inb_S4000x1_S4000x1_0_0
abbrev r3_c : Rect S128 := Rect.unit (s := S128) ![0] S128.size inb_S128_S128_0

/-- The output tile after the body, from the three input tiles: its one store, of the body's arithmetic on the loads. -/
def out3_3 (x0 : Vec F S4000x128 .f32) (x1 : Vec F S4000x1 .f32) (x2 : Vec F S128 .f32) : Vec F S4000x128 .f32 :=
  View.canon [⟨r3_a, k3_pay1 (View.ld x0 r3_a) (View.ld x1 r3_b) (View.ld x2 r3_c)⟩]

/-- The one store covers the whole output tile. -/
theorem cover3_3 (p0 : Vec F S4000x128 .f32) (y : S4000x128.Idx) :
    ∃ pc ∈ ([⟨r3_a, p0⟩] : List (View.Piece (Elt F) S4000x128 .f32)), y ∈ pc.1.set :=
  View.cover_of_tiled [⟨r3_a, p0⟩] S4000x128.size (by rfl) y

set_option maxHeartbeats 1000000 in
/-- The body on whole staging buffers — the inputs' holding `x0`, `x1`, `x2`, the output's anything — runs to its
    continuation with the inputs as they were and the output at `out3_3` of them. -/
theorem sound_kernel3 (c : Dev nD) (E : Set ℕ) (i : grid3.Coords)
    (arg1 : Memref sig .tc .vmem S4000x128 .f32) (harg1 : arg1.IsWhole) (arg2 : Memref sig .tc .vmem S4000x1 .f32) (harg2 : arg2.IsWhole)
    (arg3 : Memref sig .tc .vmem S128 .f32) (harg3 : arg3.IsWhole) (arg4 : Memref sig .tc .vmem S4000x128 .f32) (harg4 : arg4.IsWhole)
    (x0 : Vec F S4000x128 .f32) (x1 : Vec F S4000x1 .f32) (x2 : Vec F S128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 x0 x1 x2)) -∗ K ⟨⟩))
      ⊢ wp frame (wpE (defs₀ (F := F)) Variants.none c none) E (cc3__postagg_kernel i arg1 harg1 arg2 harg2 arg3 harg3 arg4 harg4) K := by
  simp only [cc3__postagg_kernel_eq_skeleton]; unfold cc3__postagg_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The region's proof data -/

/-- Arrays as the region finds them; after the body at point `t` each input buffer still holds its block and the
    output buffer holds `out3_3` of the three input blocks; nothing owed, full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation at a generic grid point -/

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the input buffers hold their blocks, so `sound_kernel3` applies; the invariant and what
    the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Fr

end
-- ==== Proof.K.Region4.lean ====
import proofs.«106910_j66125316489905_1_alg».proof.Proof.K.Launch
import proofs.«106910_j66125316489905_1_alg».proof.Proof.Gen.Kernel.Skeleton
import proofs.«106910_j66125316489905_1_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Region 4: `cc4__preagg_kernel` on a grid of 25 row tiles

Stated at a parameter `V`, the contents of the core's buffers when the region is entered. Window 0 is a 4000×128 tile of
the node array, window 1 the matching 4000×1 tile of the scaling column, window 2 the whole 128×128 weight matrix (fetched once
and kept), window 3 the 4000×128 output tile: the node tile scaled row by row by the column tile, times the whole weight matrix. -/

variable (V : (c : Dev nD) → (b : Ref sig .tc) → Buf (Elt F) ((c : Thread nD τ).loc b))

/-- Window `w`'s block at grid point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's staging buffer holds its block at every grid point, fetched there or not: where it is not
    fetched its block index has not moved. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's staging buffer holds its block at every grid point, fetched there or not: where it is not
    fetched its block index has not moved. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's staging buffer holds its block at every grid point, fetched there or not: where it is not
    fetched its block index has not moved. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each buffer is read and written whole -/

abbrev r4_a : Rect S4000x128 := Rect.unit (s := S4000x128) ![0, 0] S4000x128.size inb_S4000x128_S4000x128_0_0
abbrev r4_b : Rect S4000x1 := Rect.unit (s := S4000x1) ![0, 0] S4000x1.size inb_S4000x1_S4000x1_0_0
abbrev r4_c : Rect S128x128 := Rect.unit (s := S128x128) ![0, 0] S128x128.size inb_S128x128_S128x128_0_0

/-- The output tile after the body, from the three input tiles: its one store, of the body's arithmetic on the loads. -/
def out4_3 (x0 : Vec F S4000x128 .f32) (x1 : Vec F S4000x1 .f32) (x2 : Vec F S128x128 .f32) : Vec F S4000x128 .f32 :=
  View.canon [⟨r4_a, k4_pay1 (View.ld x0 r4_a) (View.ld x1 r4_b) (View.ld x2 r4_c)⟩]

/-- The one store covers the whole output tile. -/
theorem cover4_3 (p0 : Vec F S4000x128 .f32) (y : S4000x128.Idx) :
    ∃ pc ∈ ([⟨r4_a, p0⟩] : List (View.Piece (Elt F) S4000x128 .f32)), y ∈ pc.1.set :=
  View.cover_of_tiled [⟨r4_a, p0⟩] S4000x128.size (by rfl) y

set_option maxHeartbeats 1000000 in
/-- The body on whole staging buffers — the inputs' holding `x0`, `x1`, `x2`, the output's anything — runs to its
    continuation with the inputs as they were and the output at `out4_3` of them. -/
theorem sound_kernel4 (c : Dev nD) (E : Set ℕ) (i : grid4.Coords)
    (arg1 : Memref sig .tc .vmem S4000x128 .f32) (harg1 : arg1.IsWhole) (arg2 : Memref sig .tc .vmem S4000x1 .f32) (harg2 : arg2.IsWhole)
    (arg3 : Memref sig .tc .vmem S128x128 .f32) (harg3 : arg3.IsWhole) (arg4 : Memref sig .tc .vmem S4000x128 .f32) (harg4 : arg4.IsWhole)
    (x0 : Vec F S4000x128 .f32) (x1 : Vec F S4000x1 .f32) (x2 : Vec F S128x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out4_3 x0 x1 x2)) -∗ K ⟨⟩))
      ⊢ wp frame (wpE (defs₀ (F := F)) Variants.none c none) E (cc4__preagg_kernel i arg1 harg1 arg2 harg2 arg3 harg3 arg4 harg4) K := by
  simp only [cc4__preagg_kernel_eq_skeleton]; unfold cc4__preagg_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

/-! ## The region's proof data -/

/-- Arrays as the region finds them; after the body at point `t` each input buffer still holds its block and the
    output buffer holds `out4_3` of the three input blocks; nothing owed, full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) :
    (dat4 V c).after 3 t = out4_3 (iblk4 V c 0 t) (iblk4 V c 1 t) (iblk4 V c 2 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation at a generic grid point -/

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the input buffers hold their blocks, so `sound_kernel4` applies; the invariant and what
    the core owes pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Fr

end
-- ==== Proof.K.Region5.lean ====
import proofs.«106910_j66125316489905_1_alg».proof.Proof.K.Launch
import proofs.«106910_j66125316489905_1_alg».proof.Proof.Gen.Kernel.Skeleton
import proofs.«106910_j66125316489905_1_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Region 5: `cc5__postagg_kernel` on a grid of 25 row tiles

Stated at a parameter `V`, the contents of the core's buffers when the region is entered. Window 0 is a 4000×128 tile of
the node array, window 1 the matching 4000×1 tile of the scaling column, window 2 the whole bias vector (fetched once
and kept), window 3 the 4000×128 output tile: the aggregated tile scaled row by row by the column tile, plus the bias row, clamped below at zero. -/

variable (V : (c : Dev nD) → (b : Ref sig .tc) → Buf (Elt F) ((c : Thread nD τ).loc b))

/-- Window `w`'s block at grid point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's staging buffer holds its block at every grid point, fetched there or not: where it is not
    fetched its block index has not moved. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's staging buffer holds its block at every grid point, fetched there or not: where it is not
    fetched its block index has not moved. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's staging buffer holds its block at every grid point, fetched there or not: where it is not
    fetched its block index has not moved. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: each buffer is read and written whole -/

abbrev r5_a : Rect S4000x128 := Rect.unit (s := S4000x128) ![0, 0] S4000x128.size inb_S4000x128_S4000x128_0_0
abbrev r5_b : Rect S4000x1 := Rect.unit (s := S4000x1) ![0, 0] S4000x1.size inb_S4000x1_S4000x1_0_0
abbrev r5_c : Rect S128 := Rect.unit (s := S128) ![0] S128.size inb_S128_S128_0

/-- The output tile after the body, from the three input tiles: its one store, of the body's arithmetic on the loads. -/
def out5_3 (x0 : Vec F S4000x128 .f32) (x1 : Vec F S4000x1 .f32) (x2 : Vec F S128 .f32) : Vec F S4000x128 .f32 :=
  View.canon [⟨r5_a, k5_pay1 (View.ld x0 r5_a) (View.ld x1 r5_b) (View.ld x2 r5_c)⟩]

/-- The one store covers the whole output tile. -/
theorem cover5_3 (p0 : Vec F S4000x128 .f32) (y : S4000x128.Idx) :
    ∃ pc ∈ ([⟨r5_a, p0⟩] : List (View.Piece (Elt F) S4000x128 .f32)), y ∈ pc.1.set :=
  View.cover_of_tiled [⟨r5_a, p0⟩] S4000x128.size (by rfl) y

set_option maxHeartbeats 1000000 in
/-- The body on whole staging buffers — the inputs' holding `x0`, `x1`, `x2`, the output's anything — runs to its
    continuation with the inputs as they were and the output at `out5_3` of them. -/
theorem sound_kernel5 (c : Dev nD) (E : Set ℕ) (i : grid5.Coords)
    (arg1 : Memref sig .tc .vmem S4000x128 .f32) (harg1 : arg1.IsWhole) (arg2 : Memref sig .tc .vmem S4000x1 .f32) (harg2 : arg2.IsWhole)
    (arg3 : Memref sig .tc .vmem S128 .f32) (harg3 : arg3.IsWhole) (arg4 : Memref sig .tc .vmem S4000x128 .f32) (harg4 : arg4.IsWhole)
    (x0 : Vec F S4000x128 .f32) (x1 : Vec F S4000x1 .f32) (x2 : Vec F S128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out5_3 x0 x1 x2)) -∗ K ⟨⟩))
      ⊢ wp frame (wpE (defs₀ (F := F)) Variants.none c none) E (cc5__postagg_kernel i arg1 harg1 arg2 harg2 arg3 harg3 arg4 harg4) K := by
  simp only [cc5__postagg_kernel_eq_skeleton]; unfold cc5__postagg_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5_3 _)

/-! ## The region's proof data -/

/-- Arrays as the region finds them; after the body at point `t` each input buffer still holds its block and the
    output buffer holds `out5_3` of the three input blocks; nothing owed, full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) :
    (dat5 V c).after 3 t = out5_3 (iblk5 V c 0 t) (iblk5 V c 1 t) (iblk5 V c 2 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-! ## The body obligation at a generic grid point -/

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

/-- The body at any point: the input buffers hold their blocks, so `sound_kernel5` applies; the invariant and what
    the core owes pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ _ _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Fr

end
-- ==== Proof.K.Run.lean ====
import proofs.«106910_j66125316489905_1_alg».proof.Proof.K.Launch
import proofs.«106910_j66125316489905_1_alg».proof.Proof.Gen.Kernel.Skeleton
import proofs.«106910_j66125316489905_1_alg».proof.Proof.Gen.Kernel.Points
import proofs.«106910_j66125316489905_1_alg».proof.Proof.K.Region0
import proofs.«106910_j66125316489905_1_alg».proof.Proof.K.Region1
import proofs.«106910_j66125316489905_1_alg».proof.Proof.K.Region2
import proofs.«106910_j66125316489905_1_alg».proof.Proof.K.Region3
import proofs.«106910_j66125316489905_1_alg».proof.Proof.K.Region4
import proofs.«106910_j66125316489905_1_alg».proof.Proof.K.Region5
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The whole run: @main's eleven segments from the launch to the return

Five stretches of host operations and six kernel regions, in the order host, region 0, host, regions 1 and 2, host, regions 3 and 4,
host, region 5, host. `Wj c` is what core `c`'s buffers hold after `j` segments: a host stretch applies its operations; a region leaves
each of its arrays at what its write-backs fold to (its inputs as entered) and every other buffer as it was. -/

variable (m : (ℓ : Loc nD τ sig) → Buf (Elt F) ℓ) (ρ : Dev nD → PrngReg)

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After region 0: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- Region 0 changes only its output array `main_v15`: an input window's array ends as entered, a buffer that is no window's is untouched. -/
theorem W2_keep (c : Dev nD) (b : Ref sig .tc) (hb : b ≠ main_v15) :
    W2 m ρ c (Proc.devRef .tc b) = W1 m ρ c (Proc.devRef .tc b) := by
  by_cases h0 : b = main_arg0
  · subst h0; exact (W2_arr m ρ c 0).trans (((dat0 (V1 m ρ) c).arrAt_in 0 rfl _).trans (A_eq0 (V1 m ρ) c 0))
  by_cases h1 : b = main_v13
  · subst h1; exact (W2_arr m ρ c 1).trans (((dat0 (V1 m ρ) c).arrAt_in 1 rfl _).trans (A_eq0 (V1 m ρ) c 1))
  by_cases h2 : b = main_arg1
  · subst h2; exact (W2_arr m ρ c 2).trans (((dat0 (V1 m ρ) c).arrAt_in 2 rfl _).trans (A_eq0 (V1 m ρ) c 2))
  refine W2_of_ne m ρ c b fun w e => ?_
  match w, e with
  | ⟨0, _⟩, e => exact h0 e.symm
  | ⟨1, _⟩, e => exact h1 e.symm
  | ⟨2, _⟩, e => exact h2 e.symm
  | ⟨3, _⟩, e => exact hb e.symm
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After region 1: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- Region 1 changes only its output array `main_v26`: an input window's array ends as entered, a buffer that is no window's is untouched. -/
theorem W4_keep (c : Dev nD) (b : Ref sig .tc) (hb : b ≠ main_v26) :
    W4 m ρ c (Proc.devRef .tc b) = W3 m ρ c (Proc.devRef .tc b) := by
  by_cases h0 : b = main_v25
  · subst h0; exact (W4_arr m ρ c 0).trans (((dat1 (V3 m ρ) c).arrAt_in 0 rfl _).trans (A_eq1 (V3 m ρ) c 0))
  by_cases h1 : b = main_v14
  · subst h1; exact (W4_arr m ρ c 1).trans (((dat1 (V3 m ρ) c).arrAt_in 1 rfl _).trans (A_eq1 (V3 m ρ) c 1))
  by_cases h2 : b = main_arg2
  · subst h2; exact (W4_arr m ρ c 2).trans (((dat1 (V3 m ρ) c).arrAt_in 2 rfl _).trans (A_eq1 (V3 m ρ) c 2))
  refine W4_of_ne m ρ c b fun w e => ?_
  match w, e with
  | ⟨0, _⟩, e => exact h0 e.symm
  | ⟨1, _⟩, e => exact h1 e.symm
  | ⟨2, _⟩, e => exact h2 e.symm
  | ⟨3, _⟩, e => exact hb e.symm
/-- After region 2: its arrays at what the pipeline leaves, every other buffer as entered. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev V5 : (c : Dev nD) → (b : Ref sig .tc) → Buf (Elt F) ((c : Thread nD τ).loc b) := fun c b => W5 m ρ c b
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)
/-- Region 2 changes only its output array `main_v27`: an input window's array ends as entered, a buffer that is no window's is untouched. -/
theorem W5_keep (c : Dev nD) (b : Ref sig .tc) (hb : b ≠ main_v27) :
    W5 m ρ c (Proc.devRef .tc b) = W4 m ρ c (Proc.devRef .tc b) := by
  by_cases h0 : b = main_v26
  · subst h0; exact (W5_arr m ρ c 0).trans (((dat2 (V4 m ρ) c).arrAt_in 0 rfl _).trans (A_eq2 (V4 m ρ) c 0))
  by_cases h1 : b = main_v13
  · subst h1; exact (W5_arr m ρ c 1).trans (((dat2 (V4 m ρ) c).arrAt_in 1 rfl _).trans (A_eq2 (V4 m ρ) c 1))
  by_cases h2 : b = main_arg3
  · subst h2; exact (W5_arr m ρ c 2).trans (((dat2 (V4 m ρ) c).arrAt_in 2 rfl _).trans (A_eq2 (V4 m ρ) c 2))
  refine W5_of_ne m ρ c b fun w e => ?_
  match w, e with
  | ⟨0, _⟩, e => exact h0 e.symm
  | ⟨1, _⟩, e => exact h1 e.symm
  | ⟨2, _⟩, e => exact h2 e.symm
  | ⟨3, _⟩, e => exact hb e.symm
abbrev W6 : Dev nD → Valuation τ sig (Elt F) := fun c => StableHlo.after hostOps3 (W5 m ρ c)
abbrev V6 : (c : Dev nD) → (b : Ref sig .tc) → Buf (Elt F) ((c : Thread nD τ).loc b) := fun c b => W6 m ρ c b
/-- After region 3: its arrays at what the pipeline leaves, every other buffer as entered. -/
def W7 (c : Dev nD) : Valuation τ sig (Elt F) :=
  Pipeline.withArrays spec3 c (W6 m ρ c) fun w => (dat3 (V6 m ρ) c).arrAt w cfg3.N
theorem W7_arr (c : Dev nD) (w : Fin cfg3.W) :
    W7 m ρ c (Proc.devRef .tc (Pipeline.arrRef spec3 w)) = (dat3 (V6 m ρ) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) := by
  unfold W7; exact Pipeline.withArrays_of_ne spec3 c _ _ b hb
abbrev V7 : (c : Dev nD) → (b : Ref sig .tc) → Buf (Elt F) ((c : Thread nD τ).loc b) := fun c b => W7 m ρ c b
theorem hF3 (c : Dev nD) (w : Fin cfg3.W) : (dat3 (V6 m ρ) c).arrAt w cfg3.N = V7 m ρ c (Pipeline.arrRef spec3 w) :=
  (W7_arr m ρ c w).symm
theorem hrest3 (c : Dev nD) : ∀ b, b ∉ Finset.univ.image (Pipeline.arrRef spec3) → V7 m ρ c b = V6 m ρ c b :=
  fun b hb => W7_of_ne m ρ c b fun w e => hb (Finset.mem_image.mpr ⟨w, Finset.mem_univ _, e⟩)
/-- Region 3 changes only its output array `main_v38`: an input window's array ends as entered, a buffer that is no window's is untouched. -/
theorem W7_keep (c : Dev nD) (b : Ref sig .tc) (hb : b ≠ main_v38) :
    W7 m ρ c (Proc.devRef .tc b) = W6 m ρ c (Proc.devRef .tc b) := by
  by_cases h0 : b = main_v37
  · subst h0; exact (W7_arr m ρ c 0).trans (((dat3 (V6 m ρ) c).arrAt_in 0 rfl _).trans (A_eq3 (V6 m ρ) c 0))
  by_cases h1 : b = main_v14
  · subst h1; exact (W7_arr m ρ c 1).trans (((dat3 (V6 m ρ) c).arrAt_in 1 rfl _).trans (A_eq3 (V6 m ρ) c 1))
  by_cases h2 : b = main_arg4
  · subst h2; exact (W7_arr m ρ c 2).trans (((dat3 (V6 m ρ) c).arrAt_in 2 rfl _).trans (A_eq3 (V6 m ρ) c 2))
  refine W7_of_ne m ρ c b fun w e => ?_
  match w, e with
  | ⟨0, _⟩, e => exact h0 e.symm
  | ⟨1, _⟩, e => exact h1 e.symm
  | ⟨2, _⟩, e => exact h2 e.symm
  | ⟨3, _⟩, e => exact hb e.symm
/-- After region 4: its arrays at what the pipeline leaves, every other buffer as entered. -/
def W8 (c : Dev nD) : Valuation τ sig (Elt F) :=
  Pipeline.withArrays spec4 c (W7 m ρ c) fun w => (dat4 (V7 m ρ) c).arrAt w cfg4.N
theorem W8_arr (c : Dev nD) (w : Fin cfg4.W) :
    W8 m ρ c (Proc.devRef .tc (Pipeline.arrRef spec4 w)) = (dat4 (V7 m ρ) c).arrAt w cfg4.N := by
  unfold W8; exact Pipeline.withArrays_arr spec4 launch4.win.arr_inj c _ _ w
theorem W8_of_ne (c : Dev nD) (b : Ref sig .tc) (hb : ∀ w, Pipeline.arrRef spec4 w ≠ b) :
    W8 m ρ c (Proc.devRef .tc b) = W7 m ρ c (Proc.devRef .tc b) := by
  unfold W8; exact Pipeline.withArrays_of_ne spec4 c _ _ b hb
abbrev V8 : (c : Dev nD) → (b : Ref sig .tc) → Buf (Elt F) ((c : Thread nD τ).loc b) := fun c b => W8 m ρ c b
theorem hF4 (c : Dev nD) (w : Fin cfg4.W) : (dat4 (V7 m ρ) c).arrAt w cfg4.N = V8 m ρ c (Pipeline.arrRef spec4 w) :=
  (W8_arr m ρ c w).symm
theorem hrest4 (c : Dev nD) : ∀ b, b ∉ Finset.univ.image (Pipeline.arrRef spec4) → V8 m ρ c b = V7 m ρ c b :=
  fun b hb => W8_of_ne m ρ c b fun w e => hb (Finset.mem_image.mpr ⟨w, Finset.mem_univ _, e⟩)
/-- Region 4 changes only its output array `main_v39`: an input window's array ends as entered, a buffer that is no window's is untouched. -/
theorem W8_keep (c : Dev nD) (b : Ref sig .tc) (hb : b ≠ main_v39) :
    W8 m ρ c (Proc.devRef .tc b) = W7 m ρ c (Proc.devRef .tc b) := by
  by_cases h0 : b = main_v38
  · subst h0; exact (W8_arr m ρ c 0).trans (((dat4 (V7 m ρ) c).arrAt_in 0 rfl _).trans (A_eq4 (V7 m ρ) c 0))
  by_cases h1 : b = main_v13
  · subst h1; exact (W8_arr m ρ c 1).trans (((dat4 (V7 m ρ) c).arrAt_in 1 rfl _).trans (A_eq4 (V7 m ρ) c 1))
  by_cases h2 : b = main_arg5
  · subst h2; exact (W8_arr m ρ c 2).trans (((dat4 (V7 m ρ) c).arrAt_in 2 rfl _).trans (A_eq4 (V7 m ρ) c 2))
  refine W8_of_ne m ρ c b fun w e => ?_
  match w, e with
  | ⟨0, _⟩, e => exact h0 e.symm
  | ⟨1, _⟩, e => exact h1 e.symm
  | ⟨2, _⟩, e => exact h2 e.symm
  | ⟨3, _⟩, e => exact hb e.symm
abbrev W9 : Dev nD → Valuation τ sig (Elt F) := fun c => StableHlo.after hostOps5 (W8 m ρ c)
abbrev V9 : (c : Dev nD) → (b : Ref sig .tc) → Buf (Elt F) ((c : Thread nD τ).loc b) := fun c b => W9 m ρ c b
/-- After region 5: its arrays at what the pipeline leaves, every other buffer as entered. -/
def W10 (c : Dev nD) : Valuation τ sig (Elt F) :=
  Pipeline.withArrays spec5 c (W9 m ρ c) fun w => (dat5 (V9 m ρ) c).arrAt w cfg5.N
theorem W10_arr (c : Dev nD) (w : Fin cfg5.W) :
    W10 m ρ c (Proc.devRef .tc (Pipeline.arrRef spec5 w)) = (dat5 (V9 m ρ) c).arrAt w cfg5.N := by
  unfold W10; exact Pipeline.withArrays_arr spec5 launch5.win.arr_inj c _ _ w
theorem W10_of_ne (c : Dev nD) (b : Ref sig .tc) (hb : ∀ w, Pipeline.arrRef spec5 w ≠ b) :
    W10 m ρ c (Proc.devRef .tc b) = W9 m ρ c (Proc.devRef .tc b) := by
  unfold W10; exact Pipeline.withArrays_of_ne spec5 c _ _ b hb
abbrev V10 : (c : Dev nD) → (b : Ref sig .tc) → Buf (Elt F) ((c : Thread nD τ).loc b) := fun c b => W10 m ρ c b
theorem hF5 (c : Dev nD) (w : Fin cfg5.W) : (dat5 (V9 m ρ) c).arrAt w cfg5.N = V10 m ρ c (Pipeline.arrRef spec5 w) :=
  (W10_arr m ρ c w).symm
theorem hrest5 (c : Dev nD) : ∀ b, b ∉ Finset.univ.image (Pipeline.arrRef spec5) → V10 m ρ c b = V9 m ρ c b :=
  fun b hb => W10_of_ne m ρ c b fun w e => hb (Finset.mem_image.mpr ⟨w, Finset.mem_univ _, e⟩)
/-- Region 5 changes only its output array `main_v50`: an input window's array ends as entered, a buffer that is no window's is untouched. -/
theorem W10_keep (c : Dev nD) (b : Ref sig .tc) (hb : b ≠ main_v50) :
    W10 m ρ c (Proc.devRef .tc b) = W9 m ρ c (Proc.devRef .tc b) := by
  by_cases h0 : b = main_v49
  · subst h0; exact (W10_arr m ρ c 0).trans (((dat5 (V9 m ρ) c).arrAt_in 0 rfl _).trans (A_eq5 (V9 m ρ) c 0))
  by_cases h1 : b = main_v14
  · subst h1; exact (W10_arr m ρ c 1).trans (((dat5 (V9 m ρ) c).arrAt_in 1 rfl _).trans (A_eq5 (V9 m ρ) c 1))
  by_cases h2 : b = main_arg6
  · subst h2; exact (W10_arr m ρ c 2).trans (((dat5 (V9 m ρ) c).arrAt_in 2 rfl _).trans (A_eq5 (V9 m ρ) c 2))
  refine W10_of_ne m ρ c b fun w e => ?_
  match w, e with
  | ⟨0, _⟩, e => exact h0 e.symm
  | ⟨1, _⟩, e => exact h1 e.symm
  | ⟨2, _⟩, e => exact h2 e.symm
  | ⟨3, _⟩, e => exact hb e.symm
abbrev W11 : Dev nD → Valuation τ sig (Elt F) := fun c => StableHlo.after hostOps6 (W10 m ρ c)
abbrev V11 : (c : Dev nD) → (b : Ref sig .tc) → Buf (Elt F) ((c : Thread nD τ).loc b) := fun c b => W11 m ρ c b

/-! ## What the host stretches write -/

theorem hostOps0_fresh : (hostOps0 : List (HloOp τ sig (Elt F))).Forall fun op => op.fresh = ∅ := by
  simp only [List.Forall]; repeat' constructor
/-- The buffers `hostOps0`'s operations write. -/
abbrev hostOps0_W : List (Ref sig .tc) := [main_cst, main_v0, main_cst_0, main_v1, main_v2, main_v3, main_cst_1, main_v4, main_v5, main_v6, main_cst_2, main_v7, main_v8, main_v9, main_cst_3, main_v10, main_v11, main_v12, main_v13, main_v14]
theorem hostOps0_writes : (hostOps0 : List (HloOp τ sig (Elt F))).Forall fun op => op.writes ⊆ (hostOps0_W.map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)
/-- A buffer no operation of the stretch writes is as before it. -/
theorem W1_keep (c : Dev nD) (b : Ref sig .tc) (h : b ∉ hostOps0_W) :
    W1 m ρ c (Proc.devRef .tc b) = W0 m ρ c (Proc.devRef .tc b) :=
  StableHlo.after_of_writes_sub hostOps0 _ hostOps0_writes h

theorem hostOps1_fresh : (hostOps1 : List (HloOp τ sig (Elt F))).Forall fun op => op.fresh = ∅ := by
  simp only [List.Forall]; repeat' constructor
/-- The buffers `hostOps1`'s operations write. -/
abbrev hostOps1_W : List (Ref sig .tc) := [main_c, main_v16, main_v17, main_c_4, main_v18, main_v19, main_v20, main_v21, main_v22, main_cst_5, main_v23, main_v24, main_v25]
theorem hostOps1_writes : (hostOps1 : List (HloOp τ sig (Elt F))).Forall fun op => op.writes ⊆ (hostOps1_W.map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)
/-- A buffer no operation of the stretch writes is as before it. -/
theorem W3_keep (c : Dev nD) (b : Ref sig .tc) (h : b ∉ hostOps1_W) :
    W3 m ρ c (Proc.devRef .tc b) = W2 m ρ c (Proc.devRef .tc b) :=
  StableHlo.after_of_writes_sub hostOps1 _ hostOps1_writes h

theorem hostOps3_fresh : (hostOps3 : List (HloOp τ sig (Elt F))).Forall fun op => op.fresh = ∅ := by
  simp only [List.Forall]; repeat' constructor
/-- The buffers `hostOps3`'s operations write. -/
abbrev hostOps3_W : List (Ref sig .tc) := [main_c_6, main_v28, main_v29, main_c_7, main_v30, main_v31, main_v32, main_v33, main_v34, main_cst_8, main_v35, main_v36, main_v37]
theorem hostOps3_writes : (hostOps3 : List (HloOp τ sig (Elt F))).Forall fun op => op.writes ⊆ (hostOps3_W.map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)
/-- A buffer no operation of the stretch writes is as before it. -/
theorem W6_keep (c : Dev nD) (b : Ref sig .tc) (h : b ∉ hostOps3_W) :
    W6 m ρ c (Proc.devRef .tc b) = W5 m ρ c (Proc.devRef .tc b) :=
  StableHlo.after_of_writes_sub hostOps3 _ hostOps3_writes h

theorem hostOps5_fresh : (hostOps5 : List (HloOp τ sig (Elt F))).Forall fun op => op.fresh = ∅ := by
  simp only [List.Forall]; repeat' constructor
/-- The buffers `hostOps5`'s operations write. -/
abbrev hostOps5_W : List (Ref sig .tc) := [main_c_9, main_v40, main_v41, main_c_10, main_v42, main_v43, main_v44, main_v45, main_v46, main_cst_11, main_v47, main_v48, main_v49]
theorem hostOps5_writes : (hostOps5 : List (HloOp τ sig (Elt F))).Forall fun op => op.writes ⊆ (hostOps5_W.map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)
/-- A buffer no operation of the stretch writes is as before it. -/
theorem W9_keep (c : Dev nD) (b : Ref sig .tc) (h : b ∉ hostOps5_W) :
    W9 m ρ c (Proc.devRef .tc b) = W8 m ρ c (Proc.devRef .tc b) :=
  StableHlo.after_of_writes_sub hostOps5 _ hostOps5_writes h

theorem hostOps6_fresh : (hostOps6 : List (HloOp τ sig (Elt F))).Forall fun op => op.fresh = ∅ := by
  simp only [List.Forall]; repeat' constructor
/-- The buffers `hostOps6`'s operations write. -/
abbrev hostOps6_W : List (Ref sig .tc) := [main_v51]
theorem hostOps6_writes : (hostOps6 : List (HloOp τ sig (Elt F))).Forall fun op => op.writes ⊆ (hostOps6_W.map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)
/-- A buffer no operation of the stretch writes is as before it. -/
theorem W11_keep (c : Dev nD) (b : Ref sig .tc) (h : b ∉ hostOps6_W) :
    W11 m ρ c (Proc.devRef .tc b) = W10 m ρ c (Proc.devRef .tc b) :=
  StableHlo.after_of_writes_sub hostOps6 _ hostOps6_writes h

/-! ## The proof data family and the thread state -/

abbrev adm : (p : Fin 6) → (pcfgs (F := F) p).Adm := fun p => (cfgs p).toPCfg_adm
/-- Every region's proof data, each at its own entry contents. -/
def pdats : (p : Fin 6) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V4 m ρ) c
  | ⟨3, _⟩ => fun c => dat3 (V6 m ρ) c
  | ⟨4, _⟩ => fun c => dat4 (V7 m ρ) c
  | ⟨5, _⟩ => fun c => dat5 (V9 m ρ) c
abbrev 𝒱₀ : Variants := Variants.none
abbrev L : GSem nD τ sig → Finset Unit := fun _ => ∅
abbrev lv : GSem nD τ sig → Unit → ℕ := fun _ _ => 0
/-- What rides beside the buffers through every segment: the core's generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W11 m ρ c) ∗ ∃ r, prngReg c r)

/-! ## The regions as segments -/

set_option backward.isDefEq.respectTransparency.types false in
/-- Region 0 over the thread state: entered with every unscoped buffer at `W1`, left with them at `W2`. Its arrays are split
    out of the unscoped buffers and put back at the exit contents; the generator register goes into the region's invariant and
    comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W3`, left with them at `W4`. Its arrays are split
    out of the unscoped buffers and put back at the exit contents; the generator register goes into the region's invariant and
    comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `W4`, left with them at `W5`. Its arrays are split
    out of the unscoped buffers and put back at the exit contents; the generator register goes into the region's invariant and
    comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered with every unscoped buffer at `W6`, left with them at `W7`. Its arrays are split
    out of the unscoped buffers and put back at the exit contents; the generator register goes into the region's invariant and
    comes back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V6 m ρ) c).loose
  hwaits := Pipeline.hwaits_of_owed_zero _ _ _ _ L lv 3 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec3 c (V6 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V6 m ρ c) (V7 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered with every unscoped buffer at `W7`, left with them at `W8`. Its arrays are split
    out of the unscoped buffers and put back at the exit contents; the generator register goes into the region's invariant and
    comes back; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V7 m ρ) c).loose
  hwaits := Pipeline.hwaits_of_owed_zero _ _ _ _ L lv 4 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec4 c (V7 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V7 m ρ c) (V8 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered with every unscoped buffer at `W9`, left with them at `W10`. Its arrays are split
    out of the unscoped buffers and put back at the exit contents; the generator register goes into the region's invariant and
    comes back; nothing is owed; the kernel has no semaphore of its own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V9 m ρ) c).loose
  hwaits := Pipeline.hwaits_of_owed_zero _ _ _ _ L lv 5 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec5 c (V9 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V9 m ρ c) (V10 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .region (reg2 m ρ),
    .host (hseg hostOps3 hostOps3_sub hostOps3_fresh (W5 m ρ)),
    .region (reg3 m ρ),
    .region (reg4 m ρ),
    .host (hseg hostOps5 hostOps5_sub hostOps5_fresh (W8 m ρ)),
    .region (reg5 m ρ),
    .host (hseg hostOps6 hostOps6_sub hostOps6_fresh (W10 m ρ)) ]

theorem main_run (c : Dev nD) : main (F := F) c = Pipeline.Seg.run (segs m ρ) := (main_chain c).trans (by chain_rfl)

set_option backward.isDefEq.respectTransparency.types false in
/-- Every weakly fair execution of @main from memory `m` with zero counters terminates, nothing faulting, and in its final state
    every unscoped buffer of every core holds the last boundary's contents `W11`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun c => by
        show (iprop(StableHlo.held (c : Thread nD τ) (Pipeline.ucRefs τ sig) (W11 m ρ c) ∗ R c) : sProp 𝕄) ⊢ _
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c => h c)

end Cert.Kernel.Fr

end
-- ==== Proof.K.Keep.lean ====
import proofs.«106910_j66125316489905_1_alg».proof.Proof.K.Launch
import proofs.«106910_j66125316489905_1_alg».proof.Proof.Gen.Kernel.Skeleton
import proofs.«106910_j66125316489905_1_alg».proof.Proof.Gen.Kernel.Points
import proofs.«106910_j66125316489905_1_alg».proof.Proof.K.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Buffers that stay put across the boundaries

A buffer that no host stretch writes and that is no region's output holds at every boundary what it held at the launch; a buffer
written by the first stretch only keeps from then on what that stretch left; a region's output that later segments only read keeps
what the region left. -/

variable (m : (ℓ : Loc nD τ sig) → Buf (Elt F) ℓ) (ρ : Dev nD → PrngReg)

/-- The six regions' output arrays. -/
abbrev regionOuts : List (Ref sig .tc) := [main_v15, main_v26, main_v27, main_v38, main_v39, main_v50]

/-- Written by nothing: the launch contents at every boundary. -/
theorem W_const (b : Ref sig .tc) (h0 : b ∉ hostOps0_W) (h1 : b ∉ hostOps1_W) (h3 : b ∉ hostOps3_W) (h5 : b ∉ hostOps5_W) (h6 : b ∉ hostOps6_W)
    (hr : b ∉ regionOuts) (c : Dev nD) :
    W1 m ρ c (Proc.devRef .tc b) = m ((c : Thread nD τ).loc b) ∧ W2 m ρ c (Proc.devRef .tc b) = m ((c : Thread nD τ).loc b)
    ∧ W3 m ρ c (Proc.devRef .tc b) = m ((c : Thread nD τ).loc b) ∧ W4 m ρ c (Proc.devRef .tc b) = m ((c : Thread nD τ).loc b)
    ∧ W5 m ρ c (Proc.devRef .tc b) = m ((c : Thread nD τ).loc b) ∧ W6 m ρ c (Proc.devRef .tc b) = m ((c : Thread nD τ).loc b)
    ∧ W7 m ρ c (Proc.devRef .tc b) = m ((c : Thread nD τ).loc b) ∧ W8 m ρ c (Proc.devRef .tc b) = m ((c : Thread nD τ).loc b)
    ∧ W9 m ρ c (Proc.devRef .tc b) = m ((c : Thread nD τ).loc b) ∧ W10 m ρ c (Proc.devRef .tc b) = m ((c : Thread nD τ).loc b)
    ∧ W11 m ρ c (Proc.devRef .tc b) = m ((c : Thread nD τ).loc b) := by
  have e1 : W1 m ρ c (Proc.devRef .tc b) = m ((c : Thread nD τ).loc b) := (W1_keep m ρ c b h0).trans rfl
  have e2 := (W2_keep m ρ c b (fun e => hr (by subst e; decide))).trans e1
  have e3 := (W3_keep m ρ c b h1).trans e2
  have e4 := (W4_keep m ρ c b (fun e => hr (by subst e; decide))).trans e3
  have e5 := (W5_keep m ρ c b (fun e => hr (by subst e; decide))).trans e4
  have e6 := (W6_keep m ρ c b h3).trans e5
  have e7 := (W7_keep m ρ c b (fun e => hr (by subst e; decide))).trans e6
  have e8 := (W8_keep m ρ c b (fun e => hr (by subst e; decide))).trans e7
  have e9 := (W9_keep m ρ c b h5).trans e8
  have e10 := (W10_keep m ρ c b (fun e => hr (by subst e; decide))).trans e9
  have e11 := (W11_keep m ρ c b h6).trans e10
  exact ⟨e1, e2, e3, e4, e5, e6, e7, e8, e9, e10, e11⟩

/-- Written by the first host stretch only: from the first boundary on, what that stretch left. -/
theorem W_from1 (b : Ref sig .tc) (h1 : b ∉ hostOps1_W) (h3 : b ∉ hostOps3_W) (h5 : b ∉ hostOps5_W)
    (hr : b ∉ regionOuts) (c : Dev nD) :
    W3 m ρ c (Proc.devRef .tc b) = W1 m ρ c (Proc.devRef .tc b) ∧ W4 m ρ c (Proc.devRef .tc b) = W1 m ρ c (Proc.devRef .tc b)
    ∧ W6 m ρ c (Proc.devRef .tc b) = W1 m ρ c (Proc.devRef .tc b) ∧ W7 m ρ c (Proc.devRef .tc b) = W1 m ρ c (Proc.devRef .tc b)
    ∧ W9 m ρ c (Proc.devRef .tc b) = W1 m ρ c (Proc.devRef .tc b) := by
  have e2 := W2_keep m ρ c b (fun e => hr (by subst e; decide))
  have e3 := (W3_keep m ρ c b h1).trans e2
  have e4 := (W4_keep m ρ c b (fun e => hr (by subst e; decide))).trans e3
  have e5 := (W5_keep m ρ c b (fun e => hr (by subst e; decide))).trans e4
  have e6 := (W6_keep m ρ c b h3).trans e5
  have e7 := (W7_keep m ρ c b (fun e => hr (by subst e; decide))).trans e6
  have e8 := (W8_keep m ρ c b (fun e => hr (by subst e; decide))).trans e7
  have e9 := (W9_keep m ρ c b h5).trans e8
  exact ⟨e3, e4, e6, e7, e9⟩

/-- The first layer's output `main_v26` is only read after region 1: the last region's exit still has it. -/
theorem W10_v26 (c : Dev nD) : W10 m ρ c (Proc.devRef .tc main_v26) = W4 m ρ c (Proc.devRef .tc main_v26) :=
  (W10_keep m ρ c main_v26 (by decide)).trans <| (W9_keep m ρ c main_v26 (by decide)).trans <| (W8_keep m ρ c main_v26 (by decide)).trans <|
    (W7_keep m ρ c main_v26 (by decide)).trans <| (W6_keep m ρ c main_v26 (by decide)).trans (W5_keep m ρ c main_v26 (by decide))

/-- The second layer's output `main_v38` likewise. -/
theorem W10_v38 (c : Dev nD) : W10 m ρ c (Proc.devRef .tc main_v38) = W7 m ρ c (Proc.devRef .tc main_v38) :=
  (W10_keep m ρ c main_v38 (by decide)).trans <| (W9_keep m ρ c main_v38 (by decide)).trans (W8_keep m ρ c main_v38 (by decide))

/-- A memory that has every unscoped buffer at the last boundary's contents has each argument array as launched. -/
theorem args_of_all (mem : (ℓ : Loc nD τ sig) → Buf (Elt F) ℓ)
    (h : ∀ c : Dev nD, ∀ b ∈ Pipeline.ucRefs τ sig, mem (((c : Thread nD τ)).1, b) = W11 m ρ c b) (c : Dev nD) :
      mem ((c.tc : Thread nD τ).loc main_arg0) = m ((c.tc : Thread nD τ).loc main_arg0)
      ∧ mem ((c.tc : Thread nD τ).loc main_arg1) = m ((c.tc : Thread nD τ).loc main_arg1)
      ∧ mem ((c.tc : Thread nD τ).loc main_arg2) = m ((c.tc : Thread nD τ).loc main_arg2)
      ∧ mem ((c.tc : Thread nD τ).loc main_arg3) = m ((c.tc : Thread nD τ).loc main_arg3)
      ∧ mem ((c.tc : Thread nD τ).loc main_arg4) = m ((c.tc : Thread nD τ).loc main_arg4)
      ∧ mem ((c.tc : Thread nD τ).loc main_arg5) = m ((c.tc : Thread nD τ).loc main_arg5)
      ∧ mem ((c.tc : Thread nD τ).loc main_arg6) = m ((c.tc : Thread nD τ).loc main_arg6)
      ∧ mem ((c.tc : Thread nD τ).loc main_arg7) = m ((c.tc : Thread nD τ).loc main_arg7)
      ∧ mem ((c.tc : Thread nD τ).loc main_arg8) = m ((c.tc : Thread nD τ).loc main_arg8) :=
  have arg (b : Ref sig .tc) (hu : ¬ (Proc.devRef .tc b : DevRef τ sig).isScoped) (h0 : b ∉ hostOps0_W) (h1 : b ∉ hostOps1_W)
      (h3 : b ∉ hostOps3_W) (h5 : b ∉ hostOps5_W) (h6 : b ∉ hostOps6_W) (hr : b ∉ regionOuts) :
      mem ((c.tc : Thread nD τ).loc b) = m ((c.tc : Thread nD τ).loc b) :=
    (h c _ (mem_uc b hu)).trans (W_const m ρ b h0 h1 h3 h5 h6 hr c).2.2.2.2.2.2.2.2.2.2
  ⟨arg main_arg0 (by decide) (by decide) (by decide) (by decide) (by decide) (by decide) (by decide),
   arg main_arg1 (by decide) (by decide) (by decide) (by decide) (by decide) (by decide) (by decide),
   arg main_arg2 (by decide) (by decide) (by decide) (by decide) (by decide) (by decide) (by decide),
   arg main_arg3 (by decide) (by decide) (by decide) (by decide) (by decide) (by decide) (by decide),
   arg main_arg4 (by decide) (by decide) (by decide) (by decide) (by decide) (by decide) (by decide),
   arg main_arg5 (by decide) (by decide) (by decide) (by decide) (by decide) (by decide) (by decide),
   arg main_arg6 (by decide) (by decide) (by decide) (by decide) (by decide) (by decide) (by decide),
   arg main_arg7 (by decide) (by decide) (by decide) (by decide) (by decide) (by decide) (by decide),
   arg main_arg8 (by decide) (by decide) (by decide) (by decide) (by decide) (by decide) (by decide)⟩

/-- THE FRAME: every weakly fair execution of @main terminates, nothing faulting, with each argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => args_of_all m ρ r.2.mem h c) (run_all m ρ)

end Cert.Kernel.Fr

end
-- ==== Proof.KI.Region0.lean ====
import proofs.«106910_j66125316489905_1_alg».proof.Proof.KI.Launch
import proofs.«106910_j66125316489905_1_alg».proof.Proof.Gen.KernelIdeal.Skeleton
import proofs.«106910_j66125316489905_1_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Region 0: `cc0__preagg_kernel` on a grid of 25 row tiles

Stated at a parameter `V`, the contents of the core's buffers when the region is entered. Window 0 is a 4000×128 tile of
the node array, window 1 the matching 4000×1 tile of the scaling column, window 2 the whole 128×128 weight matrix (fetched once
and kept), window 3 the 4000×128 output tile: the node tile scaled row by row by the column tile, times the whole weight matrix. -/

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every grid point, fetched there or not: where it is not
    fetched its block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every grid point, fetched there or not: where it is not
    fetched its block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every grid point, fetched there or not: where it is not
    fetched its block index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer is read and written whole -/

abbrev r0_a : Rect S4000x128 := Rect.unit (s := S4000x128) ![0, 0] S4000x128.size inb_S4000x128_S4000x128_0_0
abbrev r0_b : Rect S4000x1 := Rect.unit (s := S4000x1) ![0, 0] S4000x1.size inb_S4000x1_S4000x1_0_0
abbrev r0_c : Rect S128x128 := Rect.unit (s := S128x128) ![0, 0] S128x128.size inb_S128x128_S128x128_0_0

/-- The output tile after the body, from the three input tiles: its one store, of the body's arithmetic on the loads. -/
def out0_3 (x0 : Vec F S4000x128 .f32) (x1 : Vec F S4000x1 .f32) (x2 : Vec F S128x128 .f32) : Vec F S4000x128 .f32 :=
  View.canon [⟨r0_a, k0_pay1 (View.ld x0 r0_a) (View.ld x1 r0_b) (View.ld x2 r0_c)⟩]

/-- The one store covers the whole output tile. -/
theorem cover0_3 (p0 : Vec F S4000x128 .f32) (y : S4000x128.Idx) :
    ∃ pc ∈ ([⟨r0_a, p0⟩] : List (View.Piece (Elt F) S4000x128 .f32)), y ∈ pc.1.set :=
  View.cover_of_tiled [⟨r0_a, p0⟩] S4000x128.size (by rfl) y

set_option maxHeartbeats 1000000 in
/-- The body on whole staging buffers — the inputs' holding `x0`, `x1`, `x2`, the output's anything — runs to its
    continuation with the inputs as they were and the output at `out0_3` of them. -/
theorem sound_kernel0 (c : Dev nD) (E : Set ℕ) (i : grid0.Coords)
    (arg1 : Memref sig .tc .vmem S4000x128 .f32) (harg1 : arg1.IsWhole) (arg2 : Memref sig .tc .vmem S4000x1 .f32) (harg2 : arg2.IsWhole)
    (arg3 : Memref sig .tc .vmem S128x128 .f32) (harg3 : arg3.IsWhole) (arg4 : Memref sig .tc .vmem S4000x128 .f32) (harg4 : arg4.IsWhole)
    (x0 : Vec F S4000x128 .f32) (x1 : Vec F S4000x1 .f32) (x2 : Vec F S128x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__preagg_kernel i arg1 harg1 arg2 harg2 arg3 harg3 arg4 harg4) K := by
  simp only [cc0__preagg_kernel_eq_skeleton]; unfold cc0__preagg_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The region's proof data -/

/-- Arrays as the region finds them; after the body at point `t` each input buffer still holds its block and the
    output buffer holds `out0_3` of the three input blocks; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation at a generic grid point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the input buffers hold their blocks, so `sound_kernel0` applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KI.Region1.lean ====
import proofs.«106910_j66125316489905_1_alg».proof.Proof.KI.Launch
import proofs.«106910_j66125316489905_1_alg».proof.Proof.Gen.KernelIdeal.Skeleton
import proofs.«106910_j66125316489905_1_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Region 1: `cc1__postagg_kernel` on a grid of 25 row tiles

Stated at a parameter `V`, the contents of the core's buffers when the region is entered. Window 0 is a 4000×128 tile of
the node array, window 1 the matching 4000×1 tile of the scaling column, window 2 the whole bias vector (fetched once
and kept), window 3 the 4000×128 output tile: the aggregated tile scaled row by row by the column tile, plus the bias row, clamped below at zero. -/

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every grid point, fetched there or not: where it is not
    fetched its block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every grid point, fetched there or not: where it is not
    fetched its block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every grid point, fetched there or not: where it is not
    fetched its block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer is read and written whole -/

abbrev r1_a : Rect S4000x128 := Rect.unit (s := S4000x128) ![0, 0] S4000x128.size inb_S4000x128_S4000x128_0_0
abbrev r1_b : Rect S4000x1 := Rect.unit (s := S4000x1) ![0, 0] S4000x1.size inb_S4000x1_S4000x1_0_0
abbrev r1_c : Rect S128 := Rect.unit (s := S128) ![0] S128.size inb_S128_S128_0

/-- The output tile after the body, from the three input tiles: its one store, of the body's arithmetic on the loads. -/
def out1_3 (x0 : Vec F S4000x128 .f32) (x1 : Vec F S4000x1 .f32) (x2 : Vec F S128 .f32) : Vec F S4000x128 .f32 :=
  View.canon [⟨r1_a, k1_pay1 (View.ld x0 r1_a) (View.ld x1 r1_b) (View.ld x2 r1_c)⟩]

/-- The one store covers the whole output tile. -/
theorem cover1_3 (p0 : Vec F S4000x128 .f32) (y : S4000x128.Idx) :
    ∃ pc ∈ ([⟨r1_a, p0⟩] : List (View.Piece (Elt F) S4000x128 .f32)), y ∈ pc.1.set :=
  View.cover_of_tiled [⟨r1_a, p0⟩] S4000x128.size (by rfl) y

set_option maxHeartbeats 1000000 in
/-- The body on whole staging buffers — the inputs' holding `x0`, `x1`, `x2`, the output's anything — runs to its
    continuation with the inputs as they were and the output at `out1_3` of them. -/
theorem sound_kernel1 (c : Dev nD) (E : Set ℕ) (i : grid1.Coords)
    (arg1 : Memref sig .tc .vmem S4000x128 .f32) (harg1 : arg1.IsWhole) (arg2 : Memref sig .tc .vmem S4000x1 .f32) (harg2 : arg2.IsWhole)
    (arg3 : Memref sig .tc .vmem S128 .f32) (harg3 : arg3.IsWhole) (arg4 : Memref sig .tc .vmem S4000x128 .f32) (harg4 : arg4.IsWhole)
    (x0 : Vec F S4000x128 .f32) (x1 : Vec F S4000x1 .f32) (x2 : Vec F S128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__postagg_kernel i arg1 harg1 arg2 harg2 arg3 harg3 arg4 harg4) K := by
  simp only [cc1__postagg_kernel_eq_skeleton]; unfold cc1__postagg_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The region's proof data -/

/-- Arrays as the region finds them; after the body at point `t` each input buffer still holds its block and the
    output buffer holds `out1_3` of the three input blocks; nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation at a generic grid point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the input buffers hold their blocks, so `sound_kernel1` applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KI.Region2.lean ====
import proofs.«106910_j66125316489905_1_alg».proof.Proof.KI.Launch
import proofs.«106910_j66125316489905_1_alg».proof.Proof.Gen.KernelIdeal.Skeleton
import proofs.«106910_j66125316489905_1_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Region 2: `cc2__preagg_kernel` on a grid of 25 row tiles

Stated at a parameter `V`, the contents of the core's buffers when the region is entered. Window 0 is a 4000×128 tile of
the node array, window 1 the matching 4000×1 tile of the scaling column, window 2 the whole 128×128 weight matrix (fetched once
and kept), window 3 the 4000×128 output tile: the node tile scaled row by row by the column tile, times the whole weight matrix. -/

variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every grid point, fetched there or not: where it is not
    fetched its block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every grid point, fetched there or not: where it is not
    fetched its block index has not moved. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at every grid point, fetched there or not: where it is not
    fetched its block index has not moved. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer is read and written whole -/

abbrev r2_a : Rect S4000x128 := Rect.unit (s := S4000x128) ![0, 0] S4000x128.size inb_S4000x128_S4000x128_0_0
abbrev r2_b : Rect S4000x1 := Rect.unit (s := S4000x1) ![0, 0] S4000x1.size inb_S4000x1_S4000x1_0_0
abbrev r2_c : Rect S128x128 := Rect.unit (s := S128x128) ![0, 0] S128x128.size inb_S128x128_S128x128_0_0

/-- The output tile after the body, from the three input tiles: its one store, of the body's arithmetic on the loads. -/
def out2_3 (x0 : Vec F S4000x128 .f32) (x1 : Vec F S4000x1 .f32) (x2 : Vec F S128x128 .f32) : Vec F S4000x128 .f32 :=
  View.canon [⟨r2_a, k2_pay1 (View.ld x0 r2_a) (View.ld x1 r2_b) (View.ld x2 r2_c)⟩]

/-- The one store covers the whole output tile. -/
theorem cover2_3 (p0 : Vec F S4000x128 .f32) (y : S4000x128.Idx) :
    ∃ pc ∈ ([⟨r2_a, p0⟩] : List (View.Piece (Elt F) S4000x128 .f32)), y ∈ pc.1.set :=
  View.cover_of_tiled [⟨r2_a, p0⟩] S4000x128.size (by rfl) y

set_option maxHeartbeats 1000000 in
/-- The body on whole staging buffers — the inputs' holding `x0`, `x1`, `x2`, the output's anything — runs to its
    continuation with the inputs as they were and the output at `out2_3` of them. -/
theorem sound_kernel2 (c : Dev nD) (E : Set ℕ) (i : grid2.Coords)
    (arg1 : Memref sig .tc .vmem S4000x128 .f32) (harg1 : arg1.IsWhole) (arg2 : Memref sig .tc .vmem S4000x1 .f32) (harg2 : arg2.IsWhole)
    (arg3 : Memref sig .tc .vmem S128x128 .f32) (harg3 : arg3.IsWhole) (arg4 : Memref sig .tc .vmem S4000x128 .f32) (harg4 : arg4.IsWhole)
    (x0 : Vec F S4000x128 .f32) (x1 : Vec F S4000x1 .f32) (x2 : Vec F S128x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__preagg_kernel i arg1 harg1 arg2 harg2 arg3 harg3 arg4 harg4) K := by
  simp only [cc2__preagg_kernel_eq_skeleton]; unfold cc2__preagg_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The region's proof data -/

/-- Arrays as the region finds them; after the body at point `t` each input buffer still holds its block and the
    output buffer holds `out2_3` of the three input blocks; nothing owed, full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation at a generic grid point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the input buffers hold their blocks, so `sound_kernel2` applies; the invariant and what
    the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.KI.Region3.lean ====
import proofs.«106910_j66125316489905_1_alg».proof.Proof.KI.Launch
import proofs.«106910_j66125316489905_1_alg».proof.Proof.Gen.KernelIdeal.Skeleton
import proofs.«106910_j66125316489905_1_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Region 3: `cc3__postagg_kernel` on a grid of 25 row tiles

Stated at a parameter `V`, the contents of the core's buffers when the region is entered. Window 0 is a 4000×128 tile of
the node array, window 1 the matching 4000×1 tile of the scaling column, window 2 the whole bias vector (fetched once
and kept), window 3 the 4000×128 output tile: the aggregated tile scaled row by row by the column tile, plus the bias row, clamped below at zero. -/

variable (V : (c : Dev nD) → (b : Ref sig .tc) → Buf (Elt F) ((c : Thread nD τ).loc b))

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds its block at every grid point, fetched there or not: where it is not
    fetched its block index has not moved. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's staging buffer holds its block at every grid point, fetched there or not: where it is not
    fetched its block index has not moved. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's staging buffer holds its block at every grid point, fetched there or not: where it is not
    fetched its block index has not moved. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each buffer is read and written whole -/

abbrev r3_a : Rect S4000x128 := Rect.unit (s := S4000x128) ![0, 0] S4000x128.size inb_S4000x128_S4000x128_0_0
abbrev r3_b : Rect S4000x1 := Rect.unit (s := S4000x1) ![0, 0] S4000x1.size inb_S4000x1_S4000x1_0_0
abbrev r3_c : Rect S128 := Rect.unit (s := S128) ![0] S128.size inb_S128_S128_0

/-- The output tile after the body, from the three input tiles: its one store, of the body's arithmetic on the loads. -/
def out3_3 (x0 : Vec F S4000x128 .f32) (x1 : Vec F S4000x1 .f32) (x2 : Vec F S128 .f32) : Vec F S4000x128 .f32 :=
  View.canon [⟨r3_a, k3_pay1 (View.ld x0 r3_a) (View.ld x1 r3_b) (View.ld x2 r3_c)⟩]

/-- The one store covers the whole output tile. -/
theorem cover3_3 (p0 : Vec F S4000x128 .f32) (y : S4000x128.Idx) :
    ∃ pc ∈ ([⟨r3_a, p0⟩] : List (View.Piece (Elt F) S4000x128 .f32)), y ∈ pc.1.set :=
  View.cover_of_tiled [⟨r3_a, p0⟩] S4000x128.size (by rfl) y

set_option maxHeartbeats 1000000 in
/-- The body on whole staging buffers — the inputs' holding `x0`, `x1`, `x2`, the output's anything — runs to its
    continuation with the inputs as they were and the output at `out3_3` of them. -/
theorem sound_kernel3 (c : Dev nD) (E : Set ℕ) (i : grid3.Coords)
    (arg1 : Memref sig .tc .vmem S4000x128 .f32) (harg1 : arg1.IsWhole) (arg2 : Memref sig .tc .vmem S4000x1 .f32) (harg2 : arg2.IsWhole)
    (arg3 : Memref sig .tc .vmem S128 .f32) (harg3 : arg3.IsWhole) (arg4 : Memref sig .tc .vmem S4000x128 .f32) (harg4 : arg4.IsWhole)
    (x0 : Vec F S4000x128 .f32) (x1 : Vec F S4000x1 .f32) (x2 : Vec F S128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 x0 x1 x2)) -∗ K ⟨⟩))
      ⊢ wp frame (wpE (defs₀ (F := F)) Variants.none c none) E (cc3__postagg_kernel i arg1 harg1 arg2 harg2 arg3 harg3 arg4 harg4) K := by
  simp only [cc3__postagg_kernel_eq_skeleton]; unfold cc3__postagg_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The region's proof data -/

/-- Arrays as the region finds them; after the body at point `t` each input buffer still holds its block and the
    output buffer holds `out3_3` of the three input blocks; nothing owed, full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation at a generic grid point -/

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the input buffers hold their blocks, so `sound_kernel3` applies; the invariant and what
    the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Fr

end
-- ==== Proof.KI.Region4.lean ====
import proofs.«106910_j66125316489905_1_alg».proof.Proof.KI.Launch
import proofs.«106910_j66125316489905_1_alg».proof.Proof.Gen.KernelIdeal.Skeleton
import proofs.«106910_j66125316489905_1_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Region 4: `cc4__preagg_kernel` on a grid of 25 row tiles

Stated at a parameter `V`, the contents of the core's buffers when the region is entered. Window 0 is a 4000×128 tile of
the node array, window 1 the matching 4000×1 tile of the scaling column, window 2 the whole 128×128 weight matrix (fetched once
and kept), window 3 the 4000×128 output tile: the node tile scaled row by row by the column tile, times the whole weight matrix. -/

variable (V : (c : Dev nD) → (b : Ref sig .tc) → Buf (Elt F) ((c : Thread nD τ).loc b))

/-- Window `w`'s block at grid point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's staging buffer holds its block at every grid point, fetched there or not: where it is not
    fetched its block index has not moved. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's staging buffer holds its block at every grid point, fetched there or not: where it is not
    fetched its block index has not moved. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's staging buffer holds its block at every grid point, fetched there or not: where it is not
    fetched its block index has not moved. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each buffer is read and written whole -/

abbrev r4_a : Rect S4000x128 := Rect.unit (s := S4000x128) ![0, 0] S4000x128.size inb_S4000x128_S4000x128_0_0
abbrev r4_b : Rect S4000x1 := Rect.unit (s := S4000x1) ![0, 0] S4000x1.size inb_S4000x1_S4000x1_0_0
abbrev r4_c : Rect S128x128 := Rect.unit (s := S128x128) ![0, 0] S128x128.size inb_S128x128_S128x128_0_0

/-- The output tile after the body, from the three input tiles: its one store, of the body's arithmetic on the loads. -/
def out4_3 (x0 : Vec F S4000x128 .f32) (x1 : Vec F S4000x1 .f32) (x2 : Vec F S128x128 .f32) : Vec F S4000x128 .f32 :=
  View.canon [⟨r4_a, k4_pay1 (View.ld x0 r4_a) (View.ld x1 r4_b) (View.ld x2 r4_c)⟩]

/-- The one store covers the whole output tile. -/
theorem cover4_3 (p0 : Vec F S4000x128 .f32) (y : S4000x128.Idx) :
    ∃ pc ∈ ([⟨r4_a, p0⟩] : List (View.Piece (Elt F) S4000x128 .f32)), y ∈ pc.1.set :=
  View.cover_of_tiled [⟨r4_a, p0⟩] S4000x128.size (by rfl) y

set_option maxHeartbeats 1000000 in
/-- The body on whole staging buffers — the inputs' holding `x0`, `x1`, `x2`, the output's anything — runs to its
    continuation with the inputs as they were and the output at `out4_3` of them. -/
theorem sound_kernel4 (c : Dev nD) (E : Set ℕ) (i : grid4.Coords)
    (arg1 : Memref sig .tc .vmem S4000x128 .f32) (harg1 : arg1.IsWhole) (arg2 : Memref sig .tc .vmem S4000x1 .f32) (harg2 : arg2.IsWhole)
    (arg3 : Memref sig .tc .vmem S128x128 .f32) (harg3 : arg3.IsWhole) (arg4 : Memref sig .tc .vmem S4000x128 .f32) (harg4 : arg4.IsWhole)
    (x0 : Vec F S4000x128 .f32) (x1 : Vec F S4000x1 .f32) (x2 : Vec F S128x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out4_3 x0 x1 x2)) -∗ K ⟨⟩))
      ⊢ wp frame (wpE (defs₀ (F := F)) Variants.none c none) E (cc4__preagg_kernel i arg1 harg1 arg2 harg2 arg3 harg3 arg4 harg4) K := by
  simp only [cc4__preagg_kernel_eq_skeleton]; unfold cc4__preagg_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

/-! ## The region's proof data -/

/-- Arrays as the region finds them; after the body at point `t` each input buffer still holds its block and the
    output buffer holds `out4_3` of the three input blocks; nothing owed, full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) :
    (dat4 V c).after 3 t = out4_3 (iblk4 V c 0 t) (iblk4 V c 1 t) (iblk4 V c 2 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation at a generic grid point -/

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the input buffers hold their blocks, so `sound_kernel4` applies; the invariant and what
    the core owes pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Fr

end
-- ==== Proof.KI.Region5.lean ====
import proofs.«106910_j66125316489905_1_alg».proof.Proof.KI.Launch
import proofs.«106910_j66125316489905_1_alg».proof.Proof.Gen.KernelIdeal.Skeleton
import proofs.«106910_j66125316489905_1_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Region 5: `cc5__postagg_kernel` on a grid of 25 row tiles

Stated at a parameter `V`, the contents of the core's buffers when the region is entered. Window 0 is a 4000×128 tile of
the node array, window 1 the matching 4000×1 tile of the scaling column, window 2 the whole bias vector (fetched once
and kept), window 3 the 4000×128 output tile: the aggregated tile scaled row by row by the column tile, plus the bias row, clamped below at zero. -/

variable (V : (c : Dev nD) → (b : Ref sig .tc) → Buf (Elt F) ((c : Thread nD τ).loc b))

/-- Window `w`'s block at grid point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's staging buffer holds its block at every grid point, fetched there or not: where it is not
    fetched its block index has not moved. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's staging buffer holds its block at every grid point, fetched there or not: where it is not
    fetched its block index has not moved. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's staging buffer holds its block at every grid point, fetched there or not: where it is not
    fetched its block index has not moved. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: each buffer is read and written whole -/

abbrev r5_a : Rect S4000x128 := Rect.unit (s := S4000x128) ![0, 0] S4000x128.size inb_S4000x128_S4000x128_0_0
abbrev r5_b : Rect S4000x1 := Rect.unit (s := S4000x1) ![0, 0] S4000x1.size inb_S4000x1_S4000x1_0_0
abbrev r5_c : Rect S128 := Rect.unit (s := S128) ![0] S128.size inb_S128_S128_0

/-- The output tile after the body, from the three input tiles: its one store, of the body's arithmetic on the loads. -/
def out5_3 (x0 : Vec F S4000x128 .f32) (x1 : Vec F S4000x1 .f32) (x2 : Vec F S128 .f32) : Vec F S4000x128 .f32 :=
  View.canon [⟨r5_a, k5_pay1 (View.ld x0 r5_a) (View.ld x1 r5_b) (View.ld x2 r5_c)⟩]

/-- The one store covers the whole output tile. -/
theorem cover5_3 (p0 : Vec F S4000x128 .f32) (y : S4000x128.Idx) :
    ∃ pc ∈ ([⟨r5_a, p0⟩] : List (View.Piece (Elt F) S4000x128 .f32)), y ∈ pc.1.set :=
  View.cover_of_tiled [⟨r5_a, p0⟩] S4000x128.size (by rfl) y

set_option maxHeartbeats 1000000 in
/-- The body on whole staging buffers — the inputs' holding `x0`, `x1`, `x2`, the output's anything — runs to its
    continuation with the inputs as they were and the output at `out5_3` of them. -/
theorem sound_kernel5 (c : Dev nD) (E : Set ℕ) (i : grid5.Coords)
    (arg1 : Memref sig .tc .vmem S4000x128 .f32) (harg1 : arg1.IsWhole) (arg2 : Memref sig .tc .vmem S4000x1 .f32) (harg2 : arg2.IsWhole)
    (arg3 : Memref sig .tc .vmem S128 .f32) (harg3 : arg3.IsWhole) (arg4 : Memref sig .tc .vmem S4000x128 .f32) (harg4 : arg4.IsWhole)
    (x0 : Vec F S4000x128 .f32) (x1 : Vec F S4000x1 .f32) (x2 : Vec F S128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out5_3 x0 x1 x2)) -∗ K ⟨⟩))
      ⊢ wp frame (wpE (defs₀ (F := F)) Variants.none c none) E (cc5__postagg_kernel i arg1 harg1 arg2 harg2 arg3 harg3 arg4 harg4) K := by
  simp only [cc5__postagg_kernel_eq_skeleton]; unfold cc5__postagg_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5_3 _)

/-! ## The region's proof data -/

/-- Arrays as the region finds them; after the body at point `t` each input buffer still holds its block and the
    output buffer holds `out5_3` of the three input blocks; nothing owed, full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) :
    (dat5 V c).after 3 t = out5_3 (iblk5 V c 0 t) (iblk5 V c 1 t) (iblk5 V c 2 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-! ## The body obligation at a generic grid point -/

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

/-- The body at any point: the input buffers hold their blocks, so `sound_kernel5` applies; the invariant and what
    the core owes pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ _ _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Fr

end
-- ==== Proof.KI.Run.lean ====
import proofs.«106910_j66125316489905_1_alg».proof.Proof.KI.Launch
import proofs.«106910_j66125316489905_1_alg».proof.Proof.Gen.KernelIdeal.Skeleton
import proofs.«106910_j66125316489905_1_alg».proof.Proof.Gen.KernelIdeal.Points
import proofs.«106910_j66125316489905_1_alg».proof.Proof.KI.Region0
import proofs.«106910_j66125316489905_1_alg».proof.Proof.KI.Region1
import proofs.«106910_j66125316489905_1_alg».proof.Proof.KI.Region2
import proofs.«106910_j66125316489905_1_alg».proof.Proof.KI.Region3
import proofs.«106910_j66125316489905_1_alg».proof.Proof.KI.Region4
import proofs.«106910_j66125316489905_1_alg».proof.Proof.KI.Region5
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The whole run: @main's eleven segments from the launch to the return

Five stretches of host operations and six kernel regions, in the order host, region 0, host, regions 1 and 2, host, regions 3 and 4,
host, region 5, host. `Wj c` is what core `c`'s buffers hold after `j` segments: a host stretch applies its operations; a region leaves
each of its arrays at what its write-backs fold to (its inputs as entered) and every other buffer as it was. -/

variable (m : (ℓ : Loc nD τ sig) → Buf (Elt F) ℓ) (ρ : Dev nD → PrngReg)

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After region 0: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- Region 0 changes only its output array `main_v15`: an input window's array ends as entered, a buffer that is no window's is untouched. -/
theorem W2_keep (c : Dev nD) (b : Ref sig .tc) (hb : b ≠ main_v15) :
    W2 m ρ c (Proc.devRef .tc b) = W1 m ρ c (Proc.devRef .tc b) := by
  by_cases h0 : b = main_arg0
  · subst h0; exact (W2_arr m ρ c 0).trans (((dat0 (V1 m ρ) c).arrAt_in 0 rfl _).trans (A_eq0 (V1 m ρ) c 0))
  by_cases h1 : b = main_v13
  · subst h1; exact (W2_arr m ρ c 1).trans (((dat0 (V1 m ρ) c).arrAt_in 1 rfl _).trans (A_eq0 (V1 m ρ) c 1))
  by_cases h2 : b = main_arg1
  · subst h2; exact (W2_arr m ρ c 2).trans (((dat0 (V1 m ρ) c).arrAt_in 2 rfl _).trans (A_eq0 (V1 m ρ) c 2))
  refine W2_of_ne m ρ c b fun w e => ?_
  match w, e with
  | ⟨0, _⟩, e => exact h0 e.symm
  | ⟨1, _⟩, e => exact h1 e.symm
  | ⟨2, _⟩, e => exact h2 e.symm
  | ⟨3, _⟩, e => exact hb e.symm
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After region 1: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- Region 1 changes only its output array `main_v26`: an input window's array ends as entered, a buffer that is no window's is untouched. -/
theorem W4_keep (c : Dev nD) (b : Ref sig .tc) (hb : b ≠ main_v26) :
    W4 m ρ c (Proc.devRef .tc b) = W3 m ρ c (Proc.devRef .tc b) := by
  by_cases h0 : b = main_v25
  · subst h0; exact (W4_arr m ρ c 0).trans (((dat1 (V3 m ρ) c).arrAt_in 0 rfl _).trans (A_eq1 (V3 m ρ) c 0))
  by_cases h1 : b = main_v14
  · subst h1; exact (W4_arr m ρ c 1).trans (((dat1 (V3 m ρ) c).arrAt_in 1 rfl _).trans (A_eq1 (V3 m ρ) c 1))
  by_cases h2 : b = main_arg2
  · subst h2; exact (W4_arr m ρ c 2).trans (((dat1 (V3 m ρ) c).arrAt_in 2 rfl _).trans (A_eq1 (V3 m ρ) c 2))
  refine W4_of_ne m ρ c b fun w e => ?_
  match w, e with
  | ⟨0, _⟩, e => exact h0 e.symm
  | ⟨1, _⟩, e => exact h1 e.symm
  | ⟨2, _⟩, e => exact h2 e.symm
  | ⟨3, _⟩, e => exact hb e.symm
/-- After region 2: its arrays at what the pipeline leaves, every other buffer as entered. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev V5 : (c : Dev nD) → (b : Ref sig .tc) → Buf (Elt F) ((c : Thread nD τ).loc b) := fun c b => W5 m ρ c b
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)
/-- Region 2 changes only its output array `main_v27`: an input window's array ends as entered, a buffer that is no window's is untouched. -/
theorem W5_keep (c : Dev nD) (b : Ref sig .tc) (hb : b ≠ main_v27) :
    W5 m ρ c (Proc.devRef .tc b) = W4 m ρ c (Proc.devRef .tc b) := by
  by_cases h0 : b = main_v26
  · subst h0; exact (W5_arr m ρ c 0).trans (((dat2 (V4 m ρ) c).arrAt_in 0 rfl _).trans (A_eq2 (V4 m ρ) c 0))
  by_cases h1 : b = main_v13
  · subst h1; exact (W5_arr m ρ c 1).trans (((dat2 (V4 m ρ) c).arrAt_in 1 rfl _).trans (A_eq2 (V4 m ρ) c 1))
  by_cases h2 : b = main_arg3
  · subst h2; exact (W5_arr m ρ c 2).trans (((dat2 (V4 m ρ) c).arrAt_in 2 rfl _).trans (A_eq2 (V4 m ρ) c 2))
  refine W5_of_ne m ρ c b fun w e => ?_
  match w, e with
  | ⟨0, _⟩, e => exact h0 e.symm
  | ⟨1, _⟩, e => exact h1 e.symm
  | ⟨2, _⟩, e => exact h2 e.symm
  | ⟨3, _⟩, e => exact hb e.symm
abbrev W6 : Dev nD → Valuation τ sig (Elt F) := fun c => StableHlo.after hostOps3 (W5 m ρ c)
abbrev V6 : (c : Dev nD) → (b : Ref sig .tc) → Buf (Elt F) ((c : Thread nD τ).loc b) := fun c b => W6 m ρ c b
/-- After region 3: its arrays at what the pipeline leaves, every other buffer as entered. -/
def W7 (c : Dev nD) : Valuation τ sig (Elt F) :=
  Pipeline.withArrays spec3 c (W6 m ρ c) fun w => (dat3 (V6 m ρ) c).arrAt w cfg3.N
theorem W7_arr (c : Dev nD) (w : Fin cfg3.W) :
    W7 m ρ c (Proc.devRef .tc (Pipeline.arrRef spec3 w)) = (dat3 (V6 m ρ) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) := by
  unfold W7; exact Pipeline.withArrays_of_ne spec3 c _ _ b hb
abbrev V7 : (c : Dev nD) → (b : Ref sig .tc) → Buf (Elt F) ((c : Thread nD τ).loc b) := fun c b => W7 m ρ c b
theorem hF3 (c : Dev nD) (w : Fin cfg3.W) : (dat3 (V6 m ρ) c).arrAt w cfg3.N = V7 m ρ c (Pipeline.arrRef spec3 w) :=
  (W7_arr m ρ c w).symm
theorem hrest3 (c : Dev nD) : ∀ b, b ∉ Finset.univ.image (Pipeline.arrRef spec3) → V7 m ρ c b = V6 m ρ c b :=
  fun b hb => W7_of_ne m ρ c b fun w e => hb (Finset.mem_image.mpr ⟨w, Finset.mem_univ _, e⟩)
/-- Region 3 changes only its output array `main_v38`: an input window's array ends as entered, a buffer that is no window's is untouched. -/
theorem W7_keep (c : Dev nD) (b : Ref sig .tc) (hb : b ≠ main_v38) :
    W7 m ρ c (Proc.devRef .tc b) = W6 m ρ c (Proc.devRef .tc b) := by
  by_cases h0 : b = main_v37
  · subst h0; exact (W7_arr m ρ c 0).trans (((dat3 (V6 m ρ) c).arrAt_in 0 rfl _).trans (A_eq3 (V6 m ρ) c 0))
  by_cases h1 : b = main_v14
  · subst h1; exact (W7_arr m ρ c 1).trans (((dat3 (V6 m ρ) c).arrAt_in 1 rfl _).trans (A_eq3 (V6 m ρ) c 1))
  by_cases h2 : b = main_arg4
  · subst h2; exact (W7_arr m ρ c 2).trans (((dat3 (V6 m ρ) c).arrAt_in 2 rfl _).trans (A_eq3 (V6 m ρ) c 2))
  refine W7_of_ne m ρ c b fun w e => ?_
  match w, e with
  | ⟨0, _⟩, e => exact h0 e.symm
  | ⟨1, _⟩, e => exact h1 e.symm
  | ⟨2, _⟩, e => exact h2 e.symm
  | ⟨3, _⟩, e => exact hb e.symm
/-- After region 4: its arrays at what the pipeline leaves, every other buffer as entered. -/
def W8 (c : Dev nD) : Valuation τ sig (Elt F) :=
  Pipeline.withArrays spec4 c (W7 m ρ c) fun w => (dat4 (V7 m ρ) c).arrAt w cfg4.N
theorem W8_arr (c : Dev nD) (w : Fin cfg4.W) :
    W8 m ρ c (Proc.devRef .tc (Pipeline.arrRef spec4 w)) = (dat4 (V7 m ρ) c).arrAt w cfg4.N := by
  unfold W8; exact Pipeline.withArrays_arr spec4 launch4.win.arr_inj c _ _ w
theorem W8_of_ne (c : Dev nD) (b : Ref sig .tc) (hb : ∀ w, Pipeline.arrRef spec4 w ≠ b) :
    W8 m ρ c (Proc.devRef .tc b) = W7 m ρ c (Proc.devRef .tc b) := by
  unfold W8; exact Pipeline.withArrays_of_ne spec4 c _ _ b hb
abbrev V8 : (c : Dev nD) → (b : Ref sig .tc) → Buf (Elt F) ((c : Thread nD τ).loc b) := fun c b => W8 m ρ c b
theorem hF4 (c : Dev nD) (w : Fin cfg4.W) : (dat4 (V7 m ρ) c).arrAt w cfg4.N = V8 m ρ c (Pipeline.arrRef spec4 w) :=
  (W8_arr m ρ c w).symm
theorem hrest4 (c : Dev nD) : ∀ b, b ∉ Finset.univ.image (Pipeline.arrRef spec4) → V8 m ρ c b = V7 m ρ c b :=
  fun b hb => W8_of_ne m ρ c b fun w e => hb (Finset.mem_image.mpr ⟨w, Finset.mem_univ _, e⟩)
/-- Region 4 changes only its output array `main_v39`: an input window's array ends as entered, a buffer that is no window's is untouched. -/
theorem W8_keep (c : Dev nD) (b : Ref sig .tc) (hb : b ≠ main_v39) :
    W8 m ρ c (Proc.devRef .tc b) = W7 m ρ c (Proc.devRef .tc b) := by
  by_cases h0 : b = main_v38
  · subst h0; exact (W8_arr m ρ c 0).trans (((dat4 (V7 m ρ) c).arrAt_in 0 rfl _).trans (A_eq4 (V7 m ρ) c 0))
  by_cases h1 : b = main_v13
  · subst h1; exact (W8_arr m ρ c 1).trans (((dat4 (V7 m ρ) c).arrAt_in 1 rfl _).trans (A_eq4 (V7 m ρ) c 1))
  by_cases h2 : b = main_arg5
  · subst h2; exact (W8_arr m ρ c 2).trans (((dat4 (V7 m ρ) c).arrAt_in 2 rfl _).trans (A_eq4 (V7 m ρ) c 2))
  refine W8_of_ne m ρ c b fun w e => ?_
  match w, e with
  | ⟨0, _⟩, e => exact h0 e.symm
  | ⟨1, _⟩, e => exact h1 e.symm
  | ⟨2, _⟩, e => exact h2 e.symm
  | ⟨3, _⟩, e => exact hb e.symm
abbrev W9 : Dev nD → Valuation τ sig (Elt F) := fun c => StableHlo.after hostOps5 (W8 m ρ c)
abbrev V9 : (c : Dev nD) → (b : Ref sig .tc) → Buf (Elt F) ((c : Thread nD τ).loc b) := fun c b => W9 m ρ c b
/-- After region 5: its arrays at what the pipeline leaves, every other buffer as entered. -/
def W10 (c : Dev nD) : Valuation τ sig (Elt F) :=
  Pipeline.withArrays spec5 c (W9 m ρ c) fun w => (dat5 (V9 m ρ) c).arrAt w cfg5.N
theorem W10_arr (c : Dev nD) (w : Fin cfg5.W) :
    W10 m ρ c (Proc.devRef .tc (Pipeline.arrRef spec5 w)) = (dat5 (V9 m ρ) c).arrAt w cfg5.N := by
  unfold W10; exact Pipeline.withArrays_arr spec5 launch5.win.arr_inj c _ _ w
theorem W10_of_ne (c : Dev nD) (b : Ref sig .tc) (hb : ∀ w, Pipeline.arrRef spec5 w ≠ b) :
    W10 m ρ c (Proc.devRef .tc b) = W9 m ρ c (Proc.devRef .tc b) := by
  unfold W10; exact Pipeline.withArrays_of_ne spec5 c _ _ b hb
abbrev V10 : (c : Dev nD) → (b : Ref sig .tc) → Buf (Elt F) ((c : Thread nD τ).loc b) := fun c b => W10 m ρ c b
theorem hF5 (c : Dev nD) (w : Fin cfg5.W) : (dat5 (V9 m ρ) c).arrAt w cfg5.N = V10 m ρ c (Pipeline.arrRef spec5 w) :=
  (W10_arr m ρ c w).symm
theorem hrest5 (c : Dev nD) : ∀ b, b ∉ Finset.univ.image (Pipeline.arrRef spec5) → V10 m ρ c b = V9 m ρ c b :=
  fun b hb => W10_of_ne m ρ c b fun w e => hb (Finset.mem_image.mpr ⟨w, Finset.mem_univ _, e⟩)
/-- Region 5 changes only its output array `main_v50`: an input window's array ends as entered, a buffer that is no window's is untouched. -/
theorem W10_keep (c : Dev nD) (b : Ref sig .tc) (hb : b ≠ main_v50) :
    W10 m ρ c (Proc.devRef .tc b) = W9 m ρ c (Proc.devRef .tc b) := by
  by_cases h0 : b = main_v49
  · subst h0; exact (W10_arr m ρ c 0).trans (((dat5 (V9 m ρ) c).arrAt_in 0 rfl _).trans (A_eq5 (V9 m ρ) c 0))
  by_cases h1 : b = main_v14
  · subst h1; exact (W10_arr m ρ c 1).trans (((dat5 (V9 m ρ) c).arrAt_in 1 rfl _).trans (A_eq5 (V9 m ρ) c 1))
  by_cases h2 : b = main_arg6
  · subst h2; exact (W10_arr m ρ c 2).trans (((dat5 (V9 m ρ) c).arrAt_in 2 rfl _).trans (A_eq5 (V9 m ρ) c 2))
  refine W10_of_ne m ρ c b fun w e => ?_
  match w, e with
  | ⟨0, _⟩, e => exact h0 e.symm
  | ⟨1, _⟩, e => exact h1 e.symm
  | ⟨2, _⟩, e => exact h2 e.symm
  | ⟨3, _⟩, e => exact hb e.symm
abbrev W11 : Dev nD → Valuation τ sig (Elt F) := fun c => StableHlo.after hostOps6 (W10 m ρ c)
abbrev V11 : (c : Dev nD) → (b : Ref sig .tc) → Buf (Elt F) ((c : Thread nD τ).loc b) := fun c b => W11 m ρ c b

/-! ## What the host stretches write -/

theorem hostOps0_fresh : (hostOps0 : List (HloOp τ sig (Elt F))).Forall fun op => op.fresh = ∅ := by
  simp only [List.Forall]; repeat' constructor
/-- The buffers `hostOps0`'s operations write. -/
abbrev hostOps0_W : List (Ref sig .tc) := [main_cst, main_v0, main_cst_0, main_v1, main_v2, main_v3, main_cst_1, main_v4, main_v5, main_v6, main_cst_2, main_v7, main_v8, main_v9, main_cst_3, main_v10, main_v11, main_v12, main_v13, main_v14]
theorem hostOps0_writes : (hostOps0 : List (HloOp τ sig (Elt F))).Forall fun op => op.writes ⊆ (hostOps0_W.map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)
/-- A buffer no operation of the stretch writes is as before it. -/
theorem W1_keep (c : Dev nD) (b : Ref sig .tc) (h : b ∉ hostOps0_W) :
    W1 m ρ c (Proc.devRef .tc b) = W0 m ρ c (Proc.devRef .tc b) :=
  StableHlo.after_of_writes_sub hostOps0 _ hostOps0_writes h

theorem hostOps1_fresh : (hostOps1 : List (HloOp τ sig (Elt F))).Forall fun op => op.fresh = ∅ := by
  simp only [List.Forall]; repeat' constructor
/-- The buffers `hostOps1`'s operations write. -/
abbrev hostOps1_W : List (Ref sig .tc) := [main_c, main_v16, main_v17, main_c_4, main_v18, main_v19, main_v20, main_v21, main_v22, main_cst_5, main_v23, main_v24, main_v25]
theorem hostOps1_writes : (hostOps1 : List (HloOp τ sig (Elt F))).Forall fun op => op.writes ⊆ (hostOps1_W.map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)
/-- A buffer no operation of the stretch writes is as before it. -/
theorem W3_keep (c : Dev nD) (b : Ref sig .tc) (h : b ∉ hostOps1_W) :
    W3 m ρ c (Proc.devRef .tc b) = W2 m ρ c (Proc.devRef .tc b) :=
  StableHlo.after_of_writes_sub hostOps1 _ hostOps1_writes h

theorem hostOps3_fresh : (hostOps3 : List (HloOp τ sig (Elt F))).Forall fun op => op.fresh = ∅ := by
  simp only [List.Forall]; repeat' constructor
/-- The buffers `hostOps3`'s operations write. -/
abbrev hostOps3_W : List (Ref sig .tc) := [main_c_6, main_v28, main_v29, main_c_7, main_v30, main_v31, main_v32, main_v33, main_v34, main_cst_8, main_v35, main_v36, main_v37]
theorem hostOps3_writes : (hostOps3 : List (HloOp τ sig (Elt F))).Forall fun op => op.writes ⊆ (hostOps3_W.map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)
/-- A buffer no operation of the stretch writes is as before it. -/
theorem W6_keep (c : Dev nD) (b : Ref sig .tc) (h : b ∉ hostOps3_W) :
    W6 m ρ c (Proc.devRef .tc b) = W5 m ρ c (Proc.devRef .tc b) :=
  StableHlo.after_of_writes_sub hostOps3 _ hostOps3_writes h

theorem hostOps5_fresh : (hostOps5 : List (HloOp τ sig (Elt F))).Forall fun op => op.fresh = ∅ := by
  simp only [List.Forall]; repeat' constructor
/-- The buffers `hostOps5`'s operations write. -/
abbrev hostOps5_W : List (Ref sig .tc) := [main_c_9, main_v40, main_v41, main_c_10, main_v42, main_v43, main_v44, main_v45, main_v46, main_cst_11, main_v47, main_v48, main_v49]
theorem hostOps5_writes : (hostOps5 : List (HloOp τ sig (Elt F))).Forall fun op => op.writes ⊆ (hostOps5_W.map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)
/-- A buffer no operation of the stretch writes is as before it. -/
theorem W9_keep (c : Dev nD) (b : Ref sig .tc) (h : b ∉ hostOps5_W) :
    W9 m ρ c (Proc.devRef .tc b) = W8 m ρ c (Proc.devRef .tc b) :=
  StableHlo.after_of_writes_sub hostOps5 _ hostOps5_writes h

theorem hostOps6_fresh : (hostOps6 : List (HloOp τ sig (Elt F))).Forall fun op => op.fresh = ∅ := by
  simp only [List.Forall]; repeat' constructor
/-- The buffers `hostOps6`'s operations write. -/
abbrev hostOps6_W : List (Ref sig .tc) := [main_v51]
theorem hostOps6_writes : (hostOps6 : List (HloOp τ sig (Elt F))).Forall fun op => op.writes ⊆ (hostOps6_W.map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)
/-- A buffer no operation of the stretch writes is as before it. -/
theorem W11_keep (c : Dev nD) (b : Ref sig .tc) (h : b ∉ hostOps6_W) :
    W11 m ρ c (Proc.devRef .tc b) = W10 m ρ c (Proc.devRef .tc b) :=
  StableHlo.after_of_writes_sub hostOps6 _ hostOps6_writes h

/-! ## The proof data family and the thread state -/

abbrev adm : (p : Fin 6) → (pcfgs (F := F) p).Adm := fun p => (cfgs p).toPCfg_adm
/-- Every region's proof data, each at its own entry contents. -/
def pdats : (p : Fin 6) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V4 m ρ) c
  | ⟨3, _⟩ => fun c => dat3 (V6 m ρ) c
  | ⟨4, _⟩ => fun c => dat4 (V7 m ρ) c
  | ⟨5, _⟩ => fun c => dat5 (V9 m ρ) c
abbrev 𝒱₀ : Variants := Variants.none
abbrev L : GSem nD τ sig → Finset Unit := fun _ => ∅
abbrev lv : GSem nD τ sig → Unit → ℕ := fun _ _ => 0
/-- What rides beside the buffers through every segment: the core's generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W11 m ρ c) ∗ ∃ r, prngReg c r)

/-! ## The regions as segments -/

set_option backward.isDefEq.respectTransparency.types false in
/-- Region 0 over the thread state: entered with every unscoped buffer at `W1`, left with them at `W2`. Its arrays are split
    out of the unscoped buffers and put back at the exit contents; the generator register goes into the region's invariant and
    comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W3`, left with them at `W4`. Its arrays are split
    out of the unscoped buffers and put back at the exit contents; the generator register goes into the region's invariant and
    comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `W4`, left with them at `W5`. Its arrays are split
    out of the unscoped buffers and put back at the exit contents; the generator register goes into the region's invariant and
    comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered with every unscoped buffer at `W6`, left with them at `W7`. Its arrays are split
    out of the unscoped buffers and put back at the exit contents; the generator register goes into the region's invariant and
    comes back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V6 m ρ) c).loose
  hwaits := Pipeline.hwaits_of_owed_zero _ _ _ _ L lv 3 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec3 c (V6 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V6 m ρ c) (V7 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered with every unscoped buffer at `W7`, left with them at `W8`. Its arrays are split
    out of the unscoped buffers and put back at the exit contents; the generator register goes into the region's invariant and
    comes back; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V7 m ρ) c).loose
  hwaits := Pipeline.hwaits_of_owed_zero _ _ _ _ L lv 4 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec4 c (V7 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V7 m ρ c) (V8 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered with every unscoped buffer at `W9`, left with them at `W10`. Its arrays are split
    out of the unscoped buffers and put back at the exit contents; the generator register goes into the region's invariant and
    comes back; nothing is owed; the kernel has no semaphore of its own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V9 m ρ) c).loose
  hwaits := Pipeline.hwaits_of_owed_zero _ _ _ _ L lv 5 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec5 c (V9 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V9 m ρ c) (V10 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .region (reg2 m ρ),
    .host (hseg hostOps3 hostOps3_sub hostOps3_fresh (W5 m ρ)),
    .region (reg3 m ρ),
    .region (reg4 m ρ),
    .host (hseg hostOps5 hostOps5_sub hostOps5_fresh (W8 m ρ)),
    .region (reg5 m ρ),
    .host (hseg hostOps6 hostOps6_sub hostOps6_fresh (W10 m ρ)) ]

theorem main_run (c : Dev nD) : main (F := F) c = Pipeline.Seg.run (segs m ρ) := (main_chain c).trans (by chain_rfl)

set_option backward.isDefEq.respectTransparency.types false in
/-- Every weakly fair execution of @main from memory `m` with zero counters terminates, nothing faulting, and in its final state
    every unscoped buffer of every core holds the last boundary's contents `W11`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun c => by
        show (iprop(StableHlo.held (c : Thread nD τ) (Pipeline.ucRefs τ sig) (W11 m ρ c) ∗ R c) : sProp 𝕄) ⊢ _
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c => h c)

end Cert.KernelIdeal.Fr

end
-- ==== Proof.KI.Keep.lean ====
import proofs.«106910_j66125316489905_1_alg».proof.Proof.KI.Launch
import proofs.«106910_j66125316489905_1_alg».proof.Proof.Gen.KernelIdeal.Skeleton
import proofs.«106910_j66125316489905_1_alg».proof.Proof.Gen.KernelIdeal.Points
import proofs.«106910_j66125316489905_1_alg».proof.Proof.KI.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Buffers that stay put across the boundaries

A buffer that no host stretch writes and that is no region's output holds at every boundary what it held at the launch; a buffer
written by the first stretch only keeps from then on what that stretch left; a region's output that later segments only read keeps
what the region left. -/

variable (m : (ℓ : Loc nD τ sig) → Buf (Elt F) ℓ) (ρ : Dev nD → PrngReg)

/-- The six regions' output arrays. -/
abbrev regionOuts : List (Ref sig .tc) := [main_v15, main_v26, main_v27, main_v38, main_v39, main_v50]

/-- Written by nothing: the launch contents at every boundary. -/
theorem W_const (b : Ref sig .tc) (h0 : b ∉ hostOps0_W) (h1 : b ∉ hostOps1_W) (h3 : b ∉ hostOps3_W) (h5 : b ∉ hostOps5_W) (h6 : b ∉ hostOps6_W)
    (hr : b ∉ regionOuts) (c : Dev nD) :
    W1 m ρ c (Proc.devRef .tc b) = m ((c : Thread nD τ).loc b) ∧ W2 m ρ c (Proc.devRef .tc b) = m ((c : Thread nD τ).loc b)
    ∧ W3 m ρ c (Proc.devRef .tc b) = m ((c : Thread nD τ).loc b) ∧ W4 m ρ c (Proc.devRef .tc b) = m ((c : Thread nD τ).loc b)
    ∧ W5 m ρ c (Proc.devRef .tc b) = m ((c : Thread nD τ).loc b) ∧ W6 m ρ c (Proc.devRef .tc b) = m ((c : Thread nD τ).loc b)
    ∧ W7 m ρ c (Proc.devRef .tc b) = m ((c : Thread nD τ).loc b) ∧ W8 m ρ c (Proc.devRef .tc b) = m ((c : Thread nD τ).loc b)
    ∧ W9 m ρ c (Proc.devRef .tc b) = m ((c : Thread nD τ).loc b) ∧ W10 m ρ c (Proc.devRef .tc b) = m ((c : Thread nD τ).loc b)
    ∧ W11 m ρ c (Proc.devRef .tc b) = m ((c : Thread nD τ).loc b) := by
  have e1 : W1 m ρ c (Proc.devRef .tc b) = m ((c : Thread nD τ).loc b) := (W1_keep m ρ c b h0).trans rfl
  have e2 := (W2_keep m ρ c b (fun e => hr (by subst e; decide))).trans e1
  have e3 := (W3_keep m ρ c b h1).trans e2
  have e4 := (W4_keep m ρ c b (fun e => hr (by subst e; decide))).trans e3
  have e5 := (W5_keep m ρ c b (fun e => hr (by subst e; decide))).trans e4
  have e6 := (W6_keep m ρ c b h3).trans e5
  have e7 := (W7_keep m ρ c b (fun e => hr (by subst e; decide))).trans e6
  have e8 := (W8_keep m ρ c b (fun e => hr (by subst e; decide))).trans e7
  have e9 := (W9_keep m ρ c b h5).trans e8
  have e10 := (W10_keep m ρ c b (fun e => hr (by subst e; decide))).trans e9
  have e11 := (W11_keep m ρ c b h6).trans e10
  exact ⟨e1, e2, e3, e4, e5, e6, e7, e8, e9, e10, e11⟩

/-- Written by the first host stretch only: from the first boundary on, what that stretch left. -/
theorem W_from1 (b : Ref sig .tc) (h1 : b ∉ hostOps1_W) (h3 : b ∉ hostOps3_W) (h5 : b ∉ hostOps5_W)
    (hr : b ∉ regionOuts) (c : Dev nD) :
    W3 m ρ c (Proc.devRef .tc b) = W1 m ρ c (Proc.devRef .tc b) ∧ W4 m ρ c (Proc.devRef .tc b) = W1 m ρ c (Proc.devRef .tc b)
    ∧ W6 m ρ c (Proc.devRef .tc b) = W1 m ρ c (Proc.devRef .tc b) ∧ W7 m ρ c (Proc.devRef .tc b) = W1 m ρ c (Proc.devRef .tc b)
    ∧ W9 m ρ c (Proc.devRef .tc b) = W1 m ρ c (Proc.devRef .tc b) := by
  have e2 := W2_keep m ρ c b (fun e => hr (by subst e; decide))
  have e3 := (W3_keep m ρ c b h1).trans e2
  have e4 := (W4_keep m ρ c b (fun e => hr (by subst e; decide))).trans e3
  have e5 := (W5_keep m ρ c b (fun e => hr (by subst e; decide))).trans e4
  have e6 := (W6_keep m ρ c b h3).trans e5
  have e7 := (W7_keep m ρ c b (fun e => hr (by subst e; decide))).trans e6
  have e8 := (W8_keep m ρ c b (fun e => hr (by subst e; decide))).trans e7
  have e9 := (W9_keep m ρ c b h5).trans e8
  exact ⟨e3, e4, e6, e7, e9⟩

/-- The first layer's output `main_v26` is only read after region 1: the last region's exit still has it. -/
theorem W10_v26 (c : Dev nD) : W10 m ρ c (Proc.devRef .tc main_v26) = W4 m ρ c (Proc.devRef .tc main_v26) :=
  (W10_keep m ρ c main_v26 (by decide)).trans <| (W9_keep m ρ c main_v26 (by decide)).trans <| (W8_keep m ρ c main_v26 (by decide)).trans <|
    (W7_keep m ρ c main_v26 (by decide)).trans <| (W6_keep m ρ c main_v26 (by decide)).trans (W5_keep m ρ c main_v26 (by decide))

/-- The second layer's output `main_v38` likewise. -/
theorem W10_v38 (c : Dev nD) : W10 m ρ c (Proc.devRef .tc main_v38) = W7 m ρ c (Proc.devRef .tc main_v38) :=
  (W10_keep m ρ c main_v38 (by decide)).trans <| (W9_keep m ρ c main_v38 (by decide)).trans (W8_keep m ρ c main_v38 (by decide))

/-- A memory that has every unscoped buffer at the last boundary's contents has each argument array as launched. -/
theorem args_of_all (mem : (ℓ : Loc nD τ sig) → Buf (Elt F) ℓ)
    (h : ∀ c : Dev nD, ∀ b ∈ Pipeline.ucRefs τ sig, mem (((c : Thread nD τ)).1, b) = W11 m ρ c b) (c : Dev nD) :
      mem ((c.tc : Thread nD τ).loc main_arg0) = m ((c.tc : Thread nD τ).loc main_arg0)
      ∧ mem ((c.tc : Thread nD τ).loc main_arg1) = m ((c.tc : Thread nD τ).loc main_arg1)
      ∧ mem ((c.tc : Thread nD τ).loc main_arg2) = m ((c.tc : Thread nD τ).loc main_arg2)
      ∧ mem ((c.tc : Thread nD τ).loc main_arg3) = m ((c.tc : Thread nD τ).loc main_arg3)
      ∧ mem ((c.tc : Thread nD τ).loc main_arg4) = m ((c.tc : Thread nD τ).loc main_arg4)
      ∧ mem ((c.tc : Thread nD τ).loc main_arg5) = m ((c.tc : Thread nD τ).loc main_arg5)
      ∧ mem ((c.tc : Thread nD τ).loc main_arg6) = m ((c.tc : Thread nD τ).loc main_arg6)
      ∧ mem ((c.tc : Thread nD τ).loc main_arg7) = m ((c.tc : Thread nD τ).loc main_arg7)
      ∧ mem ((c.tc : Thread nD τ).loc main_arg8) = m ((c.tc : Thread nD τ).loc main_arg8) :=
  have arg (b : Ref sig .tc) (hu : ¬ (Proc.devRef .tc b : DevRef τ sig).isScoped) (h0 : b ∉ hostOps0_W) (h1 : b ∉ hostOps1_W)
      (h3 : b ∉ hostOps3_W) (h5 : b ∉ hostOps5_W) (h6 : b ∉ hostOps6_W) (hr : b ∉ regionOuts) :
      mem ((c.tc : Thread nD τ).loc b) = m ((c.tc : Thread nD τ).loc b) :=
    (h c _ (mem_uc b hu)).trans (W_const m ρ b h0 h1 h3 h5 h6 hr c).2.2.2.2.2.2.2.2.2.2
  ⟨arg main_arg0 (by decide) (by decide) (by decide) (by decide) (by decide) (by decide) (by decide),
   arg main_arg1 (by decide) (by decide) (by decide) (by decide) (by decide) (by decide) (by decide),
   arg main_arg2 (by decide) (by decide) (by decide) (by decide) (by decide) (by decide) (by decide),
   arg main_arg3 (by decide) (by decide) (by decide) (by decide) (by decide) (by decide) (by decide),
   arg main_arg4 (by decide) (by decide) (by decide) (by decide) (by decide) (by decide) (by decide),
   arg main_arg5 (by decide) (by decide) (by decide) (by decide) (by decide) (by decide) (by decide),
   arg main_arg6 (by decide) (by decide) (by decide) (by decide) (by decide) (by decide) (by decide),
   arg main_arg7 (by decide) (by decide) (by decide) (by decide) (by decide) (by decide) (by decide),
   arg main_arg8 (by decide) (by decide) (by decide) (by decide) (by decide) (by decide) (by decide)⟩

/-- THE FRAME: every weakly fair execution of @main terminates, nothing faulting, with each argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => args_of_all m ρ r.2.mem h c) (run_all m ρ)

end Cert.KernelIdeal.Fr

end
-- ==== Proof.Spec.lean ====
import proofs.«106910_j66125316489905_1_alg».proof.ReferenceIdeal
import proofs.«106910_j66125316489905_1_alg».proof.Proof.Gen.ReferenceIdeal
import Idealize.ShloMosaic.PureOps.Ideal
import Idealize.ShloMosaic.Lib.ValueIdx

/-!
# The three-layer graph convolution as one function of the argument arrays

Over the extended reals. With `inv_out = (max (out-degree) 1)^(-1/2)` and `inv_in = (max (in-degree) 1)^(-1/2)` (degrees counted by a
scatter-add of ones over the edge list), one layer sends node features `h` to

    relu ( (Σ over edges into the node of ((h · inv_out) W)[source row]) · inv_in + b )

and the result is the four blocks `feat | layer₁ | layer₂ | layer₃` side by side. The edge-indexed part (row gather by source, scatter-add by
destination) is kept as the two host operations composed; the dense parts are written entry by entry.
-/

noncomputable section

namespace Cert.Spec

open Idealize.ShloMosaic Idealize.ShloMosaic.ValueIdx Cert.ReferenceIdeal Cert.ReferenceIdeal.Facts₀ Cert.ReferenceIdeal.Facts

/-- An edge list's endpoint column: 1 600 000 node numbers as 32-bit words. -/
abbrev EdgeIx : Type := (⟨S1600000, .i32⟩ : BufTy).Contents (Elt Ideal)
abbrev NodeMat : Type := (⟨S100000x128, .f32⟩ : BufTy).Contents (Elt Ideal)
abbrev NodeVec : Type := (⟨S100000, .f32⟩ : BufTy).Contents (Elt Ideal)
abbrev Weight : Type := (⟨S128x128, .f32⟩ : BufTy).Contents (Elt Ideal)
abbrev Bias : Type := (⟨S128, .f32⟩ : BufTy).Contents (Elt Ideal)

/-- `(max (number of edges whose endpoint is the node) 1)^(-1/2)`, node by node: ones scatter-added into zeros at the endpoints,
    clamped below at one, inverse square root. -/
def invSqrtDeg (e : EdgeIx) : NodeVec :=
  Host.rsqrt (F := Ideal) (maximumf (F := Ideal)
    (Host.scatterAdd (F := Ideal) scatter_S100000_S1600000x1_S1600000_n_0_0_1
      (broadcastInDim S100000 ![] bcast_S_S100000 (constant (F := Ideal) S_ .f32 0x00000000#32))
      (broadcastInDim S1600000x1 ![0] bcast_S1600000_S1600000x1_0 e)
      (broadcastInDim S1600000 ![] bcast_S_S1600000 (constant (F := Ideal) S_ .f32 0x3F800000#32)))
    (broadcastInDim S100000 ![] bcast_S_S100000 (constant (F := Ideal) S_ .f32 0x3F800000#32)))

/-- Rows scaled by `inv`, then times the weight matrix: entry `(r, q)` is `Σ k, (h r k · inv r) · W k q`. -/
def proj (h : NodeMat) (inv : NodeVec) (W : Weight) : NodeMat :=
  fun i => ∑ k : Fin 128, (h (ix2 (i 0) k) * inv (ix1 (i 0))) * W (ix2 k (i 1))

/-- jnp's row indexing `x[src]` followed by `segment_sum(·, dst)`: a negative source index is wrapped by the number of nodes, rows are
    gathered by source, and scatter-added into zeros by destination. -/
def agg (x : NodeMat) (src dst : EdgeIx) : NodeMat :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (Host.gather gather_S100000x128_S1600000x1_S1600000x128_1_0_n_n_0_1_1128 x
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

/-- Rows scaled by `inv`, plus the bias row, clamped below at zero: entry `(r, q)` is `max (a r q · inv r + b q) 0`. -/
def act (a : NodeMat) (inv : NodeVec) (b : Bias) : NodeMat :=
  fun i => max (a i * inv (ix1 (i 0)) + b (ix1 (i 1))) (Ideal.ofBits .f32 0x00000000#32)

/-- One graph-convolution layer. -/
def layer (h : NodeMat) (W : Weight) (b : Bias) (src dst : EdgeIx) : NodeMat :=
  act (agg (proj h (invSqrtDeg src) W) src dst) (invSqrtDeg dst) b

/-- The whole result: the features and the three layers' outputs side by side. -/
def out (feat : NodeMat) (W0 : Weight) (b0 : Bias) (W1 : Weight) (b1 : Bias) (W2 : Weight) (b2 : Bias) (src dst : EdgeIx) :
    (⟨S100000x512, .f32⟩ : BufTy).Contents (Elt Ideal) :=
  let h1 := layer feat W0 b0 src dst
  let h2 := layer h1 W1 b1 src dst
  let h3 := layer h2 W2 b2 src dst
  concatenate S100000x512 1 [⟨S100000x128, feat⟩, ⟨S100000x128, h1⟩, ⟨S100000x128, h2⟩, ⟨S100000x128, h3⟩]
    concatenates_S100000x128_S100000x128_S100000x128_S100000x128_S100000x512_d1

end Cert.Spec

end
-- ==== Proof.LibKeepdims.lean ====
/-
  Layout and contraction operations of a row-wise kernel body, read at an index written by coordinates, at the
  ideal values. A sum kept as a column (`keepdims`) goes through two layout steps the coordinate forms below read:
  a vector `[a]` recast as a column `[a, 1]`, and a column `[a, 1]` broadcast along the rows of `[a, b]`.
  With them: a lane sum of a matrix read at a row as the sum over that row, and a matrix product into a zero
  accumulator read at `(r, n)` as the sum over the contracted coordinate of row `r` times column `n`.
-/
import Idealize.ShloMosaic.Lib.ValueLayout
import Idealize.ShloMosaic.Lib.ValueIdx
import Idealize.ShloMosaic.PureOps.Ideal.Laws

noncomputable section

namespace Cert.LibKeepdims

open Idealize.ShloMosaic Idealize.ShloMosaic.ValueIdx

variable {α : Type}

/-- A vector `[a]` recast as the column `[a, 1]` reads, at `(i, u)`, the vector at `i`: the row-major position of
    `(i, u)` in `[a, 1]` is `i · 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The exponential of a vector, read at an index, is the exponential of the entry. -/
theorem exp_apply {s : Shape} {φ : FTy} (v : FVec Ideal s φ) (i : s.Idx) : exp v i = Ideal.exp (v i) := rfl

/-- The host's exponential of an array likewise. -/
theorem hostExp_apply {s : Shape} {φ : FTy} (v : FVec Ideal s φ) (i : s.Idx) : Host.exp v i = Ideal.exp (v i) := rfl

/-- A float scalar constant at the ideal values is the extended real its pattern denotes. -/
theorem scalar_ofBits (φ : FTy) (b : BitVec φ.bits) : Scalar.ofBits (F := Ideal) φ b = Ideal.ofBits φ b := rfl

end Cert.LibKeepdims

end
-- ==== Proof.KI.HostOps.lean ====
import proofs.«106910_j66125316489905_1_alg».proof.Proof.KI.Keep
import proofs.«106910_j66125316489905_1_alg».proof.Proof.Spec
import proofs.«106910_j66125316489905_1_alg».proof.Proof.LibKeepdims
import Idealize.ShloMosaic.Lib.StableHlo.Run
import Idealize.ShloMosaic.Lib.Pipeline.Value
import Idealize.ShloMosaic.Lib.ValueIdx

/-!
# The idealized kernel's host stretches, read as values

Between the kernel regions the program runs plain host operations: first the two inverse-square-root degree columns (as [100000, 1]
arrays), then per layer the row gather by source and the scatter-add by destination, and at the end the four blocks side by side. Each is
the same operation the specification is written with, applied to what the preceding segment left.
-/

noncomputable section

namespace Cert.KernelIdeal.HostValue

open Idealize.ShloMosaic Idealize.ShloMosaic.TcCoe Idealize.ShloMosaic.ValueIdx Idealize.SL.Sem Idealize.ShloMosaic.StableHlo
open Cert.KernelIdeal Cert.KernelIdeal.Facts₀ Cert.KernelIdeal.Facts Cert.KernelIdeal.Gen Cert.KernelIdeal.Fr

variable (m : (ℓ : Loc nD τ sig) → Buf (Elt Ideal) ℓ) (ρ : Dev nD → PrngReg) (c : Dev nD)

/-- The source column of the edge list, as launched. -/
abbrev srcIx : Cert.Spec.EdgeIx := m ((c.tc : Thread nD τ).loc main_arg7)
/-- The destination column of the edge list, as launched. -/
abbrev dstIx : Cert.Spec.EdgeIx := m ((c.tc : Thread nD τ).loc main_arg8)

/-- The first stretch leaves in `main_v13` the out-degree column: the specification's vector recast as a [100000, 1] array. -/
theorem v13_W1 : (W1 m ρ c (Proc.devRef .tc main_v13) : S100000x1.Idx → EReal)
    = fun i => shapeCast S100000x1 (Cert.Spec.invSqrtDeg (srcIx m c)) Facts₀.shapeCasts_S100000_S100000x1 i := by
  show StableHlo.after hostOps0 (W0 m ρ c) (Proc.devRef .tc main_v13) = _
  after_results
  rfl

/-- and in `main_v14` the in-degree column. -/
theorem v14_W1 : (W1 m ρ c (Proc.devRef .tc main_v14) : S100000x1.Idx → EReal)
    = fun i => shapeCast S100000x1 (Cert.Spec.invSqrtDeg (dstIx m c)) Facts₀.shapeCasts_S100000_S100000x1 i := by
  show StableHlo.after hostOps0 (W0 m ρ c) (Proc.devRef .tc main_v14) = _
  after_results
  rfl

/-- Row `r` of the out-degree column is entry `r` of the vector. -/
theorem v13_at (r : Fin 100000) :
    (W1 m ρ c (Proc.devRef .tc main_v13) : S100000x1.Idx → EReal) (ix2 r (0 : Fin 1)) = Cert.Spec.invSqrtDeg (srcIx m c) (ix1 r) := by
  rw [v13_W1]; exact Cert.LibKeepdims.shapeCast_a_a1_apply _ _ r 0

theorem v14_at (r : Fin 100000) :
    (W1 m ρ c (Proc.devRef .tc main_v14) : S100000x1.Idx → EReal) (ix2 r (0 : Fin 1)) = Cert.Spec.invSqrtDeg (dstIx m c) (ix1 r) := by
  rw [v14_W1]; exact Cert.LibKeepdims.shapeCast_a_a1_apply _ _ r 0

/-- The edge columns are arguments: the boundaries before the three gather/scatter stretches still have them as launched. -/
theorem src_W2 : W2 m ρ c (Proc.devRef .tc main_arg7) = srcIx m c := (W_const m ρ main_arg7 (by decide) (by decide) (by decide) (by decide) (by decide) (by decide) c).2.1
theorem dst_W2 : W2 m ρ c (Proc.devRef .tc main_arg8) = dstIx m c := (W_const m ρ main_arg8 (by decide) (by decide) (by decide) (by decide) (by decide) (by decide) c).2.1
theorem src_W5 : W5 m ρ c (Proc.devRef .tc main_arg7) = srcIx m c := (W_const m ρ main_arg7 (by decide) (by decide) (by decide) (by decide) (by decide) (by decide) c).2.2.2.2.1
theorem dst_W5 : W5 m ρ c (Proc.devRef .tc main_arg8) = dstIx m c := (W_const m ρ main_arg8 (by decide) (by decide) (by decide) (by decide) (by decide) (by decide) c).2.2.2.2.1
theorem src_W8 : W8 m ρ c (Proc.devRef .tc main_arg7) = srcIx m c := (W_const m ρ main_arg7 (by decide) (by decide) (by decide) (by decide) (by decide) (by decide) c).2.2.2.2.2.2.2.1
theorem dst_W8 : W8 m ρ c (Proc.devRef .tc main_arg8) = dstIx m c := (W_const m ρ main_arg8 (by decide) (by decide) (by decide) (by decide) (by decide) (by decide) c).2.2.2.2.2.2.2.1

/-- The stretch after region 0: gather the projected rows by source, scatter-add them by destination. -/
theorem v25_W3 : (W3 m ρ c (Proc.devRef .tc main_v25) : Cert.Spec.NodeMat)
    = Cert.Spec.agg (W2 m ρ c (Proc.devRef .tc main_v15)) (srcIx m c) (dstIx m c) := by
  show StableHlo.after hostOps1 (W2 m ρ c) (Proc.devRef .tc main_v25) = _
  after_results
  rw [src_W2, dst_W2]
  rfl

/-- The stretch after region 2, the same operations on the second layer's projected rows. -/
theorem v37_W6 : (W6 m ρ c (Proc.devRef .tc main_v37) : Cert.Spec.NodeMat)
    = Cert.Spec.agg (W5 m ρ c (Proc.devRef .tc main_v27)) (srcIx m c) (dstIx m c) := by
  show StableHlo.after hostOps3 (W5 m ρ c) (Proc.devRef .tc main_v37) = _
  after_results
  rw [src_W5, dst_W5]
  rfl

/-- The stretch after region 4, on the third layer's. -/
theorem v49_W9 : (W9 m ρ c (Proc.devRef .tc main_v49) : Cert.Spec.NodeMat)
    = Cert.Spec.agg (W8 m ρ c (Proc.devRef .tc main_v39)) (srcIx m c) (dstIx m c) := by
  show StableHlo.after hostOps5 (W8 m ρ c) (Proc.devRef .tc main_v49) = _
  after_results
  rw [src_W8, dst_W8]
  rfl

/-- The last stretch: the features and the three layers' outputs side by side. -/
theorem v51_W11 : (W11 m ρ c (Proc.devRef .tc main_v51) : (⟨S100000x512, .f32⟩ : BufTy).Contents (Elt Ideal))
    = concatenate S100000x512 1 [⟨S100000x128, W10 m ρ c (Proc.devRef .tc main_arg0)⟩, ⟨S100000x128, W10 m ρ c (Proc.devRef .tc main_v26)⟩,
        ⟨S100000x128, W10 m ρ c (Proc.devRef .tc main_v38)⟩, ⟨S100000x128, W10 m ρ c (Proc.devRef .tc main_v50)⟩]
        Facts₀.concatenates_S100000x128_S100000x128_S100000x128_S100000x128_S100000x512_d1 := by
  show StableHlo.after hostOps6 (W10 m ρ c) (Proc.devRef .tc main_v51) = _
  after_results
  rfl

end Cert.KernelIdeal.HostValue

end
-- ==== Proof.LibMatProduct.lean ====
/-
  A matrix product into a zero accumulator, read at an entry.

  For operands `[m, k]` and `[k, n]` contracted over the left operand's columns and the right operand's rows, entry
  `(r, c)` of the product is the sum over the contracted coordinate `h` of `lhs (r, h) · rhs (h, c)`: the contraction's
  one-axis index set is re-indexed by its coordinate.
-/
import Idealize.ShloMosaic.Lib.ValueIdx
import Idealize.ShloMosaic.PureOps.Ideal.Laws

noncomputable section

namespace Cert.LibMatProduct

open Idealize.ShloMosaic Idealize.ShloMosaic.ValueIdx

/-- The float words of `1`, `510` at the ideal values. -/
theorem one_word : Ideal.ofBits .f32 0x3F800000#32 = (1 : EReal) := by
  simp [Ideal.ofBits, Ideal.ieee, -EReal.coe_mul]; norm_num

theorem w510 : Ideal.ofBits .f32 0x43FF0000#32 = ((510 : ℝ) : EReal) := by
  simp [Ideal.ofBits, Ideal.ieee, -EReal.coe_mul]; norm_num

/-- Entry `(r, c)` of `lhs · rhs` into a zero accumulator is `∑ h, lhs (r, h) · rhs (h, c)`. -/
theorem matmul_zero_apply {m k n : ℕ} {φ₁ φ₂ : FTy}
    (d : DotDims ⟨2, ![m, k]⟩ ⟨2, ![k, n]⟩ ⟨2, ![m, n]⟩) (prec : Option ContractPrecision)
    (hlc : d.lhsContracting = [1]) (hrc : d.rhsContracting = [0])
    (hln : d.lhsNonContracting = [0]) (hrn : d.rhsNonContracting = [1])
    (hlb : d.lhsBatch = []) (hrb : d.rhsBatch = [])
    (lhs : FVec Ideal ⟨2, ![m, k]⟩ φ₁) (rhs : FVec Ideal ⟨2, ![k, n]⟩ φ₂) (r : Fin m) (c : Fin n) :
    FloatOps.matmul d prec lhs rhs (constant ⟨2, ![m, n]⟩ .f32 0x00000000#32) (ix2 r c)
      = ∑ h : Fin k, lhs (ix2 r h) * rhs (ix2 h c) := by
  rw [Ideal.matmul_constant_zero_apply]
  have hrk : d.contr.rank = 1 := by rw [d.rank_contr, hlc]; rfl
  have hs : d.contr.size ⟨0, by omega⟩ = k := by
    rw [d.size_contr 0 (by rw [hlc]; exact Nat.one_pos)]
    simp [hlc]
  rw [← Equiv.sum_comp (contrEquiv1 d k hrk hs).symm]
  refine Finset.sum_congr rfl fun h _ => ?_
  have hval : (((contrEquiv1 d k hrk hs).symm h) ⟨0, by omega⟩ : ℕ) = h.val := contrEquiv1_symm_val d k hrk hs h
  congr 1
  · refine congrArg lhs (funext fun a => Fin.ext ?_)
    match a with
    | ⟨0, _⟩ =>
      show (d.lhsIdx (ix2 r c) _ 0).val = r.val
      unfold DotDims.lhsIdx
      rw [dif_neg (by rw [hlb]; exact List.not_mem_nil), dif_pos (by rw [hln]; exact List.mem_singleton.mpr rfl)]
      simp only [Fin.val_cast]
      have key : ∀ (p : Nat) (hp : p < (⟨2, ![m, n]⟩ : Shape).rank), p = 0 → ((ix2 r c : (⟨2, ![m, n]⟩ : Shape).Idx) ⟨p, hp⟩).val = r.val :=
        fun p hp e => by subst e; rfl
      exact key _ _ (by simp [hlb, hln])
    | ⟨1, _⟩ =>
      show (d.lhsIdx (ix2 r c) _ 1).val = h.val
      rw [d.lhsIdx_val_of_single hlc]
      exact hval
  · refine congrArg rhs (funext fun a => Fin.ext ?_)
    match a with
    | ⟨0, _⟩ =>
      show (d.rhsIdx (ix2 r c) _ 0).val = h.val
      rw [d.rhsIdx_val_of_single hrc]
      exact hval
    | ⟨1, _⟩ =>
      show (d.rhsIdx (ix2 r c) _ 1).val = c.val
      unfold DotDims.rhsIdx
      rw [dif_neg (by rw [hrb]; exact List.not_mem_nil), dif_pos (by rw [hrn]; exact List.mem_singleton.mpr rfl)]
      simp only [Fin.val_cast]
      have key : ∀ (p : Nat) (hp : p < (⟨2, ![m, n]⟩ : Shape).rank), p = 1 → ((ix2 r c : (⟨2, ![m, n]⟩ : Shape).Idx) ⟨p, hp⟩).val = c.val :=
        fun p hp e => by subst e; rfl
      exact key _ _ (by simp [hlb, hln, hrn])

end Cert.LibMatProduct

end
-- ==== Proof.KI.TileValue.lean ====
import proofs.«106910_j66125316489905_1_alg».proof.Proof.KI.Region0
import proofs.«106910_j66125316489905_1_alg».proof.Proof.KI.Region1
import proofs.«106910_j66125316489905_1_alg».proof.Proof.KI.Region2
import proofs.«106910_j66125316489905_1_alg».proof.Proof.KI.Region3
import proofs.«106910_j66125316489905_1_alg».proof.Proof.KI.Region4
import proofs.«106910_j66125316489905_1_alg».proof.Proof.KI.Region5
import proofs.«106910_j66125316489905_1_alg».proof.Proof.LibMatProduct
import Idealize.ShloMosaic.Lib.Pipeline.Value
import Idealize.ShloMosaic.Lib.ValueIdx
import Idealize.ShloMosaic.Lib.ValueLayout
import Idealize.ShloMosaic.PureOps.Ideal.Laws

/-!
# What each kernel region leaves in its output array

Each of the six regions runs over 25 row tiles of 4000 rows. A projection region scales each row of its tile by the row's
entry of a column and multiplies by the whole 128×128 weight matrix; an activation region scales each row, adds the bias row and
clamps below at zero. Tile `t` covers rows `4000 t … 4000 t + 3999`, so the 25 tiles cover all 100000 rows and the output
array ends holding one function of the arrays the region found, entry by entry.
-/

set_option maxRecDepth 16384

noncomputable section

namespace Cert.KernelIdeal.TileValue

open Idealize.ShloMosaic Idealize.ShloMosaic.TcCoe Idealize.ShloMosaic.ValueIdx Idealize.SL.Sem
open Idealize.ShloMosaic.Pipeline (Dat)
open Cert.KernelIdeal Cert.KernelIdeal.Gen

/-- Rows of `h` scaled by the column `inv2`, times `W`: entry `(r, q)` is `Σ k, (h r k · inv2 r) · W k q`. -/
def tileProj (h : S100000x128.Idx → EReal) (inv2 : S100000x1.Idx → EReal) (W : S128x128.Idx → EReal) : S100000x128.Idx → EReal :=
  fun i => ∑ k : Fin 128, (h (ix2 (i 0) k) * inv2 (ix2 (i 0) 0)) * W (ix2 k (i 1))

/-- Rows of `a` scaled by the column `inv2`, plus the bias row `b`, clamped below at zero. -/
def tileAct (a : S100000x128.Idx → EReal) (inv2 : S100000x1.Idx → EReal) (b : S128.Idx → EReal) : S100000x128.Idx → EReal :=
  fun i => max (a i * inv2 (ix2 (i 0) 0) + b (ix1 (i 1))) (Ideal.ofBits .f32 0x00000000#32)

/-! ## The two bodies' arithmetic at an entry of the tile -/

/-- The 4000×1 column spread along the 128 lanes reads, at `(p, q)`, the column's entry `p`. -/
theorem spreadCol_apply (x1 : Vec Ideal S4000x1 .f32) (p : Fin 4000) (q : Fin 128) :
    broadcastTo S4000x128 (shapeCast S4000x1 x1 shapeCasts_S4000x1_S4000x1) broadcasts_S4000x1_S4000x128 (ix2 p q) = x1 (ix2 p 0) := by
  rw [shapeCast_self]
  refine broadcastTo_apply x1 broadcasts_S4000x1_S4000x128 (ix2 p q) (ix2 p 0) fun a => ?_
  match a with
  | ⟨0, _⟩ => rfl
  | ⟨1, _⟩ => rfl

/-- The 128-vector as a 1×128 row spread down the 4000 rows reads, at `(p, q)`, the vector's entry `q`. -/
theorem spreadRow_apply (x2 : Vec Ideal S128 .f32) (p : Fin 4000) (q : Fin 128) :
    broadcastTo S4000x128 (shapeCast S1x128 x2 shapeCasts_S128_S1x128) broadcasts_S1x128_S4000x128 (ix2 p q) = x2 (ix1 q) := by
  refine (broadcastTo_apply _ broadcasts_S1x128_S4000x128 (ix2 p q) (ix2 0 q) fun a => ?_).trans ?_
  · match a with
    | ⟨0, _⟩ => rfl
    | ⟨1, _⟩ => rfl
  · refine shapeCast_apply x2 shapeCasts_S128_S1x128 (ix2 0 q) (ix1 q) ?_
    rw [Shape.rowMajor_val_one, Shape.rowMajor_val_two]
    show q.val = 0 * 128 + q.val
    omega

/-- The projection body at entry `(p, q)`: `Σ k, (x0 p k · x1 p) · x2 k q`. -/
theorem proj_entry (x0 : Vec Ideal S4000x128 .f32) (x1 : Vec Ideal S4000x1 .f32) (x2 : Vec Ideal S128x128 .f32) (p : Fin 4000) (q : Fin 128) :
    k0_pay1 x0 x1 x2 (ix2 p q) = ∑ k : Fin 128, (x0 (ix2 p k) * x1 (ix2 p 0)) * x2 (ix2 k q) := by
  unfold k0_pay1
  refine (Cert.LibMatProduct.matmul_zero_apply dot_S4000x128_S128x128_S4000x128_1_0_0_1_n_n none rfl rfl rfl rfl rfl rfl _ _ p q).trans ?_
  refine Finset.sum_congr rfl fun k _ => ?_
  rw [truncf_apply, truncf_apply, mulf_apply, spreadCol_apply]

/-- The activation body at entry `(p, q)`: `max (x0 p q · x1 p + x2 q) 0`. -/
theorem act_entry (x0 : Vec Ideal S4000x128 .f32) (x1 : Vec Ideal S4000x1 .f32) (x2 : Vec Ideal S128 .f32) (p : Fin 4000) (q : Fin 128) :
    k1_pay1 x0 x1 x2 (ix2 p q) = max (x0 (ix2 p q) * x1 (ix2 p 0) + x2 (ix1 q)) (Ideal.ofBits .f32 0x00000000#32) := by
  unfold k1_pay1
  rw [maximumf_apply, addf_apply, mulf_apply, shapeCast_self, spreadCol_apply, spreadRow_apply, broadcast_apply]
  rfl

/-! ## Blocks of the arrays, entry by entry -/

theorem hz : (![0, 0] : Fin 2 → Nat) = fun _ => 0 := funext fun a => by fin_cases a <;> rfl
theorem hz1 : (![0] : Fin 1 → Nat) = fun _ => 0 := funext fun a => by fin_cases a; rfl

/-- The projection body at any entry of the tile. -/
theorem proj_entry0' (x0 : Vec Ideal S4000x128 .f32) (x1 : Vec Ideal S4000x1 .f32) (x2 : Vec Ideal S128x128 .f32) (j : S4000x128.Idx) :
    k0_pay1 x0 x1 x2 j = ∑ k : Fin 128, (x0 (ix2 (j 0) k) * x1 (ix2 (j 0) 0)) * x2 (ix2 k (j 1)) := by
  obtain ⟨p, q, rfl⟩ : ∃ (p : Fin 4000) (q : Fin 128), j = ix2 p q := ⟨j 0, j 1, eq_ix2 j⟩
  exact proj_entry x0 x1 x2 p q

/-- Regions 2 and 4 run the same projection body (their tile first cast to its own shape). -/
theorem pay2_eq (x0 : Vec Ideal S4000x128 .f32) (x1 : Vec Ideal S4000x1 .f32) (x2 : Vec Ideal S128x128 .f32) :
    k2_pay1 x0 x1 x2 = k0_pay1 x0 x1 x2 := by
  unfold k2_pay1 k0_pay1
  rw [shapeCast_self x0]

theorem pay4_eq (x0 : Vec Ideal S4000x128 .f32) (x1 : Vec Ideal S4000x1 .f32) (x2 : Vec Ideal S128x128 .f32) :
    k4_pay1 x0 x1 x2 = k0_pay1 x0 x1 x2 := by
  unfold k4_pay1 k0_pay1
  rw [shapeCast_self x0]

theorem proj_entry2' (x0 : Vec Ideal S4000x128 .f32) (x1 : Vec Ideal S4000x1 .f32) (x2 : Vec Ideal S128x128 .f32) (j : S4000x128.Idx) :
    k2_pay1 x0 x1 x2 j = ∑ k : Fin 128, (x0 (ix2 (j 0) k) * x1 (ix2 (j 0) 0)) * x2 (ix2 k (j 1)) :=
  (congrFun (pay2_eq x0 x1 x2) j).trans (proj_entry0' x0 x1 x2 j)

theorem proj_entry4' (x0 : Vec Ideal S4000x128 .f32) (x1 : Vec Ideal S4000x1 .f32) (x2 : Vec Ideal S128x128 .f32) (j : S4000x128.Idx) :
    k4_pay1 x0 x1 x2 j = ∑ k : Fin 128, (x0 (ix2 (j 0) k) * x1 (ix2 (j 0) 0)) * x2 (ix2 k (j 1)) :=
  (congrFun (pay4_eq x0 x1 x2) j).trans (proj_entry0' x0 x1 x2 j)

/-- The activation body at any entry of the tile. -/
theorem act_entry1' (x0 : Vec Ideal S4000x128 .f32) (x1 : Vec Ideal S4000x1 .f32) (x2 : Vec Ideal S128 .f32) (j : S4000x128.Idx) :
    k1_pay1 x0 x1 x2 j = max (x0 j * x1 (ix2 (j 0) 0) + x2 (ix1 (j 1))) (Ideal.ofBits .f32 0x00000000#32) := by
  obtain ⟨p, q, rfl⟩ : ∃ (p : Fin 4000) (q : Fin 128), j = ix2 p q := ⟨j 0, j 1, eq_ix2 j⟩
  exact act_entry x0 x1 x2 p q

/-- Regions 3 and 5 run the same activation body. -/
theorem act_entry3' (x0 : Vec Ideal S4000x128 .f32) (x1 : Vec Ideal S4000x1 .f32) (x2 : Vec Ideal S128 .f32) (j : S4000x128.Idx) :
    k3_pay1 x0 x1 x2 j = max (x0 j * x1 (ix2 (j 0) 0) + x2 (ix1 (j 1))) (Ideal.ofBits .f32 0x00000000#32) :=
  act_entry1' x0 x1 x2 j

theorem act_entry5' (x0 : Vec Ideal S4000x128 .f32) (x1 : Vec Ideal S4000x1 .f32) (x2 : Vec Ideal S128 .f32) (j : S4000x128.Idx) :
    k5_pay1 x0 x1 x2 j = max (x0 j * x1 (ix2 (j 0) 0) + x2 (ix1 (j 1))) (Ideal.ofBits .f32 0x00000000#32) :=
  act_entry1' x0 x1 x2 j

/-! ## Region 0 -/

section Region0

variable (V : (c : Dev nD) → (b : Ref sig .tc) → Buf (Elt Ideal) ((c : Thread nD τ).loc b))

/-- The block index maps over the 25 grid points: the row tiles move with the point, the weight stays. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The node tile at point `t` is rows `4000 t …` of the node array. -/
theorem blk0_0_apply (c : Dev nD) (t : Fin cfg0.N) (y : S4000x128.Idx) (i : S100000x128.Idx)
    (h0 : (i 0).val = t.val * 4000 + (y 0).val) (h1 : (i 1).val = (y 1).val) :
    (Fr.iblk0 (F := Ideal) V c 0 t : Vec Ideal S4000x128 .f32) y = (V c main_arg0 : S100000x128.Idx → EReal) i := by
  obtain ⟨e0, e1, -⟩ := idx_facts0 t
  unfold Fr.iblk0
  rw [View.read_apply]
  show (V c main_arg0 : S100000x128.Idx → EReal) _ = _
  congr 1
  funext a
  apply Fin.ext
  match a with
  | ⟨0, _⟩ => show win0_0.index t 0 * 4000 + 1 * (y 0).val = (i 0).val; rw [e0, h0]; omega
  | ⟨1, _⟩ => show win0_0.index t 1 * 128 + 1 * (y 1).val = (i 1).val; rw [e1, h1]; omega

/-- The column tile at point `t` is rows `4000 t …` of the scaling column. -/
theorem blk0_1_apply (c : Dev nD) (t : Fin cfg0.N) (y : S4000x1.Idx) (i : S100000x1.Idx)
    (h0 : (i 0).val = t.val * 4000 + (y 0).val) (h1 : (i 1).val = (y 1).val) :
    (Fr.iblk0 (F := Ideal) V c 1 t : Vec Ideal S4000x1 .f32) y = (V c main_v13 : S100000x1.Idx → EReal) i := by
  obtain ⟨-, -, e0, e1, -⟩ := idx_facts0 t
  unfold Fr.iblk0
  rw [View.read_apply]
  show (V c main_v13 : S100000x1.Idx → EReal) _ = _
  congr 1
  funext a
  apply Fin.ext
  match a with
  | ⟨0, _⟩ => show win0_1.index t 0 * 4000 + 1 * (y 0).val = (i 0).val; rw [e0, h0]; omega
  | ⟨1, _⟩ => show win0_1.index t 1 * 1 + 1 * (y 1).val = (i 1).val; rw [e1, h1]; omega

/-- The weight block at every point is the whole weight matrix. -/
theorem blk0_2_apply (c : Dev nD) (t : Fin cfg0.N) (y : S128x128.Idx) :
    (Fr.iblk0 (F := Ideal) V c 2 t : Vec Ideal S128x128 .f32) y = (V c main_arg1 : S128x128.Idx → EReal) y := by
  obtain ⟨-, -, -, -, e0, e1, -⟩ := idx_facts0 t
  unfold Fr.iblk0
  rw [View.read_apply]
  show (V c main_arg1 : S128x128.Idx → EReal) _ = _
  congr 1
  funext a
  apply Fin.ext
  match a with
  | ⟨0, _⟩ => show win0_2.index t 0 * 128 + 1 * (y 0).val = (y 0).val; rw [e0]; omega
  | ⟨1, _⟩ => show win0_2.index t 1 * 128 + 1 * (y 1).val = (y 1).val; rw [e1]; omega

/-- Point `t` writes back block `t` of the projection of the arrays the region found. -/
theorem flushed0_eq (c : Dev nD) (t : Fin cfg0.N) :
    (Fr.dat0 (F := Ideal) V c).flushed 3 t
      = ((cfg0.win 3).blk t).view.read (Elt Ideal) (tileProj (V c main_arg0) (V c main_v13) (V c main_arg1)) := by
  show (cfg0.win 3).cut (grid0.coords t) ((Fr.dat0 (F := Ideal) V c).after 3 t) = _
  rw [Fr.after0_3]
  unfold Fr.out0_3
  rw [View.canon_unit_zero hz]
  simp only [View.ld_unit_zero (S := S4000x128) hz, View.ld_unit_zero (S := S4000x1) hz, View.ld_unit_zero (S := S128x128) hz]
  obtain ⟨-, -, -, -, -, -, e0, e1⟩ := idx_facts0 t
  funext j
  rw [View.read_apply]
  refine (proj_entry0' _ _ _ _).trans ?_
  have r0 : ((((cfg0.win 3).blk t).view.emb j) 0).val = t.val * 4000 + (j 0).val := by
    show win0_3.index t 0 * 4000 + 1 * (j 0).val = _; rw [e0]; omega
  have r1 : ((((cfg0.win 3).blk t).view.emb j) 1).val = (j 1).val := by
    show win0_3.index t 1 * 128 + 1 * (j 1).val = _; rw [e1]; omega
  unfold tileProj
  refine Finset.sum_congr rfl fun k _ => ?_
  congr 1
  · congr 1
    · exact blk0_0_apply V c t _ _ r0 rfl
    · exact blk0_1_apply V c t _ _ r0 rfl
  · refine (blk0_2_apply V c t _).trans ?_
    refine congrArg (V c main_arg1 : S128x128.Idx → EReal) (funext fun a => Fin.ext ?_)
    match a with
    | ⟨0, _⟩ => rfl
    | ⟨1, _⟩ => exact r1.symm

/-- An index of the output array is in point `t`'s block iff each coordinate is in the block's range on its axis. -/
theorem mem_blk0 (t : Fin cfg0.N) (i : S100000x128.Idx) :
    i ∈ ((cfg0.win 3).blk t).view.set ↔ ∀ a : Fin 2, win0_3.index t a * S4000x128.size a ≤ (i a).val ∧ (i a).val < win0_3.index t a * S4000x128.size a + S4000x128.size a := by
  show i ∈ ((View.whole main_v15).slice (win0_3.rect t)).set ↔ _
  rw [View.set_slice_whole, Rect.mem_set_unit]
  exact Iff.rfl

/-- Every row is in the tile of the point `row / 4000`. -/
theorem cover0 (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 25 := N_0
  let t : Fin cfg0.N := ⟨(i 0).val / 4000, by rw [hN]; omega⟩
  obtain ⟨-, -, -, -, -, -, e0, e1⟩ := idx_facts0 t
  have ht : t.val = (i 0).val / 4000 := rfl
  refine ⟨t, flush0_3 t, ?_⟩
  rw [mem_blk0]
  intro a
  match a with
  | ⟨0, _⟩ => show win0_3.index t (0 : Fin 2) * 4000 ≤ (i 0).val ∧ (i 0).val < win0_3.index t (0 : Fin 2) * 4000 + 4000; rw [e0]; omega
  | ⟨1, _⟩ => show win0_3.index t (1 : Fin 2) * 128 ≤ (i 1).val ∧ (i 1).val < win0_3.index t (1 : Fin 2) * 128 + 128; rw [e1]; omega

/-- Region 0's output array ends holding the projection of the arrays the region found. -/
theorem final0 (c : Dev nD) :
    (Fr.dat0 (F := Ideal) V c).arrAt 3 cfg0.N = tileProj (V c main_arg0) (V c main_v13) (V c main_arg1) :=
  (Fr.dat0 (F := Ideal) V c).arrAt_eq_of_cover 3 _ (fun t _ => flushed0_eq V c t) cover0

end Region0

/-! ## Region 1 -/

section Region1

variable (V : (c : Dev nD) → (b : Ref sig .tc) → Buf (Elt Ideal) ((c : Thread nD τ).loc b))

/-- The block index maps over the 25 grid points: the row tiles move with the point, the bias stays. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

/-- The node tile at point `t` is rows `4000 t …` of the node array. -/
theorem blk1_0_apply (c : Dev nD) (t : Fin cfg1.N) (y : S4000x128.Idx) (i : S100000x128.Idx)
    (h0 : (i 0).val = t.val * 4000 + (y 0).val) (h1 : (i 1).val = (y 1).val) :
    (Fr.iblk1 (F := Ideal) V c 0 t : Vec Ideal S4000x128 .f32) y = (V c main_v25 : S100000x128.Idx → EReal) i := by
  obtain ⟨e0, e1, -⟩ := idx_facts1 t
  unfold Fr.iblk1
  rw [View.read_apply]
  show (V c main_v25 : S100000x128.Idx → EReal) _ = _
  congr 1
  funext a
  apply Fin.ext
  match a with
  | ⟨0, _⟩ => show win1_0.index t 0 * 4000 + 1 * (y 0).val = (i 0).val; rw [e0, h0]; omega
  | ⟨1, _⟩ => show win1_0.index t 1 * 128 + 1 * (y 1).val = (i 1).val; rw [e1, h1]; omega

/-- The column tile at point `t` is rows `4000 t …` of the scaling column. -/
theorem blk1_1_apply (c : Dev nD) (t : Fin cfg1.N) (y : S4000x1.Idx) (i : S100000x1.Idx)
    (h0 : (i 0).val = t.val * 4000 + (y 0).val) (h1 : (i 1).val = (y 1).val) :
    (Fr.iblk1 (F := Ideal) V c 1 t : Vec Ideal S4000x1 .f32) y = (V c main_v14 : S100000x1.Idx → EReal) i := by
  obtain ⟨-, -, e0, e1, -⟩ := idx_facts1 t
  unfold Fr.iblk1
  rw [View.read_apply]
  show (V c main_v14 : S100000x1.Idx → EReal) _ = _
  congr 1
  funext a
  apply Fin.ext
  match a with
  | ⟨0, _⟩ => show win1_1.index t 0 * 4000 + 1 * (y 0).val = (i 0).val; rw [e0, h0]; omega
  | ⟨1, _⟩ => show win1_1.index t 1 * 1 + 1 * (y 1).val = (i 1).val; rw [e1, h1]; omega

/-- The bias block at every point is the whole bias vector. -/
theorem blk1_2_apply (c : Dev nD) (t : Fin cfg1.N) (y : S128.Idx) :
    (Fr.iblk1 (F := Ideal) V c 2 t : Vec Ideal S128 .f32) y = (V c main_arg2 : S128.Idx → EReal) y := by
  obtain ⟨-, -, -, -, e0, -⟩ := idx_facts1 t
  unfold Fr.iblk1
  rw [View.read_apply]
  show (V c main_arg2 : S128.Idx → EReal) _ = _
  congr 1
  funext a
  apply Fin.ext
  match a with
  | ⟨0, _⟩ => show win1_2.index t 0 * 128 + 1 * (y 0).val = (y 0).val; rw [e0]; omega

/-- Point `t` writes back block `t` of the activation of the arrays the region found. -/
theorem flushed1_eq (c : Dev nD) (t : Fin cfg1.N) :
    (Fr.dat1 (F := Ideal) V c).flushed 3 t
      = ((cfg1.win 3).blk t).view.read (Elt Ideal) (tileAct (V c main_v25) (V c main_v14) (V c main_arg2)) := by
  show (cfg1.win 3).cut (grid1.coords t) ((Fr.dat1 (F := Ideal) V c).after 3 t) = _
  rw [Fr.after1_3]
  unfold Fr.out1_3
  rw [View.canon_unit_zero hz]
  simp only [View.ld_unit_zero (S := S4000x128) hz, View.ld_unit_zero (S := S4000x1) hz, View.ld_unit_zero (S := S128) hz1]
  obtain ⟨-, -, -, -, -, e0, e1⟩ := idx_facts1 t
  funext j
  rw [View.read_apply]
  refine (act_entry1' _ _ _ _).trans ?_
  have r0 : ((((cfg1.win 3).blk t).view.emb j) 0).val = t.val * 4000 + (j 0).val := by
    show win1_3.index t 0 * 4000 + 1 * (j 0).val = _; rw [e0]; omega
  have r1 : ((((cfg1.win 3).blk t).view.emb j) 1).val = (j 1).val := by
    show win1_3.index t 1 * 128 + 1 * (j 1).val = _; rw [e1]; omega
  unfold tileAct
  refine congrArg (fun z : EReal => max z (Ideal.ofBits .f32 0x00000000#32)) ?_
  refine congrArg₂ (fun y z : EReal => y + z) (congrArg₂ (fun y z : EReal => y * z) ?_ ?_) ?_
  · exact blk1_0_apply V c t _ _ r0 r1
  · exact blk1_1_apply V c t _ _ r0 rfl
  · refine (blk1_2_apply V c t _).trans ?_
    refine congrArg (V c main_arg2 : S128.Idx → EReal) (funext fun a => Fin.ext ?_)
    match a with
    | ⟨0, _⟩ => exact r1.symm

/-- An index of the output array is in point `t`'s block iff each coordinate is in the block's range on its axis. -/
theorem mem_blk1 (t : Fin cfg1.N) (i : S100000x128.Idx) :
    i ∈ ((cfg1.win 3).blk t).view.set ↔ ∀ a : Fin 2, win1_3.index t a * S4000x128.size a ≤ (i a).val ∧ (i a).val < win1_3.index t a * S4000x128.size a + S4000x128.size a := by
  show i ∈ ((View.whole main_v26).slice (win1_3.rect t)).set ↔ _
  rw [View.set_slice_whole, Rect.mem_set_unit]
  exact Iff.rfl

/-- Every row is in the tile of the point `row / 4000`. -/
theorem cover1 (i : S100000x128.Idx) : ∃ t : Fin cfg1.N, (cfg1.win 3).flush t = true ∧ i ∈ ((cfg1.win 3).blk t).view.set := by
  have hi0 : (i 0).val < 100000 := (i 0).isLt
  have hi1 : (i 1).val < 128 := (i 1).isLt
  have hN : cfg1.N = 25 := N_1
  let t : Fin cfg1.N := ⟨(i 0).val / 4000, by rw [hN]; omega⟩
  obtain ⟨-, -, -, -, -, e0, e1⟩ := idx_facts1 t
  have ht : t.val = (i 0).val / 4000 := rfl
  refine ⟨t, flush1_3 t, ?_⟩
  rw [mem_blk1]
  intro a
  match a with
  | ⟨0, _⟩ => show win1_3.index t (0 : Fin 2) * 4000 ≤ (i 0).val ∧ (i 0).val < win1_3.index t (0 : Fin 2) * 4000 + 4000; rw [e0]; omega
  | ⟨1, _⟩ => show win1_3.index t (1 : Fin 2) * 128 ≤ (i 1).val ∧ (i 1).val < win1_3.index t (1 : Fin 2) * 128 + 128; rw [e1]; omega

/-- Region 1's output array ends holding the activation of the arrays the region found. -/
theorem final1 (c : Dev nD) :
    (Fr.dat1 (F := Ideal) V c).arrAt 3 cfg1.N = tileAct (V c main_v25) (V c main_v14) (V c main_arg2) :=
  (Fr.dat1 (F := Ideal) V c).arrAt_eq_of_cover 3 _ (fun t _ => flushed1_eq V c t) cover1

end Region1

/-! ## Region 2 -/

section Region2

variable (V : (c : Dev nD) → (b : Ref sig .tc) → Buf (Elt Ideal) ((c : Thread nD τ).loc b))

/-- The block index maps over the 25 grid points: the row tiles move with the point, the weight stays. -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The node tile at point `t` is rows `4000 t …` of the node array. -/
theorem blk2_0_apply (c : Dev nD) (t : Fin cfg2.N) (y : S4000x128.Idx) (i : S100000x128.Idx)
    (h0 : (i 0).val = t.val * 4000 + (y 0).val) (h1 : (i 1).val = (y 1).val) :
    (Fr.iblk2 (F := Ideal) V c 0 t : Vec Ideal S4000x128 .f32) y = (V c main_v26 : S100000x128.Idx → EReal) i := by
  obtain ⟨e0, e1, -⟩ := idx_facts2 t
  unfold Fr.iblk2
  rw [View.read_apply]
  show (V c main_v26 : S100000x128.Idx → EReal) _ = _
  congr 1
  funext a
  apply Fin.ext
  match a with
  | ⟨0, _⟩ => show win2_0.index t 0 * 4000 + 1 * (y 0).val = (i 0).val; rw [e0, h0]; omega
  | ⟨1, _⟩ => show win2_0.index t 1 * 128 + 1 * (y 1).val = (i 1).val; rw [e1, h1]; omega

/-- The column tile at point `t` is rows `4000 t …` of the scaling column. -/
theorem blk2_1_apply (c : Dev nD) (t : Fin cfg2.N) (y : S4000x1.Idx) (i : S100000x1.Idx)
    (h0 : (i 0).val = t.val * 4000 + (y 0).val) (h1 : (i 1).val = (y 1).val) :
    (Fr.iblk2 (F := Ideal) V c 1 t : Vec Ideal S4000x1 .f32) y = (V c main_v13 : S100000x1.Idx → EReal) i := by
  obtain ⟨-, -, e0, e1, -⟩ := idx_facts2 t
  unfold Fr.iblk2
  rw [View.read_apply]
  show (V c main_v13 : S100000x1.Idx → EReal) _ = _
  congr 1
  funext a
  apply Fin.ext
  match a with
  | ⟨0, _⟩ => show win2_1.index t 0 * 4000 + 1 * (y 0).val = (i 0).val; rw [e0, h0]; omega
  | ⟨1, _⟩ => show win2_1.index t 1 * 1 + 1 * (y 1).val = (i 1).val; rw [e1, h1]; omega

/-- The weight block at every point is the whole weight matrix. -/
theorem blk2_2_apply (c : Dev nD) (t : Fin cfg2.N) (y : S128x128.Idx) :
    (Fr.iblk2 (F := Ideal) V c 2 t : Vec Ideal S128x128 .f32) y = (V c main_arg3 : S128x128.Idx → EReal) y := by
  obtain ⟨-, -, -, -, e0, e1, -⟩ := idx_facts2 t
  unfold Fr.iblk2
  rw [View.read_apply]
  show (V c main_arg3 : S128x128.Idx → EReal) _ = _
  congr 1
  funext a
  apply Fin.ext
  match a with
  | ⟨0, _⟩ => show win2_2.index t 0 * 128 + 1 * (y 0).val = (y 0).val; rw [e0]; omega
  | ⟨1, _⟩ => show win2_2.index t 1 * 128 + 1 * (y 1).val = (y 1).val; rw [e1]; omega

/-- Point `t` writes back block `t` of the projection of the arrays the region found. -/
theorem flushed2_eq (c : Dev nD) (t : Fin cfg2.N) :
    (Fr.dat2 (F := Ideal) V c).flushed 3 t
      = ((cfg2.win 3).blk t).view.read (Elt Ideal) (tileProj (V c main_v26) (V c main_v13) (V c main_arg3)) := by
  show (cfg2.win 3).cut (grid2.coords t) ((Fr.dat2 (F := Ideal) V c).after 3 t) = _
  rw [Fr.after2_3]
  unfold Fr.out2_3
  rw [View.canon_unit_zero hz]
  simp only [View.ld_unit_zero (S := S4000x128) hz, View.ld_unit_zero (S := S4000x1) hz, View.ld_unit_zero (S := S128x128) hz]
  obtain ⟨-, -, -, -, -, -, e0, e1⟩ := idx_facts2 t
  funext j
  rw [View.read_apply]
  refine (proj_entry2' _ _ _ _).trans ?_
  have r0 : ((((cfg2.win 3).blk t).view.emb j) 0).val = t.val * 4000 + (j 0).val := by
    show win2_3.index t 0 * 4000 + 1 * (j 0).val = _; rw [e0]; omega
  have r1 : ((((cfg2.win 3).blk t).view.emb j) 1).val = (j 1).val := by
    show win2_3.index t 1 * 128 + 1 * (j 1).val = _; rw [e1]; omega
  unfold tileProj
  refine Finset.sum_congr rfl fun k _ => ?_
  congr 1
  · congr 1
    · exact blk2_0_apply V c t _ _ r0 rfl
    · exact blk2_1_apply V c t _ _ r0 rfl
  · refine (blk2_2_apply V c t _).trans ?_
    refine congrArg (V c main_arg3 : S128x128.Idx → EReal) (funext fun a => Fin.ext ?_)
    match a with
    | ⟨0, _⟩ => rfl
    | ⟨1, _⟩ => exact r1.symm

/-- An index of the output array is in point `t`'s block iff each coordinate is in the block's range on its axis. -/
theorem mem_blk2 (t : Fin cfg2.N) (i : S100000x128.Idx) :
    i ∈ ((cfg2.win 3).blk t).view.set ↔ ∀ a : Fin 2, win2_3.index t a * S4000x128.size a ≤ (i a).val ∧ (i a).val < win2_3.index t a * S4000x128.size a + S4000x128.size a := by
  show i ∈ ((View.whole main_v27).slice (win2_3.rect t)).set ↔ _
  rw [View.set_slice_whole, Rect.mem_set_unit]
  exact Iff.rfl

/-- Every row is in the tile of the point `row / 4000`. -/
theorem cover2 (i : S100000x128.Idx) : ∃ t : Fin cfg2.N, (cfg2.win 3).flush t = true ∧ i ∈ ((cfg2.win 3).blk t).view.set := by
  have hi0 : (i 0).val < 100000 := (i 0).isLt
  have hi1 : (i 1).val < 128 := (i 1).isLt
  have hN : cfg2.N = 25 := N_2
  let t : Fin cfg2.N := ⟨(i 0).val / 4000, by rw [hN]; omega⟩
  obtain ⟨-, -, -, -, -, -, e0, e1⟩ := idx_facts2 t
  have ht : t.val = (i 0).val / 4000 := rfl
  refine ⟨t, flush2_3 t, ?_⟩
  rw [mem_blk2]
  intro a
  match a with
  | ⟨0, _⟩ => show win2_3.index t (0 : Fin 2) * 4000 ≤ (i 0).val ∧ (i 0).val < win2_3.index t (0 : Fin 2) * 4000 + 4000; rw [e0]; omega
  | ⟨1, _⟩ => show win2_3.index t (1 : Fin 2) * 128 ≤ (i 1).val ∧ (i 1).val < win2_3.index t (1 : Fin 2) * 128 + 128; rw [e1]; omega

/-- Region 2's output array ends holding the projection of the arrays the region found. -/
theorem final2 (c : Dev nD) :
    (Fr.dat2 (F := Ideal) V c).arrAt 3 cfg2.N = tileProj (V c main_v26) (V c main_v13) (V c main_arg3) :=
  (Fr.dat2 (F := Ideal) V c).arrAt_eq_of_cover 3 _ (fun t _ => flushed2_eq V c t) cover2

end Region2

/-! ## Region 3 -/

section Region3

variable (V : (c : Dev nD) → (b : Ref sig .tc) → Buf (Elt Ideal) ((c : Thread nD τ).loc b))

/-- The block index maps over the 25 grid points: the row tiles move with the point, the bias stays. -/
theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 1) = 0
    ∧ win3_3.index t (0 : Fin 2) = t.val ∧ win3_3.index t (1 : Fin 2) = 0 :=
  (by decide +kernel : ∀ t : Fin grid3.N, _)

/-- The node tile at point `t` is rows `4000 t …` of the node array. -/
theorem blk3_0_apply (c : Dev nD) (t : Fin cfg3.N) (y : S4000x128.Idx) (i : S100000x128.Idx)
    (h0 : (i 0).val = t.val * 4000 + (y 0).val) (h1 : (i 1).val = (y 1).val) :
    (Fr.iblk3 (F := Ideal) V c 0 t : Vec Ideal S4000x128 .f32) y = (V c main_v37 : S100000x128.Idx → EReal) i := by
  obtain ⟨e0, e1, -⟩ := idx_facts3 t
  unfold Fr.iblk3
  rw [View.read_apply]
  show (V c main_v37 : S100000x128.Idx → EReal) _ = _
  congr 1
  funext a
  apply Fin.ext
  match a with
  | ⟨0, _⟩ => show win3_0.index t 0 * 4000 + 1 * (y 0).val = (i 0).val; rw [e0, h0]; omega
  | ⟨1, _⟩ => show win3_0.index t 1 * 128 + 1 * (y 1).val = (i 1).val; rw [e1, h1]; omega

/-- The column tile at point `t` is rows `4000 t …` of the scaling column. -/
theorem blk3_1_apply (c : Dev nD) (t : Fin cfg3.N) (y : S4000x1.Idx) (i : S100000x1.Idx)
    (h0 : (i 0).val = t.val * 4000 + (y 0).val) (h1 : (i 1).val = (y 1).val) :
    (Fr.iblk3 (F := Ideal) V c 1 t : Vec Ideal S4000x1 .f32) y = (V c main_v14 : S100000x1.Idx → EReal) i := by
  obtain ⟨-, -, e0, e1, -⟩ := idx_facts3 t
  unfold Fr.iblk3
  rw [View.read_apply]
  show (V c main_v14 : S100000x1.Idx → EReal) _ = _
  congr 1
  funext a
  apply Fin.ext
  match a with
  | ⟨0, _⟩ => show win3_1.index t 0 * 4000 + 1 * (y 0).val = (i 0).val; rw [e0, h0]; omega
  | ⟨1, _⟩ => show win3_1.index t 1 * 1 + 1 * (y 1).val = (i 1).val; rw [e1, h1]; omega

/-- The bias block at every point is the whole bias vector. -/
theorem blk3_2_apply (c : Dev nD) (t : Fin cfg3.N) (y : S128.Idx) :
    (Fr.iblk3 (F := Ideal) V c 2 t : Vec Ideal S128 .f32) y = (V c main_arg4 : S128.Idx → EReal) y := by
  obtain ⟨-, -, -, -, e0, -⟩ := idx_facts3 t
  unfold Fr.iblk3
  rw [View.read_apply]
  show (V c main_arg4 : S128.Idx → EReal) _ = _
  congr 1
  funext a
  apply Fin.ext
  match a with
  | ⟨0, _⟩ => show win3_2.index t 0 * 128 + 1 * (y 0).val = (y 0).val; rw [e0]; omega

/-- Point `t` writes back block `t` of the activation of the arrays the region found. -/
theorem flushed3_eq (c : Dev nD) (t : Fin cfg3.N) :
    (Fr.dat3 (F := Ideal) V c).flushed 3 t
      = ((cfg3.win 3).blk t).view.read (Elt Ideal) (tileAct (V c main_v37) (V c main_v14) (V c main_arg4)) := by
  show (cfg3.win 3).cut (grid3.coords t) ((Fr.dat3 (F := Ideal) V c).after 3 t) = _
  rw [Fr.after3_3]
  unfold Fr.out3_3
  rw [View.canon_unit_zero hz]
  simp only [View.ld_unit_zero (S := S4000x128) hz, View.ld_unit_zero (S := S4000x1) hz, View.ld_unit_zero (S := S128) hz1]
  obtain ⟨-, -, -, -, -, e0, e1⟩ := idx_facts3 t
  funext j
  rw [View.read_apply]
  refine (act_entry3' _ _ _ _).trans ?_
  have r0 : ((((cfg3.win 3).blk t).view.emb j) 0).val = t.val * 4000 + (j 0).val := by
    show win3_3.index t 0 * 4000 + 1 * (j 0).val = _; rw [e0]; omega
  have r1 : ((((cfg3.win 3).blk t).view.emb j) 1).val = (j 1).val := by
    show win3_3.index t 1 * 128 + 1 * (j 1).val = _; rw [e1]; omega
  unfold tileAct
  refine congrArg (fun z : EReal => max z (Ideal.ofBits .f32 0x00000000#32)) ?_
  refine congrArg₂ (fun y z : EReal => y + z) (congrArg₂ (fun y z : EReal => y * z) ?_ ?_) ?_
  · exact blk3_0_apply V c t _ _ r0 r1
  · exact blk3_1_apply V c t _ _ r0 rfl
  · refine (blk3_2_apply V c t _).trans ?_
    refine congrArg (V c main_arg4 : S128.Idx → EReal) (funext fun a => Fin.ext ?_)
    match a with
    | ⟨0, _⟩ => exact r1.symm

/-- An index of the output array is in point `t`'s block iff each coordinate is in the block's range on its axis. -/
theorem mem_blk3 (t : Fin cfg3.N) (i : S100000x128.Idx) :
    i ∈ ((cfg3.win 3).blk t).view.set ↔ ∀ a : Fin 2, win3_3.index t a * S4000x128.size a ≤ (i a).val ∧ (i a).val < win3_3.index t a * S4000x128.size a + S4000x128.size a := by
  show i ∈ ((View.whole main_v38).slice (win3_3.rect t)).set ↔ _
  rw [View.set_slice_whole, Rect.mem_set_unit]
  exact Iff.rfl

/-- Every row is in the tile of the point `row / 4000`. -/
theorem cover3 (i : S100000x128.Idx) : ∃ t : Fin cfg3.N, (cfg3.win 3).flush t = true ∧ i ∈ ((cfg3.win 3).blk t).view.set := by
  have hi0 : (i 0).val < 100000 := (i 0).isLt
  have hi1 : (i 1).val < 128 := (i 1).isLt
  have hN : cfg3.N = 25 := N_3
  let t : Fin cfg3.N := ⟨(i 0).val / 4000, by rw [hN]; omega⟩
  obtain ⟨-, -, -, -, -, e0, e1⟩ := idx_facts3 t
  have ht : t.val = (i 0).val / 4000 := rfl
  refine ⟨t, flush3_3 t, ?_⟩
  rw [mem_blk3]
  intro a
  match a with
  | ⟨0, _⟩ => show win3_3.index t (0 : Fin 2) * 4000 ≤ (i 0).val ∧ (i 0).val < win3_3.index t (0 : Fin 2) * 4000 + 4000; rw [e0]; omega
  | ⟨1, _⟩ => show win3_3.index t (1 : Fin 2) * 128 ≤ (i 1).val ∧ (i 1).val < win3_3.index t (1 : Fin 2) * 128 + 128; rw [e1]; omega

/-- Region 3's output array ends holding the activation of the arrays the region found. -/
theorem final3 (c : Dev nD) :
    (Fr.dat3 (F := Ideal) V c).arrAt 3 cfg3.N = tileAct (V c main_v37) (V c main_v14) (V c main_arg4) :=
  (Fr.dat3 (F := Ideal) V c).arrAt_eq_of_cover 3 _ (fun t _ => flushed3_eq V c t) cover3

end Region3

/-! ## Region 4 -/

section Region4

variable (V : (c : Dev nD) → (b : Ref sig .tc) → Buf (Elt Ideal) ((c : Thread nD τ).loc b))

/-- The block index maps over the 25 grid points: the row tiles move with the point, the weight stays. -/
theorem idx_facts4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- The node tile at point `t` is rows `4000 t …` of the node array. -/
theorem blk4_0_apply (c : Dev nD) (t : Fin cfg4.N) (y : S4000x128.Idx) (i : S100000x128.Idx)
    (h0 : (i 0).val = t.val * 4000 + (y 0).val) (h1 : (i 1).val = (y 1).val) :
    (Fr.iblk4 (F := Ideal) V c 0 t : Vec Ideal S4000x128 .f32) y = (V c main_v38 : S100000x128.Idx → EReal) i := by
  obtain ⟨e0, e1, -⟩ := idx_facts4 t
  unfold Fr.iblk4
  rw [View.read_apply]
  show (V c main_v38 : S100000x128.Idx → EReal) _ = _
  congr 1
  funext a
  apply Fin.ext
  match a with
  | ⟨0, _⟩ => show win4_0.index t 0 * 4000 + 1 * (y 0).val = (i 0).val; rw [e0, h0]; omega
  | ⟨1, _⟩ => show win4_0.index t 1 * 128 + 1 * (y 1).val = (i 1).val; rw [e1, h1]; omega

/-- The column tile at point `t` is rows `4000 t …` of the scaling column. -/
theorem blk4_1_apply (c : Dev nD) (t : Fin cfg4.N) (y : S4000x1.Idx) (i : S100000x1.Idx)
    (h0 : (i 0).val = t.val * 4000 + (y 0).val) (h1 : (i 1).val = (y 1).val) :
    (Fr.iblk4 (F := Ideal) V c 1 t : Vec Ideal S4000x1 .f32) y = (V c main_v13 : S100000x1.Idx → EReal) i := by
  obtain ⟨-, -, e0, e1, -⟩ := idx_facts4 t
  unfold Fr.iblk4
  rw [View.read_apply]
  show (V c main_v13 : S100000x1.Idx → EReal) _ = _
  congr 1
  funext a
  apply Fin.ext
  match a with
  | ⟨0, _⟩ => show win4_1.index t 0 * 4000 + 1 * (y 0).val = (i 0).val; rw [e0, h0]; omega
  | ⟨1, _⟩ => show win4_1.index t 1 * 1 + 1 * (y 1).val = (i 1).val; rw [e1, h1]; omega

/-- The weight block at every point is the whole weight matrix. -/
theorem blk4_2_apply (c : Dev nD) (t : Fin cfg4.N) (y : S128x128.Idx) :
    (Fr.iblk4 (F := Ideal) V c 2 t : Vec Ideal S128x128 .f32) y = (V c main_arg5 : S128x128.Idx → EReal) y := by
  obtain ⟨-, -, -, -, e0, e1, -⟩ := idx_facts4 t
  unfold Fr.iblk4
  rw [View.read_apply]
  show (V c main_arg5 : S128x128.Idx → EReal) _ = _
  congr 1
  funext a
  apply Fin.ext
  match a with
  | ⟨0, _⟩ => show win4_2.index t 0 * 128 + 1 * (y 0).val = (y 0).val; rw [e0]; omega
  | ⟨1, _⟩ => show win4_2.index t 1 * 128 + 1 * (y 1).val = (y 1).val; rw [e1]; omega

/-- Point `t` writes back block `t` of the projection of the arrays the region found. -/
theorem flushed4_eq (c : Dev nD) (t : Fin cfg4.N) :
    (Fr.dat4 (F := Ideal) V c).flushed 3 t
      = ((cfg4.win 3).blk t).view.read (Elt Ideal) (tileProj (V c main_v38) (V c main_v13) (V c main_arg5)) := by
  show (cfg4.win 3).cut (grid4.coords t) ((Fr.dat4 (F := Ideal) V c).after 3 t) = _
  rw [Fr.after4_3]
  unfold Fr.out4_3
  rw [View.canon_unit_zero hz]
  simp only [View.ld_unit_zero (S := S4000x128) hz, View.ld_unit_zero (S := S4000x1) hz, View.ld_unit_zero (S := S128x128) hz]
  obtain ⟨-, -, -, -, -, -, e0, e1⟩ := idx_facts4 t
  funext j
  rw [View.read_apply]
  refine (proj_entry4' _ _ _ _).trans ?_
  have r0 : ((((cfg4.win 3).blk t).view.emb j) 0).val = t.val * 4000 + (j 0).val := by
    show win4_3.index t 0 * 4000 + 1 * (j 0).val = _; rw [e0]; omega
  have r1 : ((((cfg4.win 3).blk t).view.emb j) 1).val = (j 1).val := by
    show win4_3.index t 1 * 128 + 1 * (j 1).val = _; rw [e1]; omega
  unfold tileProj
  refine Finset.sum_congr rfl fun k _ => ?_
  congr 1
  · congr 1
    · exact blk4_0_apply V c t _ _ r0 rfl
    · exact blk4_1_apply V c t _ _ r0 rfl
  · refine (blk4_2_apply V c t _).trans ?_
    refine congrArg (V c main_arg5 : S128x128.Idx → EReal) (funext fun a => Fin.ext ?_)
    match a with
    | ⟨0, _⟩ => rfl
    | ⟨1, _⟩ => exact r1.symm

/-- An index of the output array is in point `t`'s block iff each coordinate is in the block's range on its axis. -/
theorem mem_blk4 (t : Fin cfg4.N) (i : S100000x128.Idx) :
    i ∈ ((cfg4.win 3).blk t).view.set ↔ ∀ a : Fin 2, win4_3.index t a * S4000x128.size a ≤ (i a).val ∧ (i a).val < win4_3.index t a * S4000x128.size a + S4000x128.size a := by
  show i ∈ ((View.whole main_v39).slice (win4_3.rect t)).set ↔ _
  rw [View.set_slice_whole, Rect.mem_set_unit]
  exact Iff.rfl

/-- Every row is in the tile of the point `row / 4000`. -/
theorem cover4 (i : S100000x128.Idx) : ∃ t : Fin cfg4.N, (cfg4.win 3).flush t = true ∧ i ∈ ((cfg4.win 3).blk t).view.set := by
  have hi0 : (i 0).val < 100000 := (i 0).isLt
  have hi1 : (i 1).val < 128 := (i 1).isLt
  have hN : cfg4.N = 25 := N_4
  let t : Fin cfg4.N := ⟨(i 0).val / 4000, by rw [hN]; omega⟩
  obtain ⟨-, -, -, -, -, -, e0, e1⟩ := idx_facts4 t
  have ht : t.val = (i 0).val / 4000 := rfl
  refine ⟨t, flush4_3 t, ?_⟩
  rw [mem_blk4]
  intro a
  match a with
  | ⟨0, _⟩ => show win4_3.index t (0 : Fin 2) * 4000 ≤ (i 0).val ∧ (i 0).val < win4_3.index t (0 : Fin 2) * 4000 + 4000; rw [e0]; omega
  | ⟨1, _⟩ => show win4_3.index t (1 : Fin 2) * 128 ≤ (i 1).val ∧ (i 1).val < win4_3.index t (1 : Fin 2) * 128 + 128; rw [e1]; omega

/-- Region 4's output array ends holding the projection of the arrays the region found. -/
theorem final4 (c : Dev nD) :
    (Fr.dat4 (F := Ideal) V c).arrAt 3 cfg4.N = tileProj (V c main_v38) (V c main_v13) (V c main_arg5) :=
  (Fr.dat4 (F := Ideal) V c).arrAt_eq_of_cover 3 _ (fun t _ => flushed4_eq V c t) cover4

end Region4

/-! ## Region 5 -/

section Region5

variable (V : (c : Dev nD) → (b : Ref sig .tc) → Buf (Elt Ideal) ((c : Thread nD τ).loc b))

/-- The block index maps over the 25 grid points: the row tiles move with the point, the bias stays. -/
theorem idx_facts5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 1) = 0
    ∧ win5_3.index t (0 : Fin 2) = t.val ∧ win5_3.index t (1 : Fin 2) = 0 :=
  (by decide +kernel : ∀ t : Fin grid5.N, _)

/-- The node tile at point `t` is rows `4000 t …` of the node array. -/
theorem blk5_0_apply (c : Dev nD) (t : Fin cfg5.N) (y : S4000x128.Idx) (i : S100000x128.Idx)
    (h0 : (i 0).val = t.val * 4000 + (y 0).val) (h1 : (i 1).val = (y 1).val) :
    (Fr.iblk5 (F := Ideal) V c 0 t : Vec Ideal S4000x128 .f32) y = (V c main_v49 : S100000x128.Idx → EReal) i := by
  obtain ⟨e0, e1, -⟩ := idx_facts5 t
  unfold Fr.iblk5
  rw [View.read_apply]
  show (V c main_v49 : S100000x128.Idx → EReal) _ = _
  congr 1
  funext a
  apply Fin.ext
  match a with
  | ⟨0, _⟩ => show win5_0.index t 0 * 4000 + 1 * (y 0).val = (i 0).val; rw [e0, h0]; omega
  | ⟨1, _⟩ => show win5_0.index t 1 * 128 + 1 * (y 1).val = (i 1).val; rw [e1, h1]; omega

/-- The column tile at point `t` is rows `4000 t …` of the scaling column. -/
theorem blk5_1_apply (c : Dev nD) (t : Fin cfg5.N) (y : S4000x1.Idx) (i : S100000x1.Idx)
    (h0 : (i 0).val = t.val * 4000 + (y 0).val) (h1 : (i 1).val = (y 1).val) :
    (Fr.iblk5 (F := Ideal) V c 1 t : Vec Ideal S4000x1 .f32) y = (V c main_v14 : S100000x1.Idx → EReal) i := by
  obtain ⟨-, -, e0, e1, -⟩ := idx_facts5 t
  unfold Fr.iblk5
  rw [View.read_apply]
  show (V c main_v14 : S100000x1.Idx → EReal) _ = _
  congr 1
  funext a
  apply Fin.ext
  match a with
  | ⟨0, _⟩ => show win5_1.index t 0 * 4000 + 1 * (y 0).val = (i 0).val; rw [e0, h0]; omega
  | ⟨1, _⟩ => show win5_1.index t 1 * 1 + 1 * (y 1).val = (i 1).val; rw [e1, h1]; omega

/-- The bias block at every point is the whole bias vector. -/
theorem blk5_2_apply (c : Dev nD) (t : Fin cfg5.N) (y : S128.Idx) :
    (Fr.iblk5 (F := Ideal) V c 2 t : Vec Ideal S128 .f32) y = (V c main_arg6 : S128.Idx → EReal) y := by
  obtain ⟨-, -, -, -, e0, -⟩ := idx_facts5 t
  unfold Fr.iblk5
  rw [View.read_apply]
  show (V c main_arg6 : S128.Idx → EReal) _ = _
  congr 1
  funext a
  apply Fin.ext
  match a with
  | ⟨0, _⟩ => show win5_2.index t 0 * 128 + 1 * (y 0).val = (y 0).val; rw [e0]; omega

/-- Point `t` writes back block `t` of the activation of the arrays the region found. -/
theorem flushed5_eq (c : Dev nD) (t : Fin cfg5.N) :
    (Fr.dat5 (F := Ideal) V c).flushed 3 t
      = ((cfg5.win 3).blk t).view.read (Elt Ideal) (tileAct (V c main_v49) (V c main_v14) (V c main_arg6)) := by
  show (cfg5.win 3).cut (grid5.coords t) ((Fr.dat5 (F := Ideal) V c).after 3 t) = _
  rw [Fr.after5_3]
  unfold Fr.out5_3
  rw [View.canon_unit_zero hz]
  simp only [View.ld_unit_zero (S := S4000x128) hz, View.ld_unit_zero (S := S4000x1) hz, View.ld_unit_zero (S := S128) hz1]
  obtain ⟨-, -, -, -, -, e0, e1⟩ := idx_facts5 t
  funext j
  rw [View.read_apply]
  refine (act_entry5' _ _ _ _).trans ?_
  have r0 : ((((cfg5.win 3).blk t).view.emb j) 0).val = t.val * 4000 + (j 0).val := by
    show win5_3.index t 0 * 4000 + 1 * (j 0).val = _; rw [e0]; omega
  have r1 : ((((cfg5.win 3).blk t).view.emb j) 1).val = (j 1).val := by
    show win5_3.index t 1 * 128 + 1 * (j 1).val = _; rw [e1]; omega
  unfold tileAct
  refine congrArg (fun z : EReal => max z (Ideal.ofBits .f32 0x00000000#32)) ?_
  refine congrArg₂ (fun y z : EReal => y + z) (congrArg₂ (fun y z : EReal => y * z) ?_ ?_) ?_
  · exact blk5_0_apply V c t _ _ r0 r1
  · exact blk5_1_apply V c t _ _ r0 rfl
  · refine (blk5_2_apply V c t _).trans ?_
    refine congrArg (V c main_arg6 : S128.Idx → EReal) (funext fun a => Fin.ext ?_)
    match a with
    | ⟨0, _⟩ => exact r1.symm

/-- An index of the output array is in point `t`'s block iff each coordinate is in the block's range on its axis. -/
theorem mem_blk5 (t : Fin cfg5.N) (i : S100000x128.Idx) :
    i ∈ ((cfg5.win 3).blk t).view.set ↔ ∀ a : Fin 2, win5_3.index t a * S4000x128.size a ≤ (i a).val ∧ (i a).val < win5_3.index t a * S4000x128.size a + S4000x128.size a := by
  show i ∈ ((View.whole main_v50).slice (win5_3.rect t)).set ↔ _
  rw [View.set_slice_whole, Rect.mem_set_unit]
  exact Iff.rfl

/-- Every row is in the tile of the point `row / 4000`. -/
theorem cover5 (i : S100000x128.Idx) : ∃ t : Fin cfg5.N, (cfg5.win 3).flush t = true ∧ i ∈ ((cfg5.win 3).blk t).view.set := by
  have hi0 : (i 0).val < 100000 := (i 0).isLt
  have hi1 : (i 1).val < 128 := (i 1).isLt
  have hN : cfg5.N = 25 := N_5
  let t : Fin cfg5.N := ⟨(i 0).val / 4000, by rw [hN]; omega⟩
  obtain ⟨-, -, -, -, -, e0, e1⟩ := idx_facts5 t
  have ht : t.val = (i 0).val / 4000 := rfl
  refine ⟨t, flush5_3 t, ?_⟩
  rw [mem_blk5]
  intro a
  match a with
  | ⟨0, _⟩ => show win5_3.index t (0 : Fin 2) * 4000 ≤ (i 0).val ∧ (i 0).val < win5_3.index t (0 : Fin 2) * 4000 + 4000; rw [e0]; omega
  | ⟨1, _⟩ => show win5_3.index t (1 : Fin 2) * 128 ≤ (i 1).val ∧ (i 1).val < win5_3.index t (1 : Fin 2) * 128 + 128; rw [e1]; omega

/-- Region 5's output array ends holding the activation of the arrays the region found. -/
theorem final5 (c : Dev nD) :
    (Fr.dat5 (F := Ideal) V c).arrAt 3 cfg5.N = tileAct (V c main_v49) (V c main_v14) (V c main_arg6) :=
  (Fr.dat5 (F := Ideal) V c).arrAt_eq_of_cover 3 _ (fun t _ => flushed5_eq V c t) cover5

end Region5

end Cert.KernelIdeal.TileValue

end
-- ==== Proof.KI.Value.lean ====
import proofs.«106910_j66125316489905_1_alg».proof.Proof.KI.HostOps
import proofs.«106910_j66125316489905_1_alg».proof.Proof.KI.TileValue

/-!
# The idealized kernel's result is the specification

Region by region: a pre-aggregation region leaves `(h · inv_out) W` of the node array it found, the host stretch after it gathers and
scatter-adds those rows, a post-aggregation region leaves `relu (agg · inv_in + b)`: together one layer of the specification. The tiles'
[100000, 1] scaling column is the specification's degree vector read at the row. Three layers, then the four blocks side by side.
-/

noncomputable section

namespace Cert.KernelIdeal.HostValue

open Idealize.ShloMosaic Idealize.ShloMosaic.TcCoe Idealize.ShloMosaic.ValueIdx Idealize.SL.Sem
open Cert.KernelIdeal Cert.KernelIdeal.Facts₀ Cert.KernelIdeal.Facts Cert.KernelIdeal.Gen Cert.KernelIdeal.Fr Cert.KernelIdeal.TileValue

/-- A projection written with a [100000, 1] scaling column is the specification's, when the column's row `r` is the vector's entry `r`. -/
theorem proj_step {x0 h : Cert.Spec.NodeMat} {x1 : S100000x1.Idx → EReal} {inv : Cert.Spec.NodeVec} {x2 W : Cert.Spec.Weight}
    (e0 : x0 = h) (e1 : ∀ r : Fin 100000, x1 (ix2 r (0 : Fin 1)) = inv (ix1 r)) (e2 : x2 = W) :
    tileProj x0 x1 x2 = Cert.Spec.proj h inv W := by
  subst e0; subst e2
  funext i
  show (∑ k : Fin 128, (x0 (ix2 (i 0) k) * x1 (ix2 (i 0) 0)) * x2 (ix2 k (i 1))) = ∑ k : Fin 128, (x0 (ix2 (i 0) k) * inv (ix1 (i 0))) * x2 (ix2 k (i 1))
  refine Finset.sum_congr rfl fun k _ => ?_
  exact congrArg (fun z => (x0 (ix2 (i 0) k) * z) * x2 (ix2 k (i 1))) (e1 (i 0))

/-- Likewise the scale-shift-clamp. -/
theorem act_step {x0 a : Cert.Spec.NodeMat} {x1 : S100000x1.Idx → EReal} {inv : Cert.Spec.NodeVec} {x2 b : Cert.Spec.Bias}
    (e0 : x0 = a) (e1 : ∀ r : Fin 100000, x1 (ix2 r (0 : Fin 1)) = inv (ix1 r)) (e2 : x2 = b) :
    tileAct x0 x1 x2 = Cert.Spec.act a inv b := by
  subst e0; subst e2
  funext i
  show max (x0 i * x1 (ix2 (i 0) 0) + x2 (ix1 (i 1))) (Ideal.ofBits .f32 0x00000000#32) = max (x0 i * inv (ix1 (i 0)) + x2 (ix1 (i 1))) (Ideal.ofBits .f32 0x00000000#32)
  exact congrArg (fun z => max (x0 i * z + x2 (ix1 (i 1))) (Ideal.ofBits .f32 0x00000000#32)) (e1 (i 0))

variable (m : (ℓ : Loc nD τ sig) → Buf (Elt Ideal) ℓ) (ρ : Dev nD → PrngReg) (c : Dev nD)

abbrev feat : Cert.Spec.NodeMat := m ((c.tc : Thread nD τ).loc main_arg0)
abbrev wt0 : Cert.Spec.Weight := m ((c.tc : Thread nD τ).loc main_arg1)
abbrev bs0 : Cert.Spec.Bias := m ((c.tc : Thread nD τ).loc main_arg2)
abbrev wt1 : Cert.Spec.Weight := m ((c.tc : Thread nD τ).loc main_arg3)
abbrev bs1 : Cert.Spec.Bias := m ((c.tc : Thread nD τ).loc main_arg4)
abbrev wt2 : Cert.Spec.Weight := m ((c.tc : Thread nD τ).loc main_arg5)
abbrev bs2 : Cert.Spec.Bias := m ((c.tc : Thread nD τ).loc main_arg6)

/-- The out-degree column at the entries of regions 2 and 4, the in-degree column at those of regions 1, 3, 5: still what the first stretch left. -/
theorem v14_at3 (r : Fin 100000) : (W3 m ρ c (Proc.devRef .tc main_v14) : S100000x1.Idx → EReal) (ix2 r (0 : Fin 1)) = Cert.Spec.invSqrtDeg (dstIx m c) (ix1 r) :=
  (congrFun (W_from1 m ρ main_v14 (by decide) (by decide) (by decide) (by decide) c).1 (ix2 r (0 : Fin 1))).trans (v14_at m ρ c r)
theorem v13_at4 (r : Fin 100000) : (W4 m ρ c (Proc.devRef .tc main_v13) : S100000x1.Idx → EReal) (ix2 r (0 : Fin 1)) = Cert.Spec.invSqrtDeg (srcIx m c) (ix1 r) :=
  (congrFun (W_from1 m ρ main_v13 (by decide) (by decide) (by decide) (by decide) c).2.1 (ix2 r (0 : Fin 1))).trans (v13_at m ρ c r)
theorem v14_at6 (r : Fin 100000) : (W6 m ρ c (Proc.devRef .tc main_v14) : S100000x1.Idx → EReal) (ix2 r (0 : Fin 1)) = Cert.Spec.invSqrtDeg (dstIx m c) (ix1 r) :=
  (congrFun (W_from1 m ρ main_v14 (by decide) (by decide) (by decide) (by decide) c).2.2.1 (ix2 r (0 : Fin 1))).trans (v14_at m ρ c r)
theorem v13_at7 (r : Fin 100000) : (W7 m ρ c (Proc.devRef .tc main_v13) : S100000x1.Idx → EReal) (ix2 r (0 : Fin 1)) = Cert.Spec.invSqrtDeg (srcIx m c) (ix1 r) :=
  (congrFun (W_from1 m ρ main_v13 (by decide) (by decide) (by decide) (by decide) c).2.2.2.1 (ix2 r (0 : Fin 1))).trans (v13_at m ρ c r)
theorem v14_at9 (r : Fin 100000) : (W9 m ρ c (Proc.devRef .tc main_v14) : S100000x1.Idx → EReal) (ix2 r (0 : Fin 1)) = Cert.Spec.invSqrtDeg (dstIx m c) (ix1 r) :=
  (congrFun (W_from1 m ρ main_v14 (by decide) (by decide) (by decide) (by decide) c).2.2.2.2 (ix2 r (0 : Fin 1))).trans (v14_at m ρ c r)

/-- The three layers' outputs. -/
abbrev h1 : Cert.Spec.NodeMat := Cert.Spec.layer (feat m c) (wt0 m c) (bs0 m c) (srcIx m c) (dstIx m c)
abbrev h2 : Cert.Spec.NodeMat := Cert.Spec.layer (h1 m c) (wt1 m c) (bs1 m c) (srcIx m c) (dstIx m c)
abbrev h3 : Cert.Spec.NodeMat := Cert.Spec.layer (h2 m c) (wt2 m c) (bs2 m c) (srcIx m c) (dstIx m c)

/-! ## Layer 1 -/

theorem v15_W2 : (W2 m ρ c (Proc.devRef .tc main_v15) : Cert.Spec.NodeMat)
    = Cert.Spec.proj (feat m c) (Cert.Spec.invSqrtDeg (srcIx m c)) (wt0 m c) :=
  (W2_arr m ρ c 3).trans ((final0 (V1 m ρ) c).trans (proj_step
    (W_const m ρ main_arg0 (by decide) (by decide) (by decide) (by decide) (by decide) (by decide) c).1
    (v13_at m ρ c)
    (W_const m ρ main_arg1 (by decide) (by decide) (by decide) (by decide) (by decide) (by decide) c).1))

theorem v26_W4 : (W4 m ρ c (Proc.devRef .tc main_v26) : Cert.Spec.NodeMat) = h1 m c :=
  (W4_arr m ρ c 3).trans ((final1 (V3 m ρ) c).trans (act_step
    ((v25_W3 m ρ c).trans (congrArg (fun x => Cert.Spec.agg x (srcIx m c) (dstIx m c)) (v15_W2 m ρ c)))
    (v14_at3 m ρ c)
    (W_const m ρ main_arg2 (by decide) (by decide) (by decide) (by decide) (by decide) (by decide) c).2.2.1))

/-! ## Layer 2 -/

theorem v27_W5 : (W5 m ρ c (Proc.devRef .tc main_v27) : Cert.Spec.NodeMat)
    = Cert.Spec.proj (h1 m c) (Cert.Spec.invSqrtDeg (srcIx m c)) (wt1 m c) :=
  (W5_arr m ρ c 3).trans ((final2 (V4 m ρ) c).trans (proj_step
    (v26_W4 m ρ c)
    (v13_at4 m ρ c)
    (W_const m ρ main_arg3 (by decide) (by decide) (by decide) (by decide) (by decide) (by decide) c).2.2.2.1))

theorem v38_W7 : (W7 m ρ c (Proc.devRef .tc main_v38) : Cert.Spec.NodeMat) = h2 m c :=
  (W7_arr m ρ c 3).trans ((final3 (V6 m ρ) c).trans (act_step
    ((v37_W6 m ρ c).trans (congrArg (fun x => Cert.Spec.agg x (srcIx m c) (dstIx m c)) (v27_W5 m ρ c)))
    (v14_at6 m ρ c)
    (W_const m ρ main_arg4 (by decide) (by decide) (by decide) (by decide) (by decide) (by decide) c).2.2.2.2.2.1))

/-! ## Layer 3 -/

theorem v39_W8 : (W8 m ρ c (Proc.devRef .tc main_v39) : Cert.Spec.NodeMat)
    = Cert.Spec.proj (h2 m c) (Cert.Spec.invSqrtDeg (srcIx m c)) (wt2 m c) :=
  (W8_arr m ρ c 3).trans ((final4 (V7 m ρ) c).trans (proj_step
    (v38_W7 m ρ c)
    (v13_at7 m ρ c)
    (W_const m ρ main_arg5 (by decide) (by decide) (by decide) (by decide) (by decide) (by decide) c).2.2.2.2.2.2.1))

theorem v50_W10 : (W10 m ρ c (Proc.devRef .tc main_v50) : Cert.Spec.NodeMat) = h3 m c :=
  (W10_arr m ρ c 3).trans ((final5 (V9 m ρ) c).trans (act_step
    ((v49_W9 m ρ c).trans (congrArg (fun x => Cert.Spec.agg x (srcIx m c) (dstIx m c)) (v39_W8 m ρ c)))
    (v14_at9 m ρ c)
    (W_const m ρ main_arg6 (by decide) (by decide) (by decide) (by decide) (by decide) (by decide) c).2.2.2.2.2.2.2.2.1))

/-! ## The result -/

/-- What the program returns: the specification of the launch's argument arrays. -/
theorem out_eq : (W11 m ρ c (Proc.devRef .tc main_v51) : (⟨S100000x512, .f32⟩ : BufTy).Contents (Elt Ideal))
    = Cert.Spec.out (feat m c) (wt0 m c) (bs0 m c) (wt1 m c) (bs1 m c) (wt2 m c) (bs2 m c) (srcIx m c) (dstIx m c) := by
  rw [v51_W11, (W_const m ρ main_arg0 (by decide) (by decide) (by decide) (by decide) (by decide) (by decide) c).2.2.2.2.2.2.2.2.2.1,
    W10_v26, W10_v38, v26_W4, v38_W7, v50_W10]
  rfl

/-- THE VALUE RUN: every weakly fair execution of the idealized kernel's @main terminates, nothing faulting, with the result array at
    the specification of the argument arrays and every argument array as launched. -/
theorem run : θ_run defs (onTc (τ := τ) (main (F := Ideal))) ⟨m, fun _ => 0, ρ⟩ (fun r => ∀ c : Dev nD,
      r.2.mem ((c.tc : Thread nD τ).loc main_v51)
        = Cert.Spec.out (feat m c) (wt0 m c) (bs0 m c) (wt1 m c) (bs1 m c) (wt2 m c) (bs2 m c) (srcIx m c) (dstIx m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_v51 (by decide))).trans (out_eq m ρ c), args_of_all m ρ r.2.mem h c⟩) (run_all m ρ)

end Cert.KernelIdeal.HostValue

end
-- ==== Proof.RefValue.lean ====
import proofs.«106910_j66125316489905_1_alg».proof.Proof.Spec
import proofs.«106910_j66125316489905_1_alg».proof.Proof.Gen.ReferenceIdeal.Run
import proofs.«106910_j66125316489905_1_alg».proof.Proof.Gen.ReferenceIdeal.Read

/-! # The reference's result is the specification

The reference program computes the two inverse-square-root degree vectors once and then runs the same chain of operations three times, on the
features and on each layer's result. The chain is stated once, over an arbitrary input matrix, and shown equal to `Spec.layer`; each of the
program's three layer results is that chain by unfolding its definitions, and the result is the concatenation of the four blocks. -/

noncomputable section

namespace Cert.RefValue

open Idealize.ShloMosaic Idealize.ShloMosaic.ValueIdx Cert.ReferenceIdeal Cert.ReferenceIdeal.Facts₀ Cert.ReferenceIdeal.Facts
  Cert.ReferenceIdeal.Read Cert.Spec

/-- A node vector made a column and then spread across the 128 columns reads the vector at the row. -/
theorem colSpread_apply (v : NodeVec) (i : S100000x128.Idx) :
    broadcastInDim S100000x128 ![0, 1] bcast_S100000x1_S100000x128_0_1
      (broadcastInDim S100000x1 ![0] bcast_S100000_S100000x1_0 v) i = v (ix1 (i 0)) := by
  refine (broadcastInDim_apply _ bcast_S100000x1_S100000x128_0_1 _ i (idx_main_v14 i) (fun a => match a with
    | ⟨0, _⟩ => by show (i 0).val = if (100000 : Nat) = 1 then 0 else (i 0).val; rw [if_neg (by decide)]
    | ⟨1, _⟩ => by show 0 = if (1 : Nat) = 1 then 0 else (i 1).val; rw [if_pos rfl])).trans ?_
  refine (broadcastInDim_apply _ bcast_S100000_S100000x1_0 v (idx_main_v14 i) (idx_main_v13 (idx_main_v14 i)) (fun a => match a with
    | ⟨0, _⟩ => by
      show (idx_main_v14 i 0).val = if (100000 : Nat) = 1 then 0 else (idx_main_v14 i 0).val
      rw [if_neg (by decide)])).trans ?_
  refine congrArg v (funext fun a => ?_)
  match a with
  | ⟨0, _⟩ => rfl

/-- A bias vector made a row and then spread down the 100 000 rows reads the vector at the column. -/
theorem rowSpread_apply (b : Bias) (i : S100000x128.Idx) :
    broadcastInDim S100000x128 ![0, 1] bcast_S1x128_S100000x128_0_1
      (broadcastInDim S1x128 ![1] bcast_S128_S1x128_1 b) i = b (ix1 (i 1)) := by
  refine (broadcastInDim_apply _ bcast_S1x128_S100000x128_0_1 _ i (idx_main_v31 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])).trans ?_
  refine (broadcastInDim_apply _ bcast_S128_S1x128_1 b (idx_main_v31 i) (idx_main_v30 (idx_main_v31 i)) (fun a => match a with
    | ⟨0, _⟩ => by
      show (idx_main_v31 i 1).val = if (128 : Nat) = 1 then 0 else (idx_main_v31 i 1).val
      rw [if_neg (by decide)])).trans ?_
  refine congrArg b (funext fun a => ?_)
  match a with
  | ⟨0, _⟩ => rfl

/-- The zero literal spread over the node matrix is zero at every entry. -/
theorem zeroSpread_apply (i : S100000x128.Idx) :
    broadcastInDim S100000x128 ![] bcast_S_S100000x128 (constant (F := Ideal) S_ .f32 0x00000000#32) i
      = Ideal.ofBits .f32 0x00000000#32 :=
  broadcastInDim_apply _ bcast_S_S100000x128 (constant (F := Ideal) S_ .f32 0x00000000#32) i (idx_main_v24 i) (fun a => a.elim0)

/-- The matrix product `[100000,128]·[128,128]` at an entry is the sum over the shared axis. -/
theorem dot_apply (y : NodeMat) (W : Weight) (i : S100000x128.Idx) :
    Host.dotGeneral (F := Ideal) (φ₁ := .f32) (φ₂ := .f32) dot_S100000x128_S128x128_S100000x128_1_0_0_1_n_n none y W i
      = ∑ k : Fin 128, y (ix2 (i 0) k) * W (ix2 k (i 1)) := by
  simp only [Host.dotGeneral]
  rw [Ideal.dotGeneral_apply, ← Equiv.sum_comp (ValueIdx.contrEquiv1 dot_S100000x128_S128x128_S100000x128_1_0_0_1_n_n 128 rfl rfl).symm]
  refine Finset.sum_congr rfl fun k _ => ?_
  have hk := ValueIdx.contrEquiv1_symm_val dot_S100000x128_S128x128_S100000x128_1_0_0_1_n_n 128 rfl rfl k
  have el : dot_S100000x128_S128x128_S100000x128_1_0_0_1_n_n.lhsIdx i ((ValueIdx.contrEquiv1 dot_S100000x128_S128x128_S100000x128_1_0_0_1_n_n 128 rfl rfl).symm k) = ix2 (i 0) k := funext fun a => Fin.ext (by
    match a with
    | ⟨0, _⟩ => exact lhs_main_v16_0 _ _
    | ⟨1, _⟩ => exact (lhs_main_v16_1 _ _).trans hk)
  have er : dot_S100000x128_S128x128_S100000x128_1_0_0_1_n_n.rhsIdx i ((ValueIdx.contrEquiv1 dot_S100000x128_S128x128_S100000x128_1_0_0_1_n_n 128 rfl rfl).symm k) = ix2 k (i 1) := funext fun a => Fin.ext (by
    match a with
    | ⟨0, _⟩ => exact (rhs_main_v16_0 _ _).trans hk
    | ⟨1, _⟩ => exact rhs_main_v16_1 _ _)
  rw [el, er]
  rfl

/-- Rows scaled by a node vector and multiplied into the weights, as the program spells it, is `Spec.proj`. -/
theorem projRef_eq (h : NodeMat) (inv : NodeVec) (W : Weight) :
    Host.dotGeneral (F := Ideal) (φ₁ := .f32) (φ₂ := .f32) dot_S100000x128_S128x128_S100000x128_1_0_0_1_n_n none
      (mulf (F := Ideal) (φ := .f32) h (broadcastInDim S100000x128 ![0, 1] bcast_S100000x1_S100000x128_0_1
        (broadcastInDim S100000x1 ![0] bcast_S100000_S100000x1_0 inv))) W = proj h inv W := by
  funext i
  refine (dot_apply _ W i).trans ?_
  refine Finset.sum_congr rfl fun k _ => ?_
  rw [mulf_apply, colSpread_apply]
  try rfl

/-- One layer as the program spells it, over an arbitrary input matrix. -/
def layerRef (h : NodeMat) (W : Weight) (b : Bias) (src dst : EdgeIx) : NodeMat :=
  maximumf (F := Ideal) (φ := .f32)
    (addf (F := Ideal) (φ := .f32)
      (mulf (F := Ideal) (φ := .f32)
        (agg (Host.dotGeneral (F := Ideal) (φ₁ := .f32) (φ₂ := .f32) dot_S100000x128_S128x128_S100000x128_1_0_0_1_n_n none
          (mulf (F := Ideal) (φ := .f32) h (broadcastInDim S100000x128 ![0, 1] bcast_S100000x1_S100000x128_0_1
            (broadcastInDim S100000x1 ![0] bcast_S100000_S100000x1_0 (invSqrtDeg src)))) W) src dst)
        (broadcastInDim S100000x128 ![0, 1] bcast_S100000x1_S100000x128_0_1
          (broadcastInDim S100000x1 ![0] bcast_S100000_S100000x1_0 (invSqrtDeg dst))))
      (broadcastInDim S100000x128 ![0, 1] bcast_S1x128_S100000x128_0_1 (broadcastInDim S1x128 ![1] bcast_S128_S1x128_1 b)))
    (broadcastInDim S100000x128 ![] bcast_S_S100000x128 (constant (F := Ideal) S_ .f32 0x00000000#32))

theorem layerRef_eq (h : NodeMat) (W : Weight) (b : Bias) (src dst : EdgeIx) :
    layerRef h W b src dst = layer h W b src dst := by
  unfold layerRef layer
  rw [projRef_eq]
  funext i
  rw [maximumf_apply, addf_apply, mulf_apply, colSpread_apply, rowSpread_apply, zeroSpread_apply]
  rfl

theorem v33_eq (x0 : NodeMat) (x1 : Weight) (x2 : Bias) (x7 x8 : EdgeIx) :
    val_main_v33 (F := Ideal) x0 x1 x2 x7 x8 = layerRef x0 x1 x2 x7 x8 := rfl

theorem v54_eq (x0 : NodeMat) (x1 : Weight) (x2 : Bias) (x3 : Weight) (x4 : Bias) (x7 x8 : EdgeIx) :
    val_main_v54 (F := Ideal) x0 x1 x2 x3 x4 x7 x8 = layerRef (val_main_v33 (F := Ideal) x0 x1 x2 x7 x8) x3 x4 x7 x8 := rfl

theorem v75_eq (x0 : NodeMat) (x1 : Weight) (x2 : Bias) (x3 : Weight) (x4 : Bias) (x5 : Weight) (x6 : Bias) (x7 x8 : EdgeIx) :
    val_main_v75 (F := Ideal) x0 x1 x2 x3 x4 x5 x6 x7 x8
      = layerRef (val_main_v54 (F := Ideal) x0 x1 x2 x3 x4 x7 x8) x5 x6 x7 x8 := rfl

/-- The reference's result is the specification. -/
theorem ref_is_spec (x0 : Cert.Spec.NodeMat) (x1 : Cert.Spec.Weight) (x2 : Cert.Spec.Bias) (x3 : Cert.Spec.Weight)
    (x4 : Cert.Spec.Bias) (x5 : Cert.Spec.Weight) (x6 : Cert.Spec.Bias) (x7 x8 : Cert.Spec.EdgeIx) :
    Cert.ReferenceIdeal.Read.val_main_v76 (F := Ideal) x0 x1 x2 x3 x4 x5 x6 x7 x8 = Cert.Spec.out x0 x1 x2 x3 x4 x5 x6 x7 x8 := by
  have e1 : val_main_v33 (F := Ideal) x0 x1 x2 x7 x8 = layer x0 x1 x2 x7 x8 := (v33_eq ..).trans (layerRef_eq ..)
  have e2 : val_main_v54 (F := Ideal) x0 x1 x2 x3 x4 x7 x8 = layer (layer x0 x1 x2 x7 x8) x3 x4 x7 x8 := by
    rw [v54_eq, e1, layerRef_eq]
  have e3 : val_main_v75 (F := Ideal) x0 x1 x2 x3 x4 x5 x6 x7 x8
      = layer (layer (layer x0 x1 x2 x7 x8) x3 x4 x7 x8) x5 x6 x7 x8 := by
    rw [v75_eq, e2, layerRef_eq]
  unfold val_main_v76 out
  rw [e1, e2, e3]

end Cert.RefValue

end
-- ==== Proof.lean ====
/-
  Three rounds of graph convolution over 100 000 nodes and 1 600 000 edges, against the plain jnp reference.

  Per round the kernel's program runs a tiled kernel that scales each node's feature row by `(max out-degree 1)^(-1/2)` and multiplies by
  the 128×128 weight, then — on the host — gathers the projected rows by the edges' sources and scatter-adds them by destination, then a
  second tiled kernel scales each aggregated row by `(max in-degree 1)^(-1/2)`, adds the bias and clamps below at zero; the result is the
  features and the three rounds' outputs side by side. Over the extended reals the reference computes the same entries: a change of float
  format is the identity, a tile-by-tile matrix product is the matrix product, and the [100000, 1] scaling column is the degree vector read
  at the row. No rearrangement of a sum is needed, so the finiteness of the inputs is never used.

  The frames (every run ends, nothing faults, the arguments end as launched) come from one run of the program's eleven segments — five
  stretches of host operations and six kernel regions — at the word-level and at the idealized instance alike; the reference's from its run.
  Nothing was rewritten in the idealization, so `preserves` asks nothing.
-/
import proofs.«106910_j66125316489905_1_alg».proof.Defs
import proofs.«106910_j66125316489905_1_alg».proof.Proof.Gen.Kernel
import proofs.«106910_j66125316489905_1_alg».proof.Proof.Gen.KernelIdeal
import proofs.«106910_j66125316489905_1_alg».proof.Proof.Gen.ReferenceIdeal
import proofs.«106910_j66125316489905_1_alg».proof.Proof.Gen.Pre_finite_inputs
import proofs.«106910_j66125316489905_1_alg».proof.Proof.K.Keep
import proofs.«106910_j66125316489905_1_alg».proof.Proof.KI.Keep
import proofs.«106910_j66125316489905_1_alg».proof.Proof.KI.Value
import proofs.«106910_j66125316489905_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Fr.frame m ρ

theorem frame_ki : Cert.frame_KernelIdeal := fun m ρ _ => Cert.KernelIdeal.Fr.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the specification of their argument arrays, and the argument arrays agree. -/
theorem algebraic : Cert.algebraic_KernelIdeal_ReferenceIdeal := by
  intro m ρ m' ρ' _ hagree
  refine ⟨_, Cert.KernelIdeal.HostValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v76_eq, Cert.RefValue.ref_is_spec,
    (hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
